-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v110)) (v2 : (c : Dev Cert.KernelIdeal.nD) → Buf (Elt Ideal) ((c.tc : Thread Cert.KernelIdeal.nD Cert.KernelIdeal.τ).loc Cert.KernelIdeal.main_v111)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_v111) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S128x128 : Shape := ⟨2, ![128, 128]⟩
abbrev S20000x1 : Shape := ⟨2, ![20000, 1]⟩
abbrev S3x128x128 : Shape := ⟨3, ![3, 128, 128]⟩
abbrev S70000x1 : Shape := ⟨2, ![70000, 1]⟩
abbrev S2x1000000 : Shape := ⟨2, ![2, 1000000]⟩
abbrev S8192 : Shape := ⟨1, ![8192]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S20000x1 : S_.BroadcastsInDim S20000x1 (![] : Fin 0 → Fin S20000x1.rank)
  reducesTo_S20000x1_S_d0_1 : S20000x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S70000x1 : S_.BroadcastsInDim S70000x1 (![] : Fin 0 → Fin S70000x1.rank)
  reducesTo_S70000x1_S_d0_1 : S70000x1.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_arg12 : IVec S8192 32) (main_arg13 : IVec S8192 32) (main_v48 : IVec S_ 1) (main_v50 : IVec S8192 1) : IVec S_ 1 :=
  let main_c_19 : IVec S_ 32 := constantI S_ 32 50000#32
  let main_v51 : IVec S8192 32 := broadcastInDim S8192 ![] bcast_S_S8192 main_c_19
  let main_v52 : IVec S8192 1 := cmpi .slt main_arg12 main_v51
  let main_v53 : IVec S8192 1 := andi main_v50 main_v52
  let main_c_20 : IVec S_ 1 := constantI S_ 1 1#1
  let main_v54 : IVec S_ 1 := (fun x v => Host.reduce IntOp.andi x v reducesTo_S8192_S_d0 h_S_) main_v53 main_c_20
  let main_v55 : IVec S_ 1 := andi main_v48 main_v54
  let main_c_21 : IVec S_ 32 := constantI S_ 32 0#32
  let main_v56 : IVec S8192 32 := broadcastInDim S8192 ![] bcast_S_S8192 main_c_21
  let main_v57 : IVec S8192 1 := cmpi .sge main_arg13 main_v56
  let main_c_22 : IVec S_ 32 := constantI S_ 32 20000#32
  let main_v58 : IVec S8192 32 := broadcastInDim S8192 ![] bcast_S_S8192 main_c_22
  let main_v59 : IVec S8192 1 := cmpi .slt main_arg13 main_v58
  let main_v60 : IVec S8192 1 := andi main_v57 main_v59
  let main_c_23 : IVec S_ 1 := constantI S_ 1 1#1
  let main_v61 : IVec S_ 1 := (fun x v => Host.reduce IntOp.andi x v reducesTo_S8192_S_d0 h_S_) main_v60 main_c_23
  let main_v62 : IVec S_ 1 := andi main_v55 main_v61
  main_v62

def fn_part2 {F : FTy → Type} [FloatOps F] (main_arg7 : FVec F S70000x1 .f32) (main_arg8 : FVec F S70000x1 .f32) (main_arg9 : FVec F S70000x1 .f32) (main_arg12 : IVec S8192 32) (main_arg13 : IVec S8192 32) (main_v33 : IVec S_ 1) : IVec S_ 1 :=
  let main_v34 : FVec F S70000x1 .f32 := Host.absf main_arg7
  let main_cst_12 : FVec F S_ .f32 := constant S_ .f32 0x7F800000#32
  let main_v35 : FVec F S70000x1 .f32 := broadcastInDim S70000x1 ![] bcast_S_S70000x1 main_cst_12
  let main_v36 : IVec S70000x1 1 := cmpf .olt main_v34 main_v35
  let main_c_13 : IVec S_ 1 := constantI S_ 1 1#1
  let main_v37 : IVec S_ 1 := (fun x v => Host.reduce IntOp.andi x v reducesTo_S70000x1_S_d0_1 h_S_) main_v36 main_c_13
  let main_v38 : IVec S_ 1 := andi main_v33 main_v37
  let main_v39 : FVec F S70000x1 .f32 := Host.absf main_arg8
  let main_cst_14 : FVec F S_ .f32 := constant S_ .f32 0x7F800000#32
  let main_v40 : FVec F S70000x1 .f32 := broadcastInDim S70000x1 ![] bcast_S_S70000x1 main_cst_14
  let main_v41 : IVec S70000x1 1 := cmpf .olt main_v39 main_v40
  let main_c_15 : IVec S_ 1 := constantI S_ 1 1#1
  let main_v42 : IVec S_ 1 := (fun x v => Host.reduce IntOp.andi x v reducesTo_S70000x1_S_d0_1 h_S_) main_v41 main_c_15
  let main_v43 : IVec S_ 1 := andi main_v38 main_v42
  let main_v44 : FVec F S70000x1 .f32 := Host.absf main_arg9
  let main_cst_16 : FVec F S_ .f32 := constant S_ .f32 0x7F800000#32
  let main_v45 : FVec F S70000x1 .f32 := broadcastInDim S70000x1 ![] bcast_S_S70000x1 main_cst_16
  let main_v46 : IVec S70000x1 1 := cmpf .olt main_v44 main_v45
  let main_c_17 : IVec S_ 1 := constantI S_ 1 1#1
  let main_v47 : IVec S_ 1 := (fun x v => Host.reduce IntOp.andi x v reducesTo_S70000x1_S_d0_1 h_S_) main_v46 main_c_17
  let main_v48 : IVec S_ 1 := andi main_v43 main_v47
  let main_c_18 : IVec S_ 32 := constantI S_ 32 0#32
  let main_v49 : IVec S8192 32 := broadcastInDim S8192 ![] bcast_S_S8192 main_c_18
  let main_v50 : IVec S8192 1 := cmpi .sge main_arg12 main_v49
  fn_part3 (F := F) main_arg12 main_arg13 main_v48 main_v50

def fn_part1 {F : FTy → Type} [FloatOps F] (main_arg4 : FVec F S3x128x128 .f32) (main_arg5 : FVec F S3x128x128 .f32) (main_arg6 : FVec F S70000x1 .f32) (main_arg7 : FVec F S70000x1 .f32) (main_arg8 : FVec F S70000x1 .f32) (main_arg9 : FVec F S70000x1 .f32) (main_arg12 : IVec S8192 32) (main_arg13 : IVec S8192 32) (main_v13 : IVec S_ 1) (main_v16 : IVec S20000x1 1) : IVec S_ 1 :=
  let main_c_5 : IVec S_ 1 := constantI S_ 1 1#1
  let main_v17 : IVec S_ 1 := (fun x v => Host.reduce IntOp.andi x v reducesTo_S20000x1_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S70000x1 .f32 := Host.absf main_arg6
  let main_cst_10 : FVec F S_ .f32 := constant S_ .f32 0x7F800000#32
  let main_v30 : FVec F S70000x1 .f32 := broadcastInDim S70000x1 ![] bcast_S_S70000x1 main_cst_10
  let main_v31 : IVec S70000x1 1 := cmpf .olt main_v29 main_v30
  let main_c_11 : IVec S_ 1 := constantI S_ 1 1#1
  let main_v32 : IVec S_ 1 := (fun x v => Host.reduce IntOp.andi x v reducesTo_S70000x1_S_d0_1 h_S_) main_v31 main_c_11
  let main_v33 : IVec S_ 1 := andi main_v28 main_v32
  fn_part2 (F := F) main_arg7 main_arg8 main_arg9 main_arg12 main_arg13 main_v33

def fn {F : FTy → Type} [FloatOps F] (main_arg0 : FVec F S50000x128 .f32) (main_arg1 : FVec F S20000x128 .f32) (main_arg2 : FVec F S128x128 .f32) (main_arg3 : FVec F S20000x1 .f32) (main_arg4 : FVec F S3x128x128 .f32) (main_arg5 : FVec F S3x128x128 .f32) (main_arg6 : FVec F S70000x1 .f32) (main_arg7 : FVec F S70000x1 .f32) (main_arg8 : FVec F S70000x1 .f32) (main_arg9 : FVec F S70000x1 .f32) (main_arg10 : IVec S2x1000000 32) (main_arg11 : IVec S2x1000000 32) (main_arg12 : IVec S8192 32) (main_arg13 : IVec S8192 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S20000x1 .f32 := Host.absf main_arg3
  let main_cst_4 : FVec F S_ .f32 := constant S_ .f32 0x7F800000#32
  let main_v15 : FVec F S20000x1 .f32 := broadcastInDim S20000x1 ![] bcast_S_S20000x1 main_cst_4
  let main_v16 : IVec S20000x1 1 := cmpf .olt main_v14 main_v15
  fn_part1 (F := F) main_arg4 main_arg5 main_arg6 main_arg7 main_arg8 main_arg9 main_arg12 main_arg13 main_v13 main_v16
-- ==== Kernel.lean ====
abbrev S50000x128 : Shape := ⟨2, ![50000, 128]⟩
abbrev S20000x128 : Shape := ⟨2, ![20000, 128]⟩
abbrev S128x128 : Shape := ⟨2, ![128, 128]⟩
abbrev S20000x1 : Shape := ⟨2, ![20000, 1]⟩
abbrev S3x128x128 : Shape := ⟨3, ![3, 128, 128]⟩
abbrev S70000x1 : Shape := ⟨2, ![70000, 1]⟩
abbrev S2x1000000 : Shape := ⟨2, ![2, 1000000]⟩
abbrev S8192 : Shape := ⟨1, ![8192]⟩
abbrev S70000x128 : Shape := ⟨2, ![70000, 128]⟩
abbrev S1x1000000 : Shape := ⟨2, ![1, 1000000]⟩
abbrev S1000000 : Shape := ⟨1, ![1000000]⟩
abbrev S1x128x128 : Shape := ⟨3, ![1, 128, 128]⟩
abbrev S5000x128 : Shape := ⟨2, ![5000, 128]⟩
abbrev S5000x1 : Shape := ⟨2, ![5000, 1]⟩
abbrev S_ : Shape := ⟨0, ![]⟩
abbrev S1000000x1 : Shape := ⟨2, ![1000000, 1]⟩
abbrev S1000000x128 : Shape := ⟨2, ![1000000, 128]⟩
abbrev S50000x1x128 : Shape := ⟨3, ![50000, 1, 128]⟩
abbrev S20000x1x128 : Shape := ⟨3, ![20000, 1, 128]⟩
abbrev S20000x1x1 : Shape := ⟨3, ![20000, 1, 1]⟩
abbrev S8192x1x128 : Shape := ⟨3, ![8192, 1, 128]⟩
abbrev S8192x1x1 : Shape := ⟨3, ![8192, 1, 1]⟩
abbrev S1x1x128 : Shape := ⟨3, ![1, 1, 128]⟩
abbrev S1 : Shape := ⟨1, ![1]⟩
abbrev S1x1x1 : Shape := ⟨3, ![1, 1, 1]⟩
abbrev S8192x128 : Shape := ⟨2, ![8192, 128]⟩
abbrev S8192x1 : Shape := ⟨2, ![8192, 1]⟩

abbrev nBuf : Space → Nat
  | .hbm => 144
  | .vmem => 54
  | .smem => 2
  | _ => 0

abbrev hbmTy0_0 (i : Nat) : BufTy := match i % 128 with
  | 0 => ⟨S50000x128, .f32⟩
  | 1 => ⟨S20000x128, .f32⟩
  | 2 => ⟨S128x128, .f32⟩
  | 3 => ⟨S20000x1, .f32⟩
  | 4 => ⟨S3x128x128, .f32⟩
  | 5 => ⟨S3x128x128, .f32⟩
  | 6 => ⟨S70000x1, .f32⟩
  | 7 => ⟨S70000x1, .f32⟩
  | 8 => ⟨S70000x1, .f32⟩
  | 9 => ⟨S70000x1, .f32⟩
  | 10 => ⟨S2x1000000, .i32⟩
  | 11 => ⟨S2x1000000, .i32⟩
  | 12 => ⟨S70000x128, .f32⟩
  | 13 => ⟨S1x1000000, .i32⟩
  | 14 => ⟨S1000000, .i32⟩
  | 15 => ⟨S1x1000000, .i32⟩
  | 16 => ⟨S1000000, .i32⟩
  | 17 => ⟨S1x128x128, .f32⟩
  | 18 => ⟨S128x128, .f32⟩
  | 19 => ⟨S70000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S70000x128, .f32⟩
  | 31 => ⟨S1000000x1, .i32⟩
  | 32 => ⟨S70000x128, .f32⟩
  | 33 => ⟨S70000x128, .f32⟩
  | 34 => ⟨S70000x128, .f32⟩
  | 35 => ⟨S1x128x128, .f32⟩
  | 36 => ⟨S128x128, .f32⟩
  | 37 => ⟨S70000x128, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x128, .f32⟩
  | 47 => ⟨S_, .f32⟩
  | 48 => ⟨S70000x128, .f32⟩
  | 49 => ⟨S1000000x1, .i32⟩
  | 50 => ⟨S70000x128, .f32⟩
  | 51 => ⟨S70000x128, .f32⟩
  | 52 => ⟨S70000x128, .f32⟩
  | 53 => ⟨S1x128x128, .f32⟩
  | 54 => ⟨S128x128, .f32⟩
  | 55 => ⟨S70000x128, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x128, .f32⟩
  | 65 => ⟨S_, .f32⟩
  | 66 => ⟨S70000x128, .f32⟩
  | 67 => ⟨S1000000x1, .i32⟩
  | 68 => ⟨S70000x128, .f32⟩
  | 69 => ⟨S70000x128, .f32⟩
  | 70 => ⟨S70000x128, .f32⟩
  | 71 => ⟨S1x1000000, .i32⟩
  | 72 => ⟨S1000000, .i32⟩
  | 73 => ⟨S1x1000000, .i32⟩
  | 74 => ⟨S1000000, .i32⟩
  | 75 => ⟨S1x128x128, .f32⟩
  | 76 => ⟨S128x128, .f32⟩
  | 77 => ⟨S70000x128, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x128, .f32⟩
  | 87 => ⟨S_, .f32⟩
  | 88 => ⟨S70000x128, .f32⟩
  | 89 => ⟨S1000000x1, .i32⟩
  | 90 => ⟨S70000x128, .f32⟩
  | 91 => ⟨S70000x128, .f32⟩
  | 92 => ⟨S70000x128, .f32⟩
  | 93 => ⟨S1x128x128, .f32⟩
  | 94 => ⟨S128x128, .f32⟩
  | 95 => ⟨S70000x128, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .f32⟩
  | 106 => ⟨S70000x128, .f32⟩
  | 107 => ⟨S1000000x1, .i32⟩
  | 108 => ⟨S70000x128, .f32⟩
  | 109 => ⟨S70000x128, .f32⟩
  | 110 => ⟨S70000x128, .f32⟩
  | 111 => ⟨S1x128x128, .f32⟩
  | 112 => ⟨S128x128, .f32⟩
  | 113 => ⟨S70000x128, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x128, .f32⟩
  | 123 => ⟨S_, .f32⟩
  | 124 => ⟨S70000x128, .f32⟩
  | 125 => ⟨S1000000x1, .i32⟩
  | 126 => ⟨S70000x128, .f32⟩
  | 127 => ⟨S70000x128, .f32⟩
  | _ => ⟨S50000x128, .f32⟩

abbrev hbmTy0_1 (i : Nat) : BufTy := match i % 128 with
  | 0 => ⟨S70000x128, .f32⟩
  | 1 => ⟨S50000x128, .f32⟩
  | 2 => ⟨S50000x128, .f32⟩
  | 3 => ⟨S50000x128, .f32⟩
  | 4 => ⟨S20000x128, .f32⟩
  | 5 => ⟨S20000x128, .f32⟩
  | 6 => ⟨S20000x128, .f32⟩
  | 7 => ⟨S50000x1x128, .f32⟩
  | 8 => ⟨S20000x1x128, .f32⟩
  | 9 => ⟨S20000x1x1, .f32⟩
  | 10 => ⟨S8192x1x128, .f32⟩
  | 11 => ⟨S8192x1x128, .f32⟩
  | 12 => ⟨S8192x1x1, .f32⟩
  | 13 => ⟨S8192x128, .f32⟩
  | 14 => ⟨S8192x128, .f32⟩
  | 15 => ⟨S8192x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x1, .f32⟩
  | .local _ .vmem, ⟨47, _⟩ => ⟨S1x1x1, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x1, .f32⟩
  | .local _ .vmem, ⟨53, _⟩ => ⟨S1x1x1, .f32⟩
  | .local _ .smem, ⟨0, _⟩ => ⟨S8192, .i32⟩
  | .local _ .smem, ⟨1, _⟩ => ⟨S8192, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_7 : Ref sig .tc := ⟨.hbm, 78, rfl⟩
abbrev main_v57 : Ref sig .tc := ⟨.hbm, 79, rfl⟩
abbrev main_v58 : Ref sig .tc := ⟨.hbm, 80, rfl⟩
abbrev main_c_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_10 : Ref sig .tc := ⟨.hbm, 96, rfl⟩
abbrev main_v72 : Ref sig .tc := ⟨.hbm, 97, rfl⟩
abbrev main_v73 : Ref sig .tc := ⟨.hbm, 98, rfl⟩
abbrev main_c_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_13 : Ref sig .tc := ⟨.hbm, 114, rfl⟩
abbrev main_v87 : Ref sig .tc := ⟨.hbm, 115, rfl⟩
abbrev main_v88 : Ref sig .tc := ⟨.hbm, 116, rfl⟩
abbrev main_c_14 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_15 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108_0 : Ref sig .tc := ⟨.hbm, 138, rfl⟩
abbrev main_v108_1 : Ref sig .tc := ⟨.hbm, 139, rfl⟩
abbrev main_v108_2 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_arg12 : Ref sig .tc := ⟨.smem, 0, rfl⟩
abbrev main_arg13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg4_1 : Ref sig .tc := ⟨.vmem, 51, rfl⟩
abbrev cc6_stg5_0 : Ref sig .tc := ⟨.vmem, 52, rfl⟩
abbrev cc6_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc6_sem4_0 : DmaSem sig := 50
abbrev cc6_sem4_1 : DmaSem sig := 51
abbrev cc6_sem5_0 : DmaSem sig := 52
abbrev cc6_sem5_1 : DmaSem sig := 53

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![14], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![14], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![14], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![14], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8192], ![false]⟩

abbrev pre6 : Pipeline.Prefetch sig := ⟨2, ![main_arg12.idx, main_arg13.idx], fun | 0 => main_arg12.names | 1 => main_arg13.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S8192.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S8192.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S8192) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (k6_off1_inb : ∀ i : grid6.Coords, ∀ a, (k6_off1 i) a + S1.size a ≤ S8192.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S8192) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x1x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x1x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x1x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  concatenates_S50000x128_S20000x128_S70000x128_d0 : Shape.Concatenates [S50000x128, S20000x128] S70000x128 0
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S70000x128 : S_.BroadcastsInDim S70000x128 (![] : Fin 0 → Fin S70000x128.rank)
  bcast_S70000x1_S70000x128_0_1 : S70000x1.BroadcastsInDim S70000x128 (![0, 1] : Fin 2 → Fin S70000x128.rank)
  slices_S3x128x128_S1x128x128_1_0_0 : S3x128x128.Slices ![1, 0, 0] S1x128x128
  slices_S3x128x128_S1x128x128_2_0_0 : S3x128x128.Slices ![2, 0, 0] S1x128x128
  slices_S70000x128_S50000x128_0_0 : S70000x128.Slices ![0, 0] S50000x128
  slices_S70000x128_S20000x128_50000_0 : S70000x128.Slices ![50000, 0] S20000x128
  shapeCasts_S50000x128_S50000x1x128 : S50000x128.ShapeCasts S50000x1x128
  shapeCasts_S20000x128_S20000x1x128 : S20000x128.ShapeCasts S20000x1x128
  shapeCasts_S20000x1_S20000x1x1 : S20000x1.ShapeCasts S20000x1x1
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S8192x1x128_S8192x128 : S8192x1x128.ShapeCasts S8192x128
  shapeCasts_S8192x1x1_S8192x1 : S8192x1x1.ShapeCasts S8192x1
  dot_S5000x128_S128x128_S5000x128_1_0_0_1_n_n_wf : DotDims.WF S5000x128 S128x128 S5000x128 [1] [0] [0] [1] [] []
  gather_S70000x128_S1000000x1_S1000000x128_1_0_n_n_0_1_1128_wf : GatherDims.WF S70000x128 S1000000x1 S1000000x128 [1] [0] [] [0] [] 1 ![1, 128]
  scatter_S70000x128_S1000000x1_S1000000x128_1_0_0_1_wf : ScatterDims.WF S70000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S70000x128.size a
  hwx0_0 : ∀ i : grid0.Coords, EltTy.bits .f32 = 32 ∨ (Rect.block (s := S70000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S70000x1.size a
  hwx0_2 : ∀ i : grid0.Coords, EltTy.bits .f32 = 32 ∨ (Rect.block (s := S70000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S70000x128.size a
  hwx0_3 : ∀ i : grid0.Coords, EltTy.bits .f32 = 32 ∨ (Rect.block (s := S70000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S70000x128.size a
  hwx1_0 : ∀ i : grid1.Coords, EltTy.bits .f32 = 32 ∨ (Rect.block (s := S70000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S70000x1.size a
  hwx1_2 : ∀ i : grid1.Coords, EltTy.bits .f32 = 32 ∨ (Rect.block (s := S70000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S70000x128.size a
  hwx1_3 : ∀ i : grid1.Coords, EltTy.bits .f32 = 32 ∨ (Rect.block (s := S70000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S70000x128.size a
  hwx2_0 : ∀ i : grid2.Coords, EltTy.bits .f32 = 32 ∨ (Rect.block (s := S70000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S70000x1.size a
  hwx2_2 : ∀ i : grid2.Coords, EltTy.bits .f32 = 32 ∨ (Rect.block (s := S70000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S70000x128.size a
  hwx2_3 : ∀ i : grid2.Coords, EltTy.bits .f32 = 32 ∨ (Rect.block (s := S70000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S70000x128.size a
  hwx3_0 : ∀ i : grid3.Coords, EltTy.bits .f32 = 32 ∨ (Rect.block (s := S70000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S70000x1.size a
  hwx3_2 : ∀ i : grid3.Coords, EltTy.bits .f32 = 32 ∨ (Rect.block (s := S70000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S70000x128.size a
  hwx3_3 : ∀ i : grid3.Coords, EltTy.bits .f32 = 32 ∨ (Rect.block (s := S70000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S70000x128.size a
  hwx4_0 : ∀ i : grid4.Coords, EltTy.bits .f32 = 32 ∨ (Rect.block (s := S70000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S70000x1.size a
  hwx4_2 : ∀ i : grid4.Coords, EltTy.bits .f32 = 32 ∨ (Rect.block (s := S70000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S70000x128.size a
  hwx4_3 : ∀ i : grid4.Coords, EltTy.bits .f32 = 32 ∨ (Rect.block (s := S70000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S70000x128.size a
  hwx5_0 : ∀ i : grid5.Coords, EltTy.bits .f32 = 32 ∨ (Rect.block (s := S70000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S70000x1.size a
  hwx5_2 : ∀ i : grid5.Coords, EltTy.bits .f32 = 32 ∨ (Rect.block (s := S70000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S70000x128.size a
  hwx5_3 : ∀ i : grid5.Coords, EltTy.bits .f32 = 32 ∨ (Rect.block (s := S70000x128) S5000x128.size (cc5_transform_3 i) (hinb5_3 i)).WholeWords (EltTy.packing .f32)
  hrank6 : 0 < grid6.rank
  k6_off1_inb : ∀ i : grid6.Coords, ∀ a, (k6_off1 i) a + S1.size a ≤ S8192.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 false = 2
  hreads6_2 : ∀ {F : FTy → Type} [FloatOps F] (pf : pre6.Contents (Elt F)) (i i' : grid6.Coords), (∀ a, reads6_2 a = true → i a = i' a) → cc6_transform_2 k6_off1_inb numel1_S1 pf i = cc6_transform_2 k6_off1_inb numel1_S1 pf i'
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1x128.size a ≤ S8192x1x128.size a
  hwx6_3 : ∀ i : grid6.Coords, EltTy.bits .f32 = 32 ∨ (Rect.block (s := S8192x1x128) S1x1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1x128.size a ≤ S8192x1x128.size a
  hwx6_4 : ∀ i : grid6.Coords, EltTy.bits .f32 = 32 ∨ (Rect.block (s := S8192x1x128) S1x1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x1x1.size a ≤ S8192x1x1.size a
  hwx6_5 : ∀ i : grid6.Coords, EltTy.bits .f32 = 32 ∨ (Rect.block (s := S8192x1x1) S1x1x1.size (cc6_transform_5 i) (hinb6_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S70000x128_S1000000x1_S1000000x128_1_0_n_n_0_1_1128 : GatherDims S70000x128 S1000000x1 S1000000x128 where
  offsetDims := [1]
  collapsedSliceDims := [0]
  operandBatchingDims := []
  startIndicesBatchingDims := []
  startIndexMap := [0]
  indexVectorDim := 1
  sliceSizes := ![1, 128]
  wf := gather_S70000x128_S1000000x1_S1000000x128_1_0_n_n_0_1_1128_wf
def scatter_S70000x128_S1000000x1_S1000000x128_1_0_0_1 : ScatterDims S70000x128 S1000000x1 S1000000x128 where
  updateWindowDims := [1]
  insertedWindowDims := [0]
  scatterDimsToOperandDims := [0]
  indexVectorDim := 1
  wf := scatter_S70000x128_S1000000x1_S1000000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v83) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev spec6_0 : Pipeline.WinSpec sig grid6.rank :=
  Pipeline.WinSpec.ofSpec (Memref.whole main_v105) S1x1x128.size reads6_0 false false 2 stage6_0 sem6_0 nbuf6_0 hstage6_0

abbrev spec6_1 : Pipeline.WinSpec sig grid6.rank :=
  Pipeline.WinSpec.ofSpec (Memref.whole main_v106) S1x1x128.size reads6_1 false false 2 stage6_1 sem6_1 nbuf6_1 hstage6_1

abbrev spec6_2 : Pipeline.WinSpec sig grid6.rank :=
  Pipeline.WinSpec.ofSpec (Memref.whole main_v107) S1x1x1.size reads6_2 false false 2 stage6_2 sem6_2 nbuf6_2 hstage6_2

abbrev spec6_3 : Pipeline.WinSpec sig grid6.rank :=
  Pipeline.WinSpec.ofSpec (Memref.whole main_v108_0) S1x1x128.size reads6_3 true false 2 stage6_3 sem6_3 nbuf6_3 hstage6_3

abbrev spec6_4 : Pipeline.WinSpec sig grid6.rank :=
  Pipeline.WinSpec.ofSpec (Memref.whole main_v108_1) S1x1x128.size reads6_4 true false 2 stage6_4 sem6_4 nbuf6_4 hstage6_4

abbrev spec6_5 : Pipeline.WinSpec sig grid6.rank :=
  Pipeline.WinSpec.ofSpec (Memref.whole main_v108_2) S1x1x1.size reads6_5 true false 2 stage6_5 sem6_5 nbuf6_5 hstage6_5

abbrev spec6 : Fin 6 → Pipeline.WinSpec sig grid6.rank := fun | 0 => spec6_0 | 1 => spec6_1 | 2 => spec6_2 | 3 => spec6_3 | 4 => spec6_4 | 5 => spec6_5 | ⟨_ + 6, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | 4 => nbuf6_4 | 5 => nbuf6_5 | ⟨_ + 6, h⟩ => absurd h (Nat.not_lt.2 (Nat.le_add_left _ _))
abbrev ix6 (pf : pre6.Contents (Elt F)) : (w : Fin 6) → grid6.Coords → Fin (spec6 w).shape.rank → Nat := fun | 0 => cc6_transform_0 k6_off1_inb numel1_S1 pf | 1 => cc6_transform_1 k6_off1_inb numel1_S1 pf | 2 => cc6_transform_2 k6_off1_inb numel1_S1 pf | 3 => cc6_transform_3 | 4 => cc6_transform_4 | 5 => cc6_transform_5 | ⟨_ + 6, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 pf | 3 => hreads6_3 | 4 => hreads6_4 | 5 => hreads6_5 | ⟨_ + 6, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S50000x1x128.size a), EltTy.bits .f32 = 32 ∨ (Rect.block (s := S50000x1x128) S1x1x128.size (cc6_transform_0 k6_off1_inb numel1_S1 pf i) h).WholeWords (EltTy.packing .f32)) ∧
  (∀ i : grid6.Coords, ∃ h : (∀ a, (cc6_transform_1 k6_off1_inb numel1_S1 pf i a + 1) * S1x1x128.size a ≤ S20000x1x128.size a), EltTy.bits .f32 = 32 ∨ (Rect.block (s := S20000x1x128) S1x1x128.size (cc6_transform_1 k6_off1_inb numel1_S1 pf i) h).WholeWords (EltTy.packing .f32)) ∧
  (∀ i : grid6.Coords, ∃ h : (∀ a, (cc6_transform_2 k6_off1_inb numel1_S1 pf i a + 1) * S1x1x1.size a ≤ S20000x1x1.size a), EltTy.bits .f32 = 32 ∨ (Rect.block (s := S20000x1x1) S1x1x1.size (cc6_transform_2 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2.1 i).elim fun h _ => h a | 2 => fun i a => (hok.2.2 i).elim fun h _ => h a | 3 => hinb6_3 | 4 => hinb6_4 | 5 => hinb6_5 | ⟨_ + 6, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2.1 i).elim fun _ h => h | 2 => fun i => (hok.2.2 i).elim fun _ h => h | 3 => hwx6_3 | 4 => hwx6_4 | 5 => hwx6_5 | ⟨_ + 6, h⟩ => absurd h (Nat.not_lt.2 (Nat.le_add_left _ _))

class Facts : Prop extends Facts₀ where
  harr6 : ∀ w, (spec6 w).arr.IsWhole

variable [Facts]
-- ==== ReferenceIdeal.lean ====
abbrev S50000x128 : Shape := ⟨2, ![50000, 128]⟩
abbrev S20000x128 : Shape := ⟨2, ![20000, 128]⟩
abbrev S128x128 : Shape := ⟨2, ![128, 128]⟩
abbrev S20000x1 : Shape := ⟨2, ![20000, 1]⟩
abbrev S3x128x128 : Shape := ⟨3, ![3, 128, 128]⟩
abbrev S70000x1 : Shape := ⟨2, ![70000, 1]⟩
abbrev S2x1000000 : Shape := ⟨2, ![2, 1000000]⟩
abbrev S8192 : Shape := ⟨1, ![8192]⟩
abbrev S70000x128 : Shape := ⟨2, ![70000, 128]⟩
abbrev S1x1000000 : Shape := ⟨2, ![1, 1000000]⟩
abbrev S1000000 : Shape := ⟨1, ![1000000]⟩
abbrev S1x128x128 : Shape := ⟨3, ![1, 128, 128]⟩
abbrev S_ : Shape := ⟨0, ![]⟩
abbrev S1000000x1 : Shape := ⟨2, ![1000000, 1]⟩
abbrev S1000000x128 : Shape := ⟨2, ![1000000, 128]⟩
abbrev S8192x1 : Shape := ⟨2, ![8192, 1]⟩
abbrev S8192x128 : Shape := ⟨2, ![8192, 128]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S20000x1, .f32⟩
  | 4 => ⟨S3x128x128, .f32⟩
  | 5 => ⟨S3x128x128, .f32⟩
  | 6 => ⟨S70000x1, .f32⟩
  | 7 => ⟨S70000x1, .f32⟩
  | 8 => ⟨S70000x1, .f32⟩
  | 9 => ⟨S70000x1, .f32⟩
  | 10 => ⟨S2x1000000, .i32⟩
  | 11 => ⟨S2x1000000, .i32⟩
  | 12 => ⟨S8192, .i32⟩
  | 13 => ⟨S8192, .i32⟩
  | 14 => ⟨S70000x128, .f32⟩
  | 15 => ⟨S1x1000000, .i32⟩
  | 16 => ⟨S1000000, .i32⟩
  | 17 => ⟨S1x1000000, .i32⟩
  | 18 => ⟨S1000000, .i32⟩
  | 19 => ⟨S1x128x128, .f32⟩
  | 20 => ⟨S128x128, .f32⟩
  | 21 => ⟨S70000x128, .f32⟩
  | 22 => ⟨S70000x128, .f32⟩
  | 23 => ⟨S70000x128, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x128, .f32⟩
  | 33 => ⟨S_, .f32⟩
  | 34 => ⟨S70000x128, .f32⟩
  | 35 => ⟨S1000000x1, .i32⟩
  | 36 => ⟨S70000x128, .f32⟩
  | 37 => ⟨S70000x128, .f32⟩
  | 38 => ⟨S70000x128, .f32⟩
  | 39 => ⟨S1x128x128, .f32⟩
  | 40 => ⟨S128x128, .f32⟩
  | 41 => ⟨S70000x128, .f32⟩
  | 42 => ⟨S70000x128, .f32⟩
  | 43 => ⟨S70000x128, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S_, .f32⟩
  | 54 => ⟨S70000x128, .f32⟩
  | 55 => ⟨S1000000x1, .i32⟩
  | 56 => ⟨S70000x128, .f32⟩
  | 57 => ⟨S70000x128, .f32⟩
  | 58 => ⟨S70000x128, .f32⟩
  | 59 => ⟨S1x128x128, .f32⟩
  | 60 => ⟨S128x128, .f32⟩
  | 61 => ⟨S70000x128, .f32⟩
  | 62 => ⟨S70000x128, .f32⟩
  | 63 => ⟨S70000x128, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x128, .f32⟩
  | 73 => ⟨S_, .f32⟩
  | 74 => ⟨S70000x128, .f32⟩
  | 75 => ⟨S1000000x1, .i32⟩
  | 76 => ⟨S70000x128, .f32⟩
  | 77 => ⟨S70000x128, .f32⟩
  | 78 => ⟨S70000x128, .f32⟩
  | 79 => ⟨S1x1000000, .i32⟩
  | 80 => ⟨S1000000, .i32⟩
  | 81 => ⟨S1x1000000, .i32⟩
  | 82 => ⟨S1000000, .i32⟩
  | 83 => ⟨S1x128x128, .f32⟩
  | 84 => ⟨S128x128, .f32⟩
  | 85 => ⟨S70000x128, .f32⟩
  | 86 => ⟨S70000x128, .f32⟩
  | 87 => ⟨S70000x128, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x128, .f32⟩
  | 97 => ⟨S_, .f32⟩
  | 98 => ⟨S70000x128, .f32⟩
  | 99 => ⟨S1000000x1, .i32⟩
  | 100 => ⟨S70000x128, .f32⟩
  | 101 => ⟨S70000x128, .f32⟩
  | 102 => ⟨S70000x128, .f32⟩
  | 103 => ⟨S1x128x128, .f32⟩
  | 104 => ⟨S128x128, .f32⟩
  | 105 => ⟨S70000x128, .f32⟩
  | 106 => ⟨S70000x128, .f32⟩
  | 107 => ⟨S70000x128, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x128, .f32⟩
  | 117 => ⟨S_, .f32⟩
  | 118 => ⟨S70000x128, .f32⟩
  | 119 => ⟨S1000000x1, .i32⟩
  | 120 => ⟨S70000x128, .f32⟩
  | 121 => ⟨S70000x128, .f32⟩
  | 122 => ⟨S70000x128, .f32⟩
  | 123 => ⟨S1x128x128, .f32⟩
  | 124 => ⟨S128x128, .f32⟩
  | 125 => ⟨S70000x128, .f32⟩
  | 126 => ⟨S70000x128, .f32⟩
  | 127 => ⟨S70000x128, .f32⟩
  | _ => ⟨S50000x128, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .f32⟩
  | 9 => ⟨S_, .f32⟩
  | 10 => ⟨S70000x128, .f32⟩
  | 11 => ⟨S1000000x1, .i32⟩
  | 12 => ⟨S70000x128, .f32⟩
  | 13 => ⟨S70000x128, .f32⟩
  | 14 => ⟨S70000x128, .f32⟩
  | 15 => ⟨S50000x128, .f32⟩
  | 16 => ⟨S50000x128, .f32⟩
  | 17 => ⟨S50000x128, .f32⟩
  | 18 => ⟨S20000x128, .f32⟩
  | 19 => ⟨S20000x128, .f32⟩
  | 20 => ⟨S20000x128, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x128, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x128, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_4 : Ref sig .tc := ⟨.hbm, 64, rfl⟩
abbrev main_v44 : Ref sig .tc := ⟨.hbm, 65, rfl⟩
abbrev main_v45 : Ref sig .tc := ⟨.hbm, 66, rfl⟩
abbrev main_c_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_7 : Ref sig .tc := ⟨.hbm, 88, rfl⟩
abbrev main_v65 : Ref sig .tc := ⟨.hbm, 89, rfl⟩
abbrev main_v66 : Ref sig .tc := ⟨.hbm, 90, rfl⟩
abbrev main_c_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_c_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_13 : Ref sig .tc := ⟨.hbm, 128, rfl⟩
abbrev main_v99 : Ref sig .tc := ⟨.hbm, 129, rfl⟩
abbrev main_v100 : Ref sig .tc := ⟨.hbm, 130, rfl⟩
abbrev main_c_14 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_15 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_16 : Ref sig .tc := ⟨.hbm, 149, rfl⟩
abbrev main_v117 : Ref sig .tc := ⟨.hbm, 150, rfl⟩
abbrev main_v118 : Ref sig .tc := ⟨.hbm, 151, rfl⟩
abbrev main_c_17 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c_18 : Ref sig .tc := ⟨.hbm, 158, rfl⟩
abbrev main_v124 : Ref sig .tc := ⟨.hbm, 159, rfl⟩
abbrev main_v125 : Ref sig .tc := ⟨.hbm, 160, rfl⟩
abbrev main_c_19 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_c_20 : Ref sig .tc := ⟨.hbm, 167, rfl⟩
abbrev main_v131 : Ref sig .tc := ⟨.hbm, 168, rfl⟩
abbrev main_v132 : Ref sig .tc := ⟨.hbm, 169, rfl⟩
abbrev main_c_21 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩

abbrev nD : Nat := 1
abbrev τ : Topo := Topo.v7x

variable {F : FTy → Type} [FloatOps F]

class Facts₀ : Prop where
  concatenates_S50000x128_S20000x128_S70000x128_d0 : Shape.Concatenates [S50000x128, S20000x128] S70000x128 0
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S3x128x128_S1x128x128_0_0_0 : S3x128x128.Slices ![0, 0, 0] S1x128x128
  shapeCasts_S1x128x128_S128x128 : S1x128x128.ShapeCasts S128x128
  bcast_S70000x1_S70000x128_0_1 : S70000x1.BroadcastsInDim S70000x128 (![0, 1] : Fin 2 → Fin S70000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S70000x128 : S_.BroadcastsInDim S70000x128 (![] : Fin 0 → Fin S70000x128.rank)
  slices_S3x128x128_S1x128x128_1_0_0 : S3x128x128.Slices ![1, 0, 0] S1x128x128
  slices_S3x128x128_S1x128x128_2_0_0 : S3x128x128.Slices ![2, 0, 0] S1x128x128
  slices_S70000x128_S50000x128_0_0 : S70000x128.Slices ![0, 0] S50000x128
  slices_S70000x128_S20000x128_50000_0 : S70000x128.Slices ![50000, 0] S20000x128
  bcast_S_S8192 : S_.BroadcastsInDim S8192 (![] : Fin 0 → Fin S8192.rank)
  bcast_S8192_S8192x1_0 : S8192.BroadcastsInDim S8192x1 (![0] : Fin 1 → Fin S8192x1.rank)
  dot_S70000x128_S128x128_S70000x128_1_0_0_1_n_n_wf : DotDims.WF S70000x128 S128x128 S70000x128 [1] [0] [0] [1] [] []
  gather_S70000x128_S1000000x1_S1000000x128_1_0_n_n_0_1_1128_wf : GatherDims.WF S70000x128 S1000000x1 S1000000x128 [1] [0] [] [0] [] 1 ![1, 128]
  scatter_S70000x128_S1000000x1_S1000000x128_1_0_0_1_wf : ScatterDims.WF S70000x128 S1000000x1 S1000000x128 [1] [0] [0] 1
  gather_S50000x128_S8192x1_S8192x128_1_0_n_n_0_1_1128_wf : GatherDims.WF S50000x128 S8192x1 S8192x128 [1] [0] [] [0] [] 1 ![1, 128]
  gather_S20000x128_S8192x1_S8192x128_1_0_n_n_0_1_1128_wf : GatherDims.WF S20000x128 S8192x1 S8192x128 [1] [0] [] [0] [] 1 ![1, 128]
  gather_S20000x1_S8192x1_S8192x1_1_0_n_n_0_1_11_wf : GatherDims.WF S20000x1 S8192x1 S8192x1 [1] [0] [] [0] [] 1 ![1, 1]

variable [Facts₀]

def dot_S70000x128_S128x128_S70000x128_1_0_0_1_n_n : DotDims S70000x128 S128x128 S70000x128 where
  lhsContracting := [1]
  rhsContracting := [0]
  lhsNonContracting := [0]
  rhsNonContracting := [1]
  lhsBatch := []
  rhsBatch := []
  wf := dot_S70000x128_S128x128_S70000x128_1_0_0_1_n_n_wf
def gather_S70000x128_S1000000x1_S1000000x128_1_0_n_n_0_1_1128 : GatherDims S70000x128 S1000000x1 S1000000x128 where
  offsetDims := [1]
  collapsedSliceDims := [0]
  operandBatchingDims := []
  startIndicesBatchingDims := []
  startIndexMap := [0]
  indexVectorDim := 1
  sliceSizes := ![1, 128]
  wf := gather_S70000x128_S1000000x1_S1000000x128_1_0_n_n_0_1_1128_wf
def scatter_S70000x128_S1000000x1_S1000000x128_1_0_0_1 : ScatterDims S70000x128 S1000000x1 S1000000x128 where
  updateWindowDims := [1]
  insertedWindowDims := [0]
  scatterDimsToOperandDims := [0]
  indexVectorDim := 1
  wf := scatter_S70000x128_S1000000x1_S1000000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def gather_S20000x128_S8192x1_S8192x128_1_0_n_n_0_1_1128 : GatherDims S20000x128 S8192x1 S8192x128 where
  offsetDims := [1]
  collapsedSliceDims := [0]
  operandBatchingDims := []
  startIndicesBatchingDims := []
  startIndexMap := [0]
  indexVectorDim := 1
  sliceSizes := ![1, 128]
  wf := gather_S20000x128_S8192x1_S8192x128_1_0_n_n_0_1_1128_wf
def gather_S20000x1_S8192x1_S8192x1_1_0_n_n_0_1_11 : GatherDims S20000x1 S8192x1 S8192x1 where
  offsetDims := [1]
  collapsedSliceDims := [0]
  operandBatchingDims := []
  startIndicesBatchingDims := []
  startIndexMap := [0]
  indexVectorDim := 1
  sliceSizes := ![1, 1]
  wf := gather_S20000x1_S8192x1_S8192x1_1_0_n_n_0_1_11_wf

class Facts : Prop extends Facts₀ where

variable [Facts]
-- ==== Proof.KI.Proj0.lean ====
/- The class-A half of region 0 (`cc0__project_kernel`, pipeline 0) of the program's @main, at a parameter `V` — the
   TensorCore's buffer contents when the region is entered: each window's block at a point (`iblk0`), the output
   window's buffer after the body as a function of the three input blocks (`out0_3`), the body's triple
   (`sound_kernel0`), the pipeline's proof data (`dat0`) and the body obligation (`body_obligation0`). Generic in
   the float model `F`. -/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the feature rows' block, index `(i, 0)`) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, block index `(0, 0)` at every point, so fetched at the first point only) holds
    its block at every point all the same: unfetched, the index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the per-row scale's block, index `(i, 0)`) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each through the whole block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

/-- The store's rectangle is the whole buffer, so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out0_3 x0 x1 x2`. The grid
    coordinate `i` is not read. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen
-- ==== Proof.KI.Proj1.lean ====
/- The class-A half of region 1 (`cc1__project_kernel`, pipeline 1) of the program's @main, at a parameter `V` — the
   TensorCore's buffer contents when the region is entered: each window's block at a point (`iblk1`), the output
   window's buffer after the body as a function of the three input blocks (`out1_3`), the body's triple
   (`sound_kernel1`), the pipeline's proof data (`dat1`) and the body obligation (`body_obligation1`). Generic in
   the float model `F`. -/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the feature rows' block, index `(i, 0)`) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, block index `(0, 0)` at every point, so fetched at the first point only) holds
    its block at every point all the same: unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the per-row scale's block, index `(i, 0)`) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each through the whole block -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out1_3 (x0 : Vec F S5000x128 .f32) (x1 : Vec F S128x128 .f32) (x2 : Vec F S5000x1 .f32) : Vec F S5000x128 .f32 :=
  View.canon [⟨r1_0, k1_pay1 (View.ld x0 r1_0) (View.ld x1 r1_1) (View.ld x2 r1_2)⟩]

/-- The store's rectangle is the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out1_3 x0 x1 x2`. The grid
    coordinate `i` is not read. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__project_kernel i arg1 harg1 arg2 harg2 arg3 harg3 arg4 harg4) K := by
  simp only [cc1__project_kernel_eq_skeleton]; unfold cc1__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen
-- ==== Proof.KI.Proj2.lean ====
/- The class-A half of region 2 (`cc2__project_kernel`, pipeline 2) of the program's @main, at a parameter `V` — the
   TensorCore's buffer contents when the region is entered: each window's block at a point (`iblk2`), the output
   window's buffer after the body as a function of the three input blocks (`out2_3`), the body's triple
   (`sound_kernel2`), the pipeline's proof data (`dat2`) and the body obligation (`body_obligation2`). Generic in
   the float model `F`. -/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the feature rows' block, index `(i, 0)`) holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight matrix, block index `(0, 0)` at every point, so fetched at the first point only) holds
    its block at every point all the same: unfetched, the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the per-row scale's block, index `(i, 0)`) holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each through the whole block -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out2_3 (x0 : Vec F S5000x128 .f32) (x1 : Vec F S128x128 .f32) (x2 : Vec F S5000x1 .f32) : Vec F S5000x128 .f32 :=
  View.canon [⟨r2_0, k2_pay1 (View.ld x0 r2_0) (View.ld x1 r2_1) (View.ld x2 r2_2)⟩]

/-- The store's rectangle is the whole buffer, so it covers it. -/
theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out2_3 x0 x1 x2`. The grid
    coordinate `i` is not read. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__project_kernel i arg1 harg1 arg2 harg2 arg3 harg3 arg4 harg4) K := by
  simp only [cc2__project_kernel_eq_skeleton]; unfold cc2__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen
-- ==== Proof.KI.Proj3.lean ====
/- The class-A half of region 3 (`cc3__project_kernel`, pipeline 3) of the program's @main, at a parameter `V` — the
   TensorCore's buffer contents when the region is entered: each window's block at a point (`iblk3`), the output
   window's buffer after the body as a function of the three input blocks (`out3_3`), the body's triple
   (`sound_kernel3`), the pipeline's proof data (`dat3`) and the body obligation (`body_obligation3`). Generic in
   the float model `F`. -/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the feature rows' block, index `(i, 0)`) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, block index `(0, 0)` at every point, so fetched at the first point only) holds
    its block at every point all the same: unfetched, the index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the per-row scale's block, index `(i, 0)`) holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each through the whole block -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out3_3 (x0 : Vec F S5000x128 .f32) (x1 : Vec F S128x128 .f32) (x2 : Vec F S5000x1 .f32) : Vec F S5000x128 .f32 :=
  View.canon [⟨r3_0, k3_pay1 (View.ld x0 r3_0) (View.ld x1 r3_1) (View.ld x2 r3_2)⟩]

/-- The store's rectangle is the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out3_3 x0 x1 x2`. The grid
    coordinate `i` is not read. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__project_kernel i arg1 harg1 arg2 harg2 arg3 harg3 arg4 harg4) K := by
  simp only [cc3__project_kernel_eq_skeleton]; unfold cc3__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Gen
-- ==== Proof.KI.Proj4.lean ====
/- The class-A half of region 4 (`cc4__project_kernel`, pipeline 4) of the program's @main, at a parameter `V` — the
   TensorCore's buffer contents when the region is entered: each window's block at a point (`iblk4`), the output
   window's buffer after the body as a function of the three input blocks (`out4_3`), the body's triple
   (`sound_kernel4`), the pipeline's proof data (`dat4`) and the body obligation (`body_obligation4`). Generic in
   the float model `F`. -/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the feature rows' block, index `(i, 0)`) holds its block at every point, for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weight matrix, block index `(0, 0)` at every point, so fetched at the first point only) holds
    its block at every point all the same: unfetched, the index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the per-row scale's block, index `(i, 0)`) holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each through the whole block -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out4_3 (x0 : Vec F S5000x128 .f32) (x1 : Vec F S128x128 .f32) (x2 : Vec F S5000x1 .f32) : Vec F S5000x128 .f32 :=
  View.canon [⟨r4_0, k4_pay1 (View.ld x0 r4_0) (View.ld x1 r4_1) (View.ld x2 r4_2)⟩]

/-- The store's rectangle is the whole buffer, so it covers it. -/
theorem cover4_3 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out4_3 x0 x1 x2`. The grid
    coordinate `i` is not read. -/
theorem sound_kernel4 (c : Dev nD) (E : Set ℕ) (i : grid4.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__project_kernel i arg1 harg1 arg2 harg2 arg3 harg3 arg4 harg4) K := by
  simp only [cc4__project_kernel_eq_skeleton]; unfold cc4__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Gen
-- ==== Proof.KI.Proj5.lean ====
/- The class-A half of region 5 (`cc5__project_kernel`, pipeline 5) of the program's @main, at a parameter `V` — the
   TensorCore's buffer contents when the region is entered: each window's block at a point (`iblk5`), the output
   window's buffer after the body as a function of the three input blocks (`out5_3`), the body's triple
   (`sound_kernel5`), the pipeline's proof data (`dat5`) and the body obligation (`body_obligation5`). Generic in
   the float model `F`. -/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the feature rows' block, index `(i, 0)`) holds its block at every point, for any proof data whose
    array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the weight matrix, block index `(0, 0)` at every point, so fetched at the first point only) holds
    its block at every point all the same: unfetched, the index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the per-row scale's block, index `(i, 0)`) holds its block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each through the whole block -/

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out5_3 (x0 : Vec F S5000x128 .f32) (x1 : Vec F S128x128 .f32) (x2 : Vec F S5000x1 .f32) : Vec F S5000x128 .f32 :=
  View.canon [⟨r5_0, k5_pay1 (View.ld x0 r5_0) (View.ld x1 r5_1) (View.ld x2 r5_2)⟩]

/-- The store's rectangle is the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out5_3 x0 x1 x2`. The grid
    coordinate `i` is not read. -/
theorem sound_kernel5 (c : Dev nD) (E : Set ℕ) (i : grid5.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__project_kernel i arg1 harg1 arg2 harg2 arg3 harg3 arg4 harg4) K := by
  simp only [cc5__project_kernel_eq_skeleton]; unfold cc5__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Gen
-- ==== Proof.KI.Gath.lean ====
/-
  The row-gathering call (the seventh), at any float instance: one grid point per batch entry; the three input
  windows' block indices are read off two prefetched index tables (student ids into the 50000 student rows, exercise
  ids into the 20000 exercise rows and the 20000 discrimination rows), the three output windows' block index is the
  point itself. The body copies each input block to the matching output block. Stated here at a PARAMETER `V` (the
  buffers' contents when the call is entered) and a parameter `a` (admissible contents of the two tables): the
  blocks, what the body leaves, the body's triple, the proof data and the body obligation.
-/
import proofs.«180269_j89635967468180_1_alg».proof.Proof.Gen.KernelIdeal.Launch
import proofs.«180269_j89635967468180_1_alg».proof.Proof.Gen.KernelIdeal.Skeleton
import proofs.«180269_j89635967468180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))
variable (a : (pcfg6 (F := F)).Adm)

/-- Window `w`'s block at point `t`, read off its array as the call finds it; for the three inputs a function of
    the tables' words. -/
def iblk6 (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

theorem before6_0_of {c : Dev nD} (dat : Dat τ (Elt F) Unit ℕ (UR sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ (cfg6 a) c) (hA : dat.A 1 = V c (Pipeline.arrRef spec6 1))
    (hafter : ∀ t, dat.after 1 t = iblk6 V a c 1 t) (t : Fin (cfg6 a).N) (d) : dat.before 1 t d = iblk6 V a c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ (cfg6 a) c) (hA : dat.A 2 = V c (Pipeline.arrRef spec6 2))
    (hafter : ∀ t, dat.after 2 t = iblk6 V a c 2 t) (t : Fin (cfg6 a).N) (d) : dat.before 2 t d = iblk6 V a c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_0 : Rect S1x1x128 := Rect.unit (s := S1x1x128) ![0, 0, 0] S1x1x128.size inb_S1x1x128_S1x1x128_0_0_0
abbrev r6_1 : Rect S1x1x1 := Rect.unit (s := S1x1x1) ![0, 0, 0] S1x1x1.size inb_S1x1x1_S1x1x1_0_0_0

/-- What the body leaves in each output's staging buffer: the matching input block, copied. -/
def out6_3 (x0 : Vec F S1x1x128 .f32) : Vec F S1x1x128 .f32 := View.canon [⟨r6_0, k6_pay1 (View.ld x0 r6_0)⟩]
def out6_4 (x1 : Vec F S1x1x128 .f32) : Vec F S1x1x128 .f32 := View.canon [⟨r6_0, k6_pay2 (View.ld x1 r6_0)⟩]
def out6_5 (x2 : Vec F S1x1x1 .f32) : Vec F S1x1x1 .f32 := View.canon [⟨r6_1, k6_pay3 (View.ld x2 r6_1)⟩]

theorem cover6_a (p0 : Vec F S1x1x128 .f32) (y : S1x1x128.Idx) :
    ∃ pc ∈ ([⟨r6_0, p0⟩] : List (View.Piece (Elt F) S1x1x128 .f32)), y ∈ pc.1.set :=
  View.cover_of_tiled [⟨r6_0, p0⟩] S1x1x128.size (by rfl) y
theorem cover6_b (p0 : Vec F S1x1x1 .f32) (y : S1x1x1.Idx) :
    ∃ pc ∈ ([⟨r6_1, p0⟩] : List (View.Piece (Elt F) S1x1x1 .f32)), y ∈ pc.1.set :=
  View.cover_of_tiled [⟨r6_1, p0⟩] S1x1x1.size (by rfl) y

set_option maxHeartbeats 1000000 in
/-- The body on whole staging memrefs: the inputs stay, each output ends at the copy of its input. The two table
    memrefs are handed to the body and never read. -/
theorem sound_kernel6 (c : Dev nD) (E : Set ℕ) (i : grid6.Coords)
    (arg1 : Memref sig .tc .smem S8192 .i32) (harg1 : arg1.IsWhole) (arg2 : Memref sig .tc .smem S8192 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x1 .f32) (harg5 : arg5.IsWhole) (arg6 : Memref sig .tc .vmem S1x1x128 .f32) (harg6 : arg6.IsWhole)
    (arg7 : Memref sig .tc .vmem S1x1x128 .f32) (harg7 : arg7.IsWhole) (arg8 : Memref sig .tc .vmem S1x1x1 .f32) (harg8 : arg8.IsWhole)
    (x0 : Vec F S1x1x128 .f32) (x1 : Vec F S1x1x128 .f32) (x2 : Vec F S1x1x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out6_3 x0) ∗ owns (c : Thread nD τ) arg7 fullShare (out6_4 x1) ∗ owns (c : Thread nD τ) arg8 fullShare (out6_5 x2)) -∗ K ⟨⟩))
      ⊢ wp frame (wpE (defs₀ (F := F)) Variants.none c none) E (cc6__gather_kernel i arg1 harg1 arg2 harg2 arg3 harg3 arg4 harg4 arg5 harg5 arg6 harg6 arg7 harg7 arg8 harg8) K := by
  simp only [cc6__gather_kernel_eq_skeleton]; unfold cc6__gather_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_a _)
  isplitl [H4]
  · iexists _; isplitr
    swap; · iexact H4
    ipureintro
    exact View.read_writes_eq_canon _ _ _ (cover6_a _)
  iexists _; isplitr
  swap; · iexact H5
  ipureintro
  exact View.read_writes_eq_canon _ _ _ (cover6_b _)

/-! ## The proof data -/

/-- The call's proof data on core `c`: the arrays as the call finds them; after the body at point `t` each input's
    buffer at its block and each output's at the copy of the matching input block; the invariant: the scoped rest, the
    generator register, and the two tables held whole at the admissible contents; nothing owed; full shares. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => iblk6 V a c 2 t
    | ⟨3, _⟩ => out6_3 (iblk6 V a c 0 t)
    | ⟨4, _⟩ => out6_4 (iblk6 V a c 1 t)
    | ⟨5, _⟩ => out6_5 (iblk6 V a c 2 t)
  Φ _ := iprop(Pipeline.ΦA spec6 c ∗ Pipeline.prefHeld (Ix := Unit) (Name := ℕ) (U := UR sig nD τ) (Lvl := ℕ) pre6 c (fun _ => fullShare) a.1)
  q _ := fullShare
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = iblk6 V a c 1 t := by dsimp only [dat6]; try rfl
theorem after6_2 (c : Dev nD) (t : Fin (cfg6 a).N) : (dat6 V a c).after 2 t = iblk6 V a c 2 t := by dsimp only [dat6]; try rfl
theorem after6_3 (c : Dev nD) (t : Fin (cfg6 a).N) : (dat6 V a c).after 3 t = out6_3 (iblk6 V a c 0 t) := by dsimp only [dat6]; try rfl
theorem after6_4 (c : Dev nD) (t : Fin (cfg6 a).N) : (dat6 V a c).after 4 t = out6_4 (iblk6 V a c 1 t) := by dsimp only [dat6]; try rfl
theorem after6_5 (c : Dev nD) (t : Fin (cfg6 a).N) : (dat6 V a c).after 5 t = out6_5 (iblk6 V a c 2 t) := by dsimp only [dat6]; try rfl

theorem before6_0 (c : Dev nD) (t : Fin (cfg6 a).N) (d) : (dat6 V a c).before 0 t d = iblk6 V a c 0 t :=
  before6_0_of V a (dat6 V a c) (A_eq6 V a c 0) (after6_0 V a c) t d
theorem before6_1 (c : Dev nD) (t : Fin (cfg6 a).N) (d) : (dat6 V a c).before 1 t d = iblk6 V a c 1 t :=
  before6_1_of V a (dat6 V a c) (A_eq6 V a c 1) (after6_1 V a c) t d
theorem before6_2 (c : Dev nD) (t : Fin (cfg6 a).N) (d) : (dat6 V a c).before 2 t d = iblk6 V a c 2 t :=
  before6_2_of V a (dat6 V a c) (A_eq6 V a c 2) (after6_2 V a c) t d

/-! ## The body obligation, at a generic point -/

/-- The current staging memref of each window at point `t`. -/
abbrev st6_0 (t : Fin (cfg6 a).N) := spec6_0.stage ((cfg6 a).slots t 0)
abbrev st6_1 (t : Fin (cfg6 a).N) := spec6_1.stage ((cfg6 a).slots t 1)
abbrev st6_2 (t : Fin (cfg6 a).N) := spec6_2.stage ((cfg6 a).slots t 2)
abbrev st6_3 (t : Fin (cfg6 a).N) := spec6_3.stage ((cfg6 a).slots t 3)
abbrev st6_4 (t : Fin (cfg6 a).N) := spec6_4.stage ((cfg6 a).slots t 4)
abbrev st6_5 (t : Fin (cfg6 a).N) := spec6_5.stage ((cfg6 a).slots t 5)

/-- The body at point `t`, on what the call hands it: the point's coordinates, the two tables' whole buffers, the
    six current staging memrefs. -/
abbrev bodyAt6 (t : Fin (cfg6 a).N) : Prog (TpuEff nD τ sig (Elt F) Λ₀ .tc) PUnit :=
  cc6__gather_kernel (grid6.coords t) (Memref.whole main_arg12) (Memref.isWhole_whole _) (Memref.whole main_arg13) (Memref.isWhole_whole _)
    (spec6_0.stage ((cfg6 a).slots t 0)) (hstage6_0 (((cfg6 a).slots t 0).cast nbuf6_0)) (spec6_1.stage ((cfg6 a).slots t 1)) (hstage6_1 (((cfg6 a).slots t 1).cast nbuf6_1))
    (spec6_2.stage ((cfg6 a).slots t 2)) (hstage6_2 (((cfg6 a).slots t 2).cast nbuf6_2)) (spec6_3.stage ((cfg6 a).slots t 3)) (hstage6_3 (((cfg6 a).slots t 3).cast nbuf6_3))
    (spec6_4.stage ((cfg6 a).slots t 4)) (hstage6_4 (((cfg6 a).slots t 4).cast nbuf6_4)) (spec6_5.stage ((cfg6 a).slots t 5)) (hstage6_5 (((cfg6 a).slots t 5).cast nbuf6_5))

def bodyPre6 (c : Dev nD) (t : Fin (cfg6 a).N) : sProp 𝕄 :=
  iprop((dat6 V a c).Φ t.castSucc ∗ (dat6 V a c).owesAt () t.castSucc
    ∗ (∃ d, owns (c : Thread nD τ) (st6_0 a t) fullShare ((dat6 V a c).before 0 t d))
    ∗ (∃ d, owns (c : Thread nD τ) (st6_1 a t) fullShare ((dat6 V a c).before 1 t d))
    ∗ (∃ d, owns (c : Thread nD τ) (st6_2 a t) fullShare ((dat6 V a c).before 2 t d))
    ∗ (∃ d, owns (c : Thread nD τ) (st6_3 a t) fullShare ((dat6 V a c).before 3 t d))
    ∗ (∃ d, owns (c : Thread nD τ) (st6_4 a t) fullShare ((dat6 V a c).before 4 t d))
    ∗ (∃ d, owns (c : Thread nD τ) (st6_5 a t) fullShare ((dat6 V a c).before 5 t d)))

def bodyPost6 (c : Dev nD) (t : Fin (cfg6 a).N) : sProp 𝕄 :=
  iprop((dat6 V a c).Φ t.succ ∗ (dat6 V a c).owesAt () t.succ
    ∗ owns (c : Thread nD τ) (st6_0 a t) fullShare ((dat6 V a c).after 0 t)
    ∗ owns (c : Thread nD τ) (st6_1 a t) fullShare ((dat6 V a c).after 1 t)
    ∗ owns (c : Thread nD τ) (st6_2 a t) fullShare ((dat6 V a c).after 2 t)
    ∗ owns (c : Thread nD τ) (st6_3 a t) fullShare ((dat6 V a c).after 3 t)
    ∗ owns (c : Thread nD τ) (st6_4 a t) fullShare ((dat6 V a c).after 4 t)
    ∗ owns (c : Thread nD τ) (st6_5 a t) fullShare ((dat6 V a c).after 5 t))

theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0, before6_1, before6_2]
  rw [show (dat6 V a c).Φ t.succ = (dat6 V a c).Φ t.castSucc from rfl,
    show (dat6 V a c).owesAt () t.succ = (dat6 V a c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ _ _ _ _ (iblk6 V a c 0 t) (iblk6 V a c 1 t) (iblk6 V a c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V a c) (defs₀ (F := F)) Variants.none () Set.univ := fun t => by
  rw [bigSep_W6, bigSep_W6]
  exact sound_body6 V a c t

end Region6

end Cert.KernelIdeal.Gen

end
-- ==== Proof.KI.Fold.lean ====
/-
  The buffers' contents at every boundary of the program, folded from the launch memory: a stretch of host operations
  applies them in order; a pallas_call leaves its windows' arrays at what its write-backs leave and every other buffer
  as it found it. The two prefetched tables are the student-id and exercise-id arguments themselves.
-/
import proofs.«180269_j89635967468180_1_alg».proof.Proof.KI.Proj0
import proofs.«180269_j89635967468180_1_alg».proof.Proof.KI.Proj1
import proofs.«180269_j89635967468180_1_alg».proof.Proof.KI.Proj2
import proofs.«180269_j89635967468180_1_alg».proof.Proof.KI.Proj3
import proofs.«180269_j89635967468180_1_alg».proof.Proof.KI.Proj4
import proofs.«180269_j89635967468180_1_alg».proof.Proof.KI.Proj5
import proofs.«180269_j89635967468180_1_alg».proof.Proof.KI.Gath
import proofs.«180269_j89635967468180_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The prefetched tables, read off the launch memory -/

/-- The two tables' contents: the student-id and exercise-id arguments as launched (one device). -/
def tbl : pre6.Contents (Elt F) := fun j => m (((0 : Dev nD) : Thread nD τ).loc (pre6.ref j))
/-- The side condition of the tables' contents: every table-indexed block lies inside its array. -/
abbrev Ok : Prop := ok6 (F := F) (tbl m)
/-- The tables' contents as admissible contents. -/
abbrev adm6 (hO : Ok m) : (pcfg6 (F := F)).Adm := ⟨tbl m, hO⟩

/-! ## The fold -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After projection call 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- After projection call 1: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- After projection call 2: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b

/-- After projection call 3: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
abbrev W9 : Dev nD → Valuation τ sig (Elt F) := fun c => StableHlo.after hostOps4 (W8 m ρ c)
abbrev U9 : (c : Dev nD) → (b : Ref sig .tc) → Buf (Elt F) ((c : Thread nD τ).loc b) := fun c b => W9 m ρ c b

/-- After projection call 4: its arrays at what the pipeline leaves, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 (launch4 (F := F)).win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)
abbrev W11 : Dev nD → Valuation τ sig (Elt F) := fun c => StableHlo.after hostOps5 (W10 m ρ c)
abbrev U11 : (c : Dev nD) → (b : Ref sig .tc) → Buf (Elt F) ((c : Thread nD τ).loc b) := fun c b => W11 m ρ c b

/-- After projection call 5: its arrays at what the pipeline leaves, every other buffer as entered. -/
def W12 (c : Dev nD) : Valuation τ sig (Elt F) :=
  Pipeline.withArrays spec5 c (W11 m ρ c) fun w => (dat5 (U11 m ρ) c).arrAt w cfg5.N
theorem W12_arr (c : Dev nD) (w : Fin cfg5.W) :
    W12 m ρ c (Proc.devRef .tc (Pipeline.arrRef spec5 w)) = (dat5 (U11 m ρ) c).arrAt w cfg5.N := by
  unfold W12; exact Pipeline.withArrays_arr spec5 (launch5 (F := F)).win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev U12 : (c : Dev nD) → (b : Ref sig .tc) → Buf (Elt F) ((c : Thread nD τ).loc b) := fun c b => W12 m ρ c b
theorem hF5 (c : Dev nD) (w : Fin cfg5.W) : (dat5 (U11 m ρ) c).arrAt w cfg5.N = U12 m ρ c (Pipeline.arrRef spec5 w) :=
  (W12_arr m ρ c w).symm
theorem hrest5 (c : Dev nD) : ∀ b, b ∉ Finset.univ.image (Pipeline.arrRef spec5) → U12 m ρ c b = U11 m ρ c b :=
  fun b hb => W12_of_ne m ρ c b fun w e => hb (Finset.mem_image.mpr ⟨w, Finset.mem_univ _, e⟩)
abbrev W13 : Dev nD → Valuation τ sig (Elt F) := fun c => StableHlo.after hostOps6 (W12 m ρ c)
abbrev U13 : (c : Dev nD) → (b : Ref sig .tc) → Buf (Elt F) ((c : Thread nD τ).loc b) := fun c b => W13 m ρ c b

/-- After the gathering call, at admissible tables. -/
def W14 (hO : Ok m) (c : Dev nD) : Valuation τ sig (Elt F) :=
  Pipeline.withArrays spec6 c (W13 m ρ c) fun w => (dat6 (U13 m ρ) (adm6 m hO) c).arrAt w (cfg6 (adm6 m hO)).N
theorem W14_arr (hO : Ok m) (c : Dev nD) (w : Fin (cfg6 (adm6 m hO)).W) :
    W14 m ρ hO c (Proc.devRef .tc (Pipeline.arrRef spec6 w)) = (dat6 (U13 m ρ) (adm6 m hO) c).arrAt w (cfg6 (adm6 m hO)).N := by
  unfold W14; exact Pipeline.withArrays_arr spec6 (launch6 (F := F)).win.arr_inj c _ _ w
theorem W14_of_ne (hO : Ok m) (c : Dev nD) (b : Ref sig .tc) (hb : ∀ w, Pipeline.arrRef spec6 w ≠ b) :
    W14 m ρ hO c (Proc.devRef .tc b) = W13 m ρ c (Proc.devRef .tc b) := by
  unfold W14; exact Pipeline.withArrays_of_ne spec6 c _ _ b hb
abbrev U14 (hO : Ok m) : (c : Dev nD) → (b : Ref sig .tc) → Buf (Elt F) ((c : Thread nD τ).loc b) := fun c b => W14 m ρ hO c b
theorem hF6 (hO : Ok m) (c : Dev nD) (w : Fin (cfg6 (adm6 m hO)).W) :
    (dat6 (U13 m ρ) (adm6 m hO) c).arrAt w (cfg6 (adm6 m hO)).N = U14 m ρ hO c (Pipeline.arrRef spec6 w) :=
  (W14_arr m ρ hO c w).symm
theorem hrest6 (hO : Ok m) (c : Dev nD) : ∀ b, b ∉ Finset.univ.image (Pipeline.arrRef spec6) → U14 m ρ hO c b = U13 m ρ c b :=
  fun b hb => W14_of_ne m ρ hO c b fun w e => hb (Finset.mem_image.mpr ⟨w, Finset.mem_univ _, e⟩)
abbrev W15 (hO : Ok m) : Dev nD → Valuation τ sig (Elt F) := fun c => StableHlo.after hostOps7 (W14 m ρ hO c)

end Cert.KernelIdeal.Gen

end
-- ==== Proof.KI.Keep.lean ====
/-
  What every boundary keeps: a stretch of host operations changes only the buffers it writes; a pallas_call changes only
  its output windows' arrays (an input window's array ends as entered). Hence every argument array, and both index
  tables, hold their launch contents at every boundary.
-/
import proofs.«180269_j89635967468180_1_alg».proof.Proof.KI.Fold

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step back through each boundary -/

theorem W1_of (c : Dev nD) (r : Ref sig .tc) (h : r ∉ hostOps0_W) : W1 m ρ c r = W0 m ρ c r :=
  StableHlo.after_of_writes_sub hostOps0 _ hostOps0_writes h
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
theorem W3_of (c : Dev nD) (r : Ref sig .tc) (h : r ∉ hostOps1_W) : W3 m ρ c r = W2 m ρ c r :=
  StableHlo.after_of_writes_sub hostOps1 _ hostOps1_writes h
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
theorem W5_of (c : Dev nD) (r : Ref sig .tc) (h : r ∉ hostOps2_W) : W5 m ρ c r = W4 m ρ c r :=
  StableHlo.after_of_writes_sub hostOps2 _ hostOps2_writes h
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))
theorem W7_of (c : Dev nD) (r : Ref sig .tc) (h : r ∉ hostOps3_W) : W7 m ρ c r = W6 m ρ c r :=
  StableHlo.after_of_writes_sub hostOps3 _ hostOps3_writes h
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (U7 m ρ) c).arrAt_in w hw _).trans (A_eq3 (U7 m ρ) c w))
theorem W9_of (c : Dev nD) (r : Ref sig .tc) (h : r ∉ hostOps4_W) : W9 m ρ c r = W8 m ρ c r :=
  StableHlo.after_of_writes_sub hostOps4 _ hostOps4_writes h
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (U9 m ρ) c).arrAt_in w hw _).trans (A_eq4 (U9 m ρ) c w))
theorem W11_of (c : Dev nD) (r : Ref sig .tc) (h : r ∉ hostOps5_W) : W11 m ρ c r = W10 m ρ c r :=
  StableHlo.after_of_writes_sub hostOps5 _ hostOps5_writes h
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (U11 m ρ) c).arrAt_in w hw _).trans (A_eq5 (U11 m ρ) c w))
theorem W13_of (c : Dev nD) (r : Ref sig .tc) (h : r ∉ hostOps6_W) : W13 m ρ c r = W12 m ρ c r :=
  StableHlo.after_of_writes_sub hostOps6 _ hostOps6_writes h
theorem W14_in (hO : Ok m) (c : Dev nD) (w : Fin (cfg6 (adm6 m hO)).W) (hw : ((cfg6 (adm6 m hO)).win w).isOut = false) :
    W14 m ρ hO c (Proc.devRef .tc (Pipeline.arrRef spec6 w)) = W13 m ρ c (Proc.devRef .tc (Pipeline.arrRef spec6 w)) :=
  (W14_arr m ρ hO c w).trans (((dat6 (U13 m ρ) (adm6 m hO) c).arrAt_in w hw _).trans (A_eq6 (U13 m ρ) (adm6 m hO) c w))
theorem W15_of (hO : Ok m) (c : Dev nD) (r : Ref sig .tc) (h : r ∉ hostOps7_W) : W15 m ρ hO c r = W14 m ρ hO c r :=
  StableHlo.after_of_writes_sub hostOps7 _ hostOps7_writes h

/-! ## The arguments at every boundary -/
theorem W13_main_arg0 (c : Dev nD) : W13 m ρ c (Proc.devRef .tc main_arg0) = m ((c : Thread nD τ).loc main_arg0) :=
  (W13_of m ρ c main_arg0 (by decide)).trans <| (W12_of_ne m ρ c main_arg0 (by decide)).trans <| (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
theorem W15_main_arg0 (hO : Ok m) (c : Dev nD) : W15 m ρ hO c (Proc.devRef .tc main_arg0) = m ((c : Thread nD τ).loc main_arg0) :=
  (W15_of m ρ hO c main_arg0 (by decide)).trans <| (W14_of_ne m ρ hO c main_arg0 (by decide)).trans <| W13_main_arg0 m ρ c
theorem W13_main_arg1 (c : Dev nD) : W13 m ρ c (Proc.devRef .tc main_arg1) = m ((c : Thread nD τ).loc main_arg1) :=
  (W13_of m ρ c main_arg1 (by decide)).trans <| (W12_of_ne m ρ c main_arg1 (by decide)).trans <| (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W15_main_arg1 (hO : Ok m) (c : Dev nD) : W15 m ρ hO c (Proc.devRef .tc main_arg1) = m ((c : Thread nD τ).loc main_arg1) :=
  (W15_of m ρ hO c main_arg1 (by decide)).trans <| (W14_of_ne m ρ hO c main_arg1 (by decide)).trans <| W13_main_arg1 m ρ c
theorem W13_main_arg2 (c : Dev nD) : W13 m ρ c (Proc.devRef .tc main_arg2) = m ((c : Thread nD τ).loc main_arg2) :=
  (W13_of m ρ c main_arg2 (by decide)).trans <| (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W15_main_arg2 (hO : Ok m) (c : Dev nD) : W15 m ρ hO c (Proc.devRef .tc main_arg2) = m ((c : Thread nD τ).loc main_arg2) :=
  (W15_of m ρ hO c main_arg2 (by decide)).trans <| (W14_of_ne m ρ hO c main_arg2 (by decide)).trans <| W13_main_arg2 m ρ c
theorem W13_main_arg3 (c : Dev nD) : W13 m ρ c (Proc.devRef .tc main_arg3) = m ((c : Thread nD τ).loc main_arg3) :=
  (W13_of m ρ c main_arg3 (by decide)).trans <| (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
theorem W15_main_arg3 (hO : Ok m) (c : Dev nD) : W15 m ρ hO c (Proc.devRef .tc main_arg3) = m ((c : Thread nD τ).loc main_arg3) :=
  (W15_of m ρ hO c main_arg3 (by decide)).trans <| (W14_of_ne m ρ hO c main_arg3 (by decide)).trans <| W13_main_arg3 m ρ c
theorem W13_main_arg4 (c : Dev nD) : W13 m ρ c (Proc.devRef .tc main_arg4) = m ((c : Thread nD τ).loc main_arg4) :=
  (W13_of m ρ c main_arg4 (by decide)).trans <| (W12_of_ne m ρ c main_arg4 (by decide)).trans <| (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans rfl
theorem W15_main_arg4 (hO : Ok m) (c : Dev nD) : W15 m ρ hO c (Proc.devRef .tc main_arg4) = m ((c : Thread nD τ).loc main_arg4) :=
  (W15_of m ρ hO c main_arg4 (by decide)).trans <| (W14_of_ne m ρ hO c main_arg4 (by decide)).trans <| W13_main_arg4 m ρ c
theorem W13_main_arg5 (c : Dev nD) : W13 m ρ c (Proc.devRef .tc main_arg5) = m ((c : Thread nD τ).loc main_arg5) :=
  (W13_of m ρ c main_arg5 (by decide)).trans <| (W12_of_ne m ρ c main_arg5 (by decide)).trans <| (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W15_main_arg5 (hO : Ok m) (c : Dev nD) : W15 m ρ hO c (Proc.devRef .tc main_arg5) = m ((c : Thread nD τ).loc main_arg5) :=
  (W15_of m ρ hO c main_arg5 (by decide)).trans <| (W14_of_ne m ρ hO c main_arg5 (by decide)).trans <| W13_main_arg5 m ρ c
theorem W13_main_arg6 (c : Dev nD) : W13 m ρ c (Proc.devRef .tc main_arg6) = m ((c : Thread nD τ).loc main_arg6) :=
  (W13_of m ρ c main_arg6 (by decide)).trans <| (W12_of_ne m ρ c main_arg6 (by decide)).trans <| (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
theorem W15_main_arg6 (hO : Ok m) (c : Dev nD) : W15 m ρ hO c (Proc.devRef .tc main_arg6) = m ((c : Thread nD τ).loc main_arg6) :=
  (W15_of m ρ hO c main_arg6 (by decide)).trans <| (W14_of_ne m ρ hO c main_arg6 (by decide)).trans <| W13_main_arg6 m ρ c
theorem W13_main_arg7 (c : Dev nD) : W13 m ρ c (Proc.devRef .tc main_arg7) = m ((c : Thread nD τ).loc main_arg7) :=
  (W13_of m ρ c main_arg7 (by decide)).trans <| (W12_of_ne m ρ c main_arg7 (by decide)).trans <| (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_in m ρ c 2 rfl).trans <| (W5_of m ρ c main_arg7 (by decide)).trans <| (W4_in m ρ c 2 rfl).trans <| (W3_of m ρ c main_arg7 (by decide)).trans <| (W2_in m ρ c 2 rfl).trans <| (W1_of m ρ c main_arg7 (by decide)).trans rfl
theorem W15_main_arg7 (hO : Ok m) (c : Dev nD) : W15 m ρ hO c (Proc.devRef .tc main_arg7) = m ((c : Thread nD τ).loc main_arg7) :=
  (W15_of m ρ hO c main_arg7 (by decide)).trans <| (W14_of_ne m ρ hO c main_arg7 (by decide)).trans <| W13_main_arg7 m ρ c
theorem W13_main_arg8 (c : Dev nD) : W13 m ρ c (Proc.devRef .tc main_arg8) = m ((c : Thread nD τ).loc main_arg8) :=
  (W13_of m ρ c main_arg8 (by decide)).trans <| (W12_of_ne m ρ c main_arg8 (by decide)).trans <| (W11_of m ρ c main_arg8 (by decide)).trans <| (W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W15_main_arg8 (hO : Ok m) (c : Dev nD) : W15 m ρ hO c (Proc.devRef .tc main_arg8) = m ((c : Thread nD τ).loc main_arg8) :=
  (W15_of m ρ hO c main_arg8 (by decide)).trans <| (W14_of_ne m ρ hO c main_arg8 (by decide)).trans <| W13_main_arg8 m ρ c
theorem W13_main_arg9 (c : Dev nD) : W13 m ρ c (Proc.devRef .tc main_arg9) = m ((c : Thread nD τ).loc main_arg9) :=
  (W13_of m ρ c main_arg9 (by decide)).trans <| (W12_in m ρ c 2 rfl).trans <| (W11_of m ρ c main_arg9 (by decide)).trans <| (W10_in m ρ c 2 rfl).trans <| (W9_of m ρ c main_arg9 (by decide)).trans <| (W8_in m ρ c 2 rfl).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W15_main_arg9 (hO : Ok m) (c : Dev nD) : W15 m ρ hO c (Proc.devRef .tc main_arg9) = m ((c : Thread nD τ).loc main_arg9) :=
  (W15_of m ρ hO c main_arg9 (by decide)).trans <| (W14_of_ne m ρ hO c main_arg9 (by decide)).trans <| W13_main_arg9 m ρ c
theorem W13_main_arg10 (c : Dev nD) : W13 m ρ c (Proc.devRef .tc main_arg10) = m ((c : Thread nD τ).loc main_arg10) :=
  (W13_of m ρ c main_arg10 (by decide)).trans <| (W12_of_ne m ρ c main_arg10 (by decide)).trans <| (W11_of m ρ c main_arg10 (by decide)).trans <| (W10_of_ne m ρ c main_arg10 (by decide)).trans <| (W9_of m ρ c main_arg10 (by decide)).trans <| (W8_of_ne m ρ c main_arg10 (by decide)).trans <| (W7_of m ρ c main_arg10 (by decide)).trans <| (W6_of_ne m ρ c main_arg10 (by decide)).trans <| (W5_of m ρ c main_arg10 (by decide)).trans <| (W4_of_ne m ρ c main_arg10 (by decide)).trans <| (W3_of m ρ c main_arg10 (by decide)).trans <| (W2_of_ne m ρ c main_arg10 (by decide)).trans <| (W1_of m ρ c main_arg10 (by decide)).trans rfl
theorem W15_main_arg10 (hO : Ok m) (c : Dev nD) : W15 m ρ hO c (Proc.devRef .tc main_arg10) = m ((c : Thread nD τ).loc main_arg10) :=
  (W15_of m ρ hO c main_arg10 (by decide)).trans <| (W14_of_ne m ρ hO c main_arg10 (by decide)).trans <| W13_main_arg10 m ρ c
theorem W13_main_arg11 (c : Dev nD) : W13 m ρ c (Proc.devRef .tc main_arg11) = m ((c : Thread nD τ).loc main_arg11) :=
  (W13_of m ρ c main_arg11 (by decide)).trans <| (W12_of_ne m ρ c main_arg11 (by decide)).trans <| (W11_of m ρ c main_arg11 (by decide)).trans <| (W10_of_ne m ρ c main_arg11 (by decide)).trans <| (W9_of m ρ c main_arg11 (by decide)).trans <| (W8_of_ne m ρ c main_arg11 (by decide)).trans <| (W7_of m ρ c main_arg11 (by decide)).trans <| (W6_of_ne m ρ c main_arg11 (by decide)).trans <| (W5_of m ρ c main_arg11 (by decide)).trans <| (W4_of_ne m ρ c main_arg11 (by decide)).trans <| (W3_of m ρ c main_arg11 (by decide)).trans <| (W2_of_ne m ρ c main_arg11 (by decide)).trans <| (W1_of m ρ c main_arg11 (by decide)).trans rfl
theorem W15_main_arg11 (hO : Ok m) (c : Dev nD) : W15 m ρ hO c (Proc.devRef .tc main_arg11) = m ((c : Thread nD τ).loc main_arg11) :=
  (W15_of m ρ hO c main_arg11 (by decide)).trans <| (W14_of_ne m ρ hO c main_arg11 (by decide)).trans <| W13_main_arg11 m ρ c
theorem W13_main_arg12 (c : Dev nD) : W13 m ρ c (Proc.devRef .tc main_arg12) = m ((c : Thread nD τ).loc main_arg12) :=
  (W13_of m ρ c main_arg12 (by decide)).trans <| (W12_of_ne m ρ c main_arg12 (by decide)).trans <| (W11_of m ρ c main_arg12 (by decide)).trans <| (W10_of_ne m ρ c main_arg12 (by decide)).trans <| (W9_of m ρ c main_arg12 (by decide)).trans <| (W8_of_ne m ρ c main_arg12 (by decide)).trans <| (W7_of m ρ c main_arg12 (by decide)).trans <| (W6_of_ne m ρ c main_arg12 (by decide)).trans <| (W5_of m ρ c main_arg12 (by decide)).trans <| (W4_of_ne m ρ c main_arg12 (by decide)).trans <| (W3_of m ρ c main_arg12 (by decide)).trans <| (W2_of_ne m ρ c main_arg12 (by decide)).trans <| (W1_of m ρ c main_arg12 (by decide)).trans rfl
theorem W15_main_arg12 (hO : Ok m) (c : Dev nD) : W15 m ρ hO c (Proc.devRef .tc main_arg12) = m ((c : Thread nD τ).loc main_arg12) :=
  (W15_of m ρ hO c main_arg12 (by decide)).trans <| (W14_of_ne m ρ hO c main_arg12 (by decide)).trans <| W13_main_arg12 m ρ c
theorem W13_main_arg13 (c : Dev nD) : W13 m ρ c (Proc.devRef .tc main_arg13) = m ((c : Thread nD τ).loc main_arg13) :=
  (W13_of m ρ c main_arg13 (by decide)).trans <| (W12_of_ne m ρ c main_arg13 (by decide)).trans <| (W11_of m ρ c main_arg13 (by decide)).trans <| (W10_of_ne m ρ c main_arg13 (by decide)).trans <| (W9_of m ρ c main_arg13 (by decide)).trans <| (W8_of_ne m ρ c main_arg13 (by decide)).trans <| (W7_of m ρ c main_arg13 (by decide)).trans <| (W6_of_ne m ρ c main_arg13 (by decide)).trans <| (W5_of m ρ c main_arg13 (by decide)).trans <| (W4_of_ne m ρ c main_arg13 (by decide)).trans <| (W3_of m ρ c main_arg13 (by decide)).trans <| (W2_of_ne m ρ c main_arg13 (by decide)).trans <| (W1_of m ρ c main_arg13 (by decide)).trans rfl
theorem W15_main_arg13 (hO : Ok m) (c : Dev nD) : W15 m ρ hO c (Proc.devRef .tc main_arg13) = m ((c : Thread nD τ).loc main_arg13) :=
  (W15_of m ρ hO c main_arg13 (by decide)).trans <| (W14_of_ne m ρ hO c main_arg13 (by decide)).trans <| W13_main_arg13 m ρ c

/-- On every device the tables hold, when the gathering call is entered, their launch contents (there is one device). -/
theorem U13_pre (c : Dev nD) (j : Fin 2) : U13 m ρ c (pre6.ref j) = tbl m j := by
  obtain rfl : c = 0 := Subsingleton.elim _ _
  match j with
  | ⟨0, _⟩ => exact W13_main_arg12 m ρ 0
  | ⟨1, _⟩ => exact W13_main_arg13 m ρ 0

end Cert.KernelIdeal.Gen

end
-- ==== Proof.KI.Run.lean ====
/-
  The whole program's run at any float instance: the seven pallas_calls and the stretches of host operations between
  them as one chain of segments over the thread state "every unscoped buffer at the boundary's contents, the generator
  register at some state, nothing owed". Every weakly fair execution terminates, nothing faults, and every unscoped
  buffer ends at the last boundary's contents.
-/
import proofs.«180269_j89635967468180_1_alg».proof.Proof.KI.Keep

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' admissible contents, call by call: only the gathering call has tables. -/
def adm (hO : Ok m) : (p : Fin 7) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => adm6 m hO
  | ⟨_ + 7, h⟩ => absurd h (Nat.not_lt.2 (Nat.le_add_left _ _))

/-- Every call's proof data, each at its entry contents. -/
def pdats (hO : Ok m) : (p : Fin 7) → (c : Dev nD) → Dat τ (Elt F) Unit ℕ (UR sig nD τ) ℕ (Pipeline.pin (pcfgs (F := F)) (adm m hO) p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
  | ⟨6, _⟩ => fun c => dat6 (U13 m ρ) (adm6 m hO) c
  | ⟨_ + 7, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Projection call 0 over the thread state: entered from every unscoped buffer at `W1`, left at `W2`. -/
def reg0 (hO : Ok m) : Pipeline.RegionSeg (pcfgs (F := F)) (adm m hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) (adm m hO) (pdats m ρ hO) (launch0 (F := F)).win (launch0 (F := F)).arr_whole c
      ((pdats m ρ hO 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m ρ hO) ((pdats m ρ hO 0 c).share_full fun _ => rfl)
      (U1 m ρ c) (U2 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 1 over the thread state: entered from every unscoped buffer at `W3`, left at `W4`. -/
def reg1 (hO : Ok m) : Pipeline.RegionSeg (pcfgs (F := F)) (adm m hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) (adm m hO) (pdats m ρ hO) (launch1 (F := F)).win (launch1 (F := F)).arr_whole c
      ((pdats m ρ hO 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m ρ hO) ((pdats m ρ hO 1 c).share_full fun _ => rfl)
      (U3 m ρ c) (U4 m ρ c) ((pdats m ρ hO 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 2 over the thread state: entered from every unscoped buffer at `W5`, left at `W6`. -/
def reg2 (hO : Ok m) : Pipeline.RegionSeg (pcfgs (F := F)) (adm m hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) (adm m hO) (pdats m ρ hO) (launch2 (F := F)).win (launch2 (F := F)).arr_whole c
      ((pdats m ρ hO 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hO 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hO) (Ix := Unit) (Name := ℕ) (U := UR sig nD τ) (Lvl := ℕ)
      (launch2 (F := F)).win (launch2 (F := F)).arr_whole c (pdats m ρ hO) ((pdats m ρ hO 2 c).share_full fun _ => rfl)
      (U5 m ρ c) (U6 m ρ c) ((pdats m ρ hO 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 3 over the thread state: entered from every unscoped buffer at `W7`, left at `W8`. -/
def reg3 (hO : Ok m) : Pipeline.RegionSeg (pcfgs (F := F)) (adm m hO) (pdats m ρ hO) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) (adm m hO) (pdats m ρ hO) (launch3 (F := F)).win (launch3 (F := F)).arr_whole c
      ((pdats m ρ hO 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ hO 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m hO) (Ix := Unit) (Name := ℕ) (U := UR sig nD τ) (Lvl := ℕ)
      (launch3 (F := F)).win (launch3 (F := F)).arr_whole c (pdats m ρ hO) ((pdats m ρ hO 3 c).share_full fun _ => rfl)
      (U7 m ρ c) (U8 m ρ c) ((pdats m ρ hO 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 4 over the thread state: entered from every unscoped buffer at `W9`, left at `W10`. -/
def reg4 (hO : Ok m) : Pipeline.RegionSeg (pcfgs (F := F)) (adm m hO) (pdats m ρ hO) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) (adm m hO) (pdats m ρ hO) (launch4 (F := F)).win (launch4 (F := F)).arr_whole c
      ((pdats m ρ hO 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ hO 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m hO) (Ix := Unit) (Name := ℕ) (U := UR sig nD τ) (Lvl := ℕ)
      (launch4 (F := F)).win (launch4 (F := F)).arr_whole c (pdats m ρ hO) ((pdats m ρ hO 4 c).share_full fun _ => rfl)
      (U9 m ρ c) (U10 m ρ c) ((pdats m ρ hO 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 5 over the thread state: entered from every unscoped buffer at `W11`, left at `W12`. -/
def reg5 (hO : Ok m) : Pipeline.RegionSeg (pcfgs (F := F)) (adm m hO) (pdats m ρ hO) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (U11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) (adm m hO) (pdats m ρ hO) (launch5 (F := F)).win (launch5 (F := F)).arr_whole c
      ((pdats m ρ hO 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ hO 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) (adm m hO) (Ix := Unit) (Name := ℕ) (U := UR sig nD τ) (Lvl := ℕ)
      (launch5 (F := F)).win (launch5 (F := F)).arr_whole c (pdats m ρ hO) ((pdats m ρ hO 5 c).share_full fun _ => rfl)
      (U11 m ρ c) (U12 m ρ c) ((pdats m ρ hO 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gathering call over the thread state: entered from every unscoped buffer at `W13`, left at `W14`. Its arrays and
    its two tables are split out of the unscoped buffers at entry (the tables hold their launch contents there) and put
    back at exit. -/
def reg6 (hO : Ok m) : Pipeline.RegionSeg (pcfgs (F := F)) (adm m hO) (pdats m ρ hO) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := (body_obligation6 (U13 m ρ) (adm6 m hO) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ hO c) ∗ R c)
  X c := iprop(∃ r, prngReg c r)
  Y c := iprop((∃ r, prngReg c r) ∗ Pipeline.prefHeld (Ix := Unit) (Name := ℕ) (U := UR sig nD τ) (Lvl := ℕ) pre6 c (fun _ => fullShare) (tbl m))
  Z c := Pipeline.unscopedRestP (Ix := Unit) (Name := ℕ) (U := UR sig nD τ) (Lvl := ℕ) pre6 spec6 c (U13 m ρ c)
  hentry c := by
    rw [Pipeline.ownSems0_none]
    have hT : (fun k => U13 m ρ c (pre6.ref k)) = tbl m := funext (U13_pre m ρ c)
    have hsplit := Pipeline.arrays_of_unscopedBufs (p := 6) (pcfgs (F := F)) (adm m hO) (pdats m ρ hO) (launch6 (F := F)).win (launch6 (F := F)).arr_whole c
      ((pdats m ρ hO 6 c).share_full fun _ => rfl) (U13 m ρ c) fun _ => rfl
    have hs : (Pipeline.unscopedRest (Ix := Unit) (Name := ℕ) (U := UR sig nD τ) (Lvl := ℕ) (Pipeline.pin (pcfgs (F := F)) (adm m hO) 6).spec c (U13 m ρ c) : sProp 𝕄)
        = iprop(Pipeline.prefHeld pre6 c (fun _ => fullShare) (tbl m) ∗ Pipeline.unscopedRestP pre6 spec6 c (U13 m ρ c)) :=
      (Pipeline.unscopedRest_split preFacts6 c (U13 m ρ c)).trans (by rw [hT])
    rw [Pipeline.unscopedBufs_held, hs] at hsplit
    show iprop(iprop(StableHlo.held (c : Thread nD τ) (Pipeline.ucRefs τ sig) (W13 m ρ c) ∗ R c) ∗ BI.emp ∗ levAts L lv)
      ⊢ |={Set.univ}=> iprop((pdats m ρ hO 6 c).arrays ((pdats m ρ hO 6 c).arrAt · 0) ∗ Pipeline.prefHeld pre6 c (fun _ => fullShare) (tbl m)
        ∗ (pdats m ρ hO 6 c).owesAt () 0 ∗ (∃ r, prngReg c r) ∗ Pipeline.unscopedRestP pre6 spec6 c (U13 m ρ c))
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 6 c).Φ 0 = iprop(Pipeline.ΦA spec6 c ∗ Pipeline.prefHeld (Ix := Unit) (Name := ℕ) (U := UR sig nD τ) (Lvl := ℕ) pre6 c (fun _ => fullShare) (tbl m)) from rfl]; unfold Pipeline.ΦA
    iintro ⟨Hp, HT, Hr⟩
    isplitl [Hr Hp]
    · isplitl [Hr]; · iexact Hr
      iexact Hp
    iexact HT
  hout c := by
    rw [Pipeline.ownSems0_none, show (pdats m ρ hO 6 c).Φ (Fin.last _) = iprop(Pipeline.ΦA spec6 c ∗ Pipeline.prefHeld (Ix := Unit) (Name := ℕ) (U := UR sig nD τ) (Lvl := ℕ) pre6 c (fun _ => fullShare) (tbl m)) from rfl]; unfold Pipeline.ΦA
    iintro ⟨⟨Hr, Hp⟩, HT⟩
    isplitl [Hp HT]
    · isplitl [Hp]; · iexact Hp
      iexact HT
    isplitr; · iempintro
    iexact Hr
  hexit c := by
    have hT : (fun k => U13 m ρ c (pre6.ref k)) = tbl m := funext (U13_pre m ρ c)
    have hjoin := Pipeline.unscopedBufs_of_arrays (p := 6) (pcfgs (F := F)) (adm m hO) (Ix := Unit) (Name := ℕ) (U := UR sig nD τ) (Lvl := ℕ)
      (launch6 (F := F)).win (launch6 (F := F)).arr_whole c (pdats m ρ hO) ((pdats m ρ hO 6 c).share_full fun _ => rfl)
      (U13 m ρ c) (U14 m ρ hO c) ((pdats m ρ hO 6 c).arrAt · (cfg6 (adm6 m hO)).N) (hF6 m ρ hO c) (hrest6 m ρ hO c)
    have hs : (Pipeline.unscopedRest (Ix := Unit) (Name := ℕ) (U := UR sig nD τ) (Lvl := ℕ) (Pipeline.pin (pcfgs (F := F)) (adm m hO) 6).spec c (U13 m ρ c) : sProp 𝕄)
        = iprop(Pipeline.prefHeld pre6 c (fun _ => fullShare) (tbl m) ∗ Pipeline.unscopedRestP pre6 spec6 c (U13 m ρ c)) :=
      (Pipeline.unscopedRest_split preFacts6 c (U13 m ρ c)).trans (by rw [hT])
    rw [Pipeline.unscopedBufs_held, hs] at hjoin
    iintro ⟨Ha, HO, ⟨Hp, HT⟩, Hrest⟩
    imodintro
    isplitl [Ha Hrest HT]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

/-! ## The program as segments, and the run -/

abbrev msegs (hO : Ok m) : List (Pipeline.Seg (pcfgs (F := F)) (adm m hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ)),
    .region (reg1 m ρ hO),
    .host (hseg hostOps2 hostOps2_sub hostOps2_fresh (W4 m ρ)),
    .region (reg2 m ρ hO),
    .host (hseg hostOps3 hostOps3_sub hostOps3_fresh (W6 m ρ)),
    .region (reg3 m ρ hO),
    .host (hseg hostOps4 hostOps4_sub hostOps4_fresh (W8 m ρ)),
    .region (reg4 m ρ hO),
    .host (hseg hostOps5 hostOps5_sub hostOps5_fresh (W10 m ρ)),
    .region (reg5 m ρ hO),
    .host (hseg hostOps6 hostOps6_sub hostOps6_fresh (W12 m ρ)),
    .region (reg6 m ρ hO),
    .host (hseg hostOps7 hostOps7_sub hostOps7_fresh (W14 m ρ hO)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Under the tables' side condition: from any memory with zero counters every weakly fair execution of the
    program terminates, nothing faulting, and every final state holds every unscoped buffer at the last boundary's
    contents `W15`. -/
theorem run (hO : Ok m) : θ_run defs (onTc (τ := τ) (main (F := F))) ⟨m, fun _ => 0, ρ⟩ (fun r => ∀ c : Dev nD,
      ∀ b ∈ Pipeline.ucRefs τ sig, r.2.mem (((c : Thread nD τ)).1, b) = W15 m ρ hO c b) :=
  Pipeline.θ_run_regions_kit (pcfgs (F := F)) (adm m hO) (pdats m ρ hO) () (cellOf_inj (adm m hO)) emb₁ defs₀ 𝒱₀ L lv m ρ main (msegs m ρ hO)
    (fun c Q => by
      rewrite [main_chain c, Pipeline.Seg.run_eq_chain,
        show (msegs m ρ hO).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W15 m ρ hO c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W15 m ρ hO c) ∗ R c)
          ⊢ iprop(iprop(StableHlo.held (c : Thread nD τ) (Pipeline.ucRefs τ sig) (W15 m ρ hO c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ hO c) s')
      isplitl [Hh] <;> iassumption)
    (hQ := fun s h c => h c)

end Cert.KernelIdeal.Gen

end
-- ==== Proof.KI.Ok6.lean ====
/-
  The side condition of the row-gathering call, from the ranges of its two prefetched index tables.
  Window w's block index at grid point i is (t i, 0, 0), t i the unsigned reading of one word of a table:
  table 0 (indexing 50000 row blocks) for window 0, table 1 (indexing 20000) for windows 1 and 2. A block of
  sizes (1, 1, n) at block index (t, 0, 0) lies inside an array of sizes (N, 1, n) exactly when t < N, so
  every word of table 0 below 50000 and every word of table 1 below 20000 give the three conjuncts; the
  elements are 32-bit, which settles the word-exactness disjunct. The tables' contents stay a variable.
-/
import proofs.«180269_j89635967468180_1_alg».proof.Proof.Gen.KernelIdeal.Launch

namespace Cert.KernelIdeal.Ok6

open Cert.KernelIdeal Cert.KernelIdeal.Gen
open Idealize.ShloMosaic

variable {F : FTy → Type} [FloatOps F]

/-- A block of sizes (1, 1, n) at block index (t, 0, 0) is inside an array of sizes (N, 1, n) when t < N. -/
theorem block_inb (t N n : Nat) (ht : t < N) (a : Fin 3) :
    ((![t, 0, 0] : Fin 3 → Nat) a + 1) * (⟨3, ![1, 1, n]⟩ : Shape).size a ≤ (⟨3, ![N, 1, n]⟩ : Shape).size a := by
  fin_cases a
  · show (t + 1) * 1 ≤ N; omega
  · show (0 + 1) * 1 ≤ 1; omega
  · show (0 + 1) * n ≤ n; omega

/-- Window 0's block index is (t, 0, 0), t the unsigned reading of a word of table 0. -/
theorem transform_0_eq (pf : pre6.Contents (Elt F)) (i : grid6.Coords) :
    ∃ j : S8192.Idx, cc6_transform_0 k6_off1_inb numel1_S1 pf i = ![(pf 0 j : BitVec 32).toNat, 0, 0] := ⟨_, rfl⟩

/-- Window 1's block index is (t, 0, 0), t the unsigned reading of a word of table 1. -/
theorem transform_1_eq (pf : pre6.Contents (Elt F)) (i : grid6.Coords) :
    ∃ j : S8192.Idx, cc6_transform_1 k6_off1_inb numel1_S1 pf i = ![(pf 1 j : BitVec 32).toNat, 0, 0] := ⟨_, rfl⟩

/-- Window 2's block index is (t, 0, 0), t the unsigned reading of a word of table 1. -/
theorem transform_2_eq (pf : pre6.Contents (Elt F)) (i : grid6.Coords) :
    ∃ j : S8192.Idx, cc6_transform_2 k6_off1_inb numel1_S1 pf i = ![(pf 1 j : BitVec 32).toNat, 0, 0] := ⟨_, rfl⟩

/-- The gather call's side condition holds at any table contents whose words are inside the gathered arrays. -/
theorem ok6_of_range (pf : pre6.Contents (Elt F))
    (h12 : ∀ j : S8192.Idx, (pf 0 j : BitVec 32).toNat < 50000)
    (h13 : ∀ j : S8192.Idx, (pf 1 j : BitVec 32).toNat < 20000) : ok6 pf := by
  refine ⟨fun i => ⟨fun a => ?_, .inl rfl⟩, fun i => ⟨fun a => ?_, .inl rfl⟩, fun i => ⟨fun a => ?_, .inl rfl⟩⟩
  · obtain ⟨j, e⟩ := transform_0_eq pf i
    rw [e]; exact block_inb _ 50000 128 (h12 j) a
  · obtain ⟨j, e⟩ := transform_1_eq pf i
    rw [e]; exact block_inb _ 20000 128 (h13 j) a
  · obtain ⟨j, e⟩ := transform_2_eq pf i
    rw [e]; exact block_inb _ 20000 1 (h13 j) a

end Cert.KernelIdeal.Ok6
-- ==== Proof.KI.PreIdx.lean ====
/-
  The last two conjuncts of the precondition, read back. The printed predicate ends in
    (… ∧ all(0 ≤ sid ∧ sid < 50000)) ∧ all(0 ≤ eid ∧ eid < 20000),
  each `all` a reduce by `and` of an `i1` array from the constant 1, each comparison signed. When the
  predicate's one word is 1, every entry of both tables therefore reads, signed, inside its range; and a
  32-bit word that reads signed in [0, n) reads the same unsigned, so its unsigned value is below n.
  Generic in the float interpretation: the integer conjuncts do not mention it.
-/
import proofs.«180269_j89635967468180_1_alg».proof.Defs
import proofs.«180269_j89635967468180_1_alg».proof.Proof.Gen.Pre_finite_inputs
import Idealize.ShloMosaic.Lib.ReduceAll

namespace Cert.PreIdx

open Idealize.ShloMosaic Cert.Pre_finite_inputs Cert.Pre_finite_inputs.Facts

/-- The scalar shape has exactly one index. -/
instance : Subsingleton S_.Idx := ⟨fun a b => funext fun d => d.elim0⟩

/-- The scalar shape's one index. -/
abbrev ix0 : S_.Idx := fun a => a.elim0

/-- A 32-bit word whose signed reading is in [0, n) has its unsigned reading below n. -/
theorem toNat_lt_of_toInt (w : BitVec 32) (n : Nat) (h0 : 0 ≤ w.toInt) (h1 : w.toInt < (n : Int)) : w.toNat < n := by
  have hw := w.isLt
  rw [BitVec.toInt_eq_toNat_cond] at h0 h1
  by_cases hc : 2 * w.toNat < 2 ^ 32
  · rw [if_pos hc] at h0 h1; omega
  · rw [if_neg hc] at h0 h1; omega

variable {F : FTy → Type} [FloatOps F] [Facts]

/-- The tail of the predicate: when its word is 1, the carried sign test of the first table holds at every
    entry, that table's entries are below 50000, and the second table's entries are in [0, 20000). -/
theorem part3_ranges (a12 a13 : IVec S8192 32) (v48 : IVec S_ 1) (v50 : IVec S8192 1)
    (h : fn_part3 (F := F) a12 a13 v48 v50 = fun _ => 1#1) :
    (∀ j : S8192.Idx, v50 j = 1#1 ∧ (a12 j).toInt < 50000) ∧
      ∀ j : S8192.Idx, 0 ≤ (a13 j).toInt ∧ (a13 j).toInt < 20000 := by
  have e : IntOp.andi
      (IntOp.andi (v48 ix0)
        (Host.reduce IntOp.andi (andi v50 (cmpi .slt a12 (broadcastInDim S8192 ![] bcast_S_S8192 (constantI S_ 32 50000#32))))
          (constantI S_ 1 1#1) reducesTo_S8192_S_d0 h_S_ ix0))
      (Host.reduce IntOp.andi
          (andi (cmpi .sge a13 (broadcastInDim S8192 ![] bcast_S_S8192 (constantI S_ 32 0#32)))
            (cmpi .slt a13 (broadcastInDim S8192 ![] bcast_S_S8192 (constantI S_ 32 20000#32))))
          (constantI S_ 1 1#1) reducesTo_S8192_S_d0 h_S_ ix0) = 1#1 :=
    congrFun h ix0
  obtain ⟨e1, e2⟩ := IntOp.andi_eq_one.1 e
  obtain ⟨_, e3⟩ := IntOp.andi_eq_one.1 e1
  have c50 : (50000#32 : BitVec 32).toInt = 50000 := by decide
  have c20 : (20000#32 : BitVec 32).toInt = 20000 := by decide
  have c0 : (0#32 : BitVec 32).toInt = 0 := by decide
  refine ⟨fun j => ?_, fun j => ?_⟩
  · have t : IntOp.andi (v50 j) (IntOp.cmpi .slt (a12 j) (50000#32)) = 1#1 :=
      Host.reduce_andi_all _ _ _ _ _ e3 j
    obtain ⟨p, q⟩ := IntOp.andi_eq_one.1 t
    have q' := IntOp.cmpi_slt.1 q
    rw [c50] at q'
    exact ⟨p, q'⟩
  · have t : IntOp.andi (IntOp.cmpi .sge (a13 j) (0#32)) (IntOp.cmpi .slt (a13 j) (20000#32)) = 1#1 :=
      Host.reduce_andi_all _ _ _ _ _ e2 j
    obtain ⟨p, q⟩ := IntOp.andi_eq_one.1 t
    have p' := IntOp.cmpi_sge.1 p
    have q' := IntOp.cmpi_slt.1 q
    rw [c0] at p'; rw [c20] at q'
    exact ⟨p', q'⟩

/-- The whole predicate's word being 1 puts every entry of both index tables inside its range, read signed. -/
theorem ranges
    (a0 : FVec F S50000x128 .f32) (a1 : FVec F S20000x128 .f32) (a2 : FVec F S128x128 .f32) (a3 : FVec F S20000x1 .f32)
    (a4 a5 : FVec F S3x128x128 .f32) (a6 a7 a8 a9 : FVec F S70000x1 .f32) (a10 a11 : IVec S2x1000000 32)
    (a12 a13 : IVec S8192 32)
    (h : fn (F := F) a0 a1 a2 a3 a4 a5 a6 a7 a8 a9 a10 a11 a12 a13 = fun _ => 1#1) :
    (∀ j : S8192.Idx, 0 ≤ (a12 j).toInt ∧ (a12 j).toInt < 50000) ∧
      ∀ j : S8192.Idx, 0 ≤ (a13 j).toInt ∧ (a13 j).toInt < 20000 := by
  have c0 : (0#32 : BitVec 32).toInt = 0 := by decide
  unfold fn fn_part1 fn_part2 at h
  obtain ⟨r1, r2⟩ := part3_ranges (F := F) a12 a13 _ (cmpi .sge a12 (broadcastInDim S8192 ![] bcast_S_S8192 (constantI S_ 32 0#32))) h
  refine ⟨fun j => ?_, r2⟩
  obtain ⟨p, q⟩ := r1 j
  have p0 : IntOp.cmpi .sge (a12 j) (0#32) = 1#1 := p
  have p' := IntOp.cmpi_sge.1 p0
  rw [c0] at p'
  exact ⟨p', q⟩

/-- Every entry of the first index table is in [0, 50000), read signed. -/
theorem sid_range
    (a0 : FVec F S50000x128 .f32) (a1 : FVec F S20000x128 .f32) (a2 : FVec F S128x128 .f32) (a3 : FVec F S20000x1 .f32)
    (a4 a5 : FVec F S3x128x128 .f32) (a6 a7 a8 a9 : FVec F S70000x1 .f32) (a10 a11 : IVec S2x1000000 32)
    (a12 a13 : IVec S8192 32)
    (h : fn (F := F) a0 a1 a2 a3 a4 a5 a6 a7 a8 a9 a10 a11 a12 a13 = fun _ => 1#1) :
    ∀ j : S8192.Idx, 0 ≤ (a12 j).toInt ∧ (a12 j).toInt < 50000 :=
  (ranges a0 a1 a2 a3 a4 a5 a6 a7 a8 a9 a10 a11 a12 a13 h).1

/-- Every entry of the second index table is in [0, 20000), read signed. -/
theorem eid_range
    (a0 : FVec F S50000x128 .f32) (a1 : FVec F S20000x128 .f32) (a2 : FVec F S128x128 .f32) (a3 : FVec F S20000x1 .f32)
    (a4 a5 : FVec F S3x128x128 .f32) (a6 a7 a8 a9 : FVec F S70000x1 .f32) (a10 a11 : IVec S2x1000000 32)
    (a12 a13 : IVec S8192 32)
    (h : fn (F := F) a0 a1 a2 a3 a4 a5 a6 a7 a8 a9 a10 a11 a12 a13 = fun _ => 1#1) :
    ∀ j : S8192.Idx, 0 ≤ (a13 j).toInt ∧ (a13 j).toInt < 20000 :=
  (ranges a0 a1 a2 a3 a4 a5 a6 a7 a8 a9 a10 a11 a12 a13 h).2

/-- Unsigned form, as an index map reads the word: every entry of the first table is below 50000. -/
theorem sid_toNat_lt
    (a0 : FVec F S50000x128 .f32) (a1 : FVec F S20000x128 .f32) (a2 : FVec F S128x128 .f32) (a3 : FVec F S20000x1 .f32)
    (a4 a5 : FVec F S3x128x128 .f32) (a6 a7 a8 a9 : FVec F S70000x1 .f32) (a10 a11 : IVec S2x1000000 32)
    (a12 a13 : IVec S8192 32)
    (h : fn (F := F) a0 a1 a2 a3 a4 a5 a6 a7 a8 a9 a10 a11 a12 a13 = fun _ => 1#1) :
    ∀ j : S8192.Idx, (a12 j).toNat < 50000 := fun j =>
  toNat_lt_of_toInt _ 50000 (sid_range a0 a1 a2 a3 a4 a5 a6 a7 a8 a9 a10 a11 a12 a13 h j).1
    (sid_range a0 a1 a2 a3 a4 a5 a6 a7 a8 a9 a10 a11 a12 a13 h j).2

/-- Unsigned form: every entry of the second table is below 20000. -/
theorem eid_toNat_lt
    (a0 : FVec F S50000x128 .f32) (a1 : FVec F S20000x128 .f32) (a2 : FVec F S128x128 .f32) (a3 : FVec F S20000x1 .f32)
    (a4 a5 : FVec F S3x128x128 .f32) (a6 a7 a8 a9 : FVec F S70000x1 .f32) (a10 a11 : IVec S2x1000000 32)
    (a12 a13 : IVec S8192 32)
    (h : fn (F := F) a0 a1 a2 a3 a4 a5 a6 a7 a8 a9 a10 a11 a12 a13 = fun _ => 1#1) :
    ∀ j : S8192.Idx, (a13 j).toNat < 20000 := fun j =>
  toNat_lt_of_toInt _ 20000 (eid_range a0 a1 a2 a3 a4 a5 a6 a7 a8 a9 a10 a11 a12 a13 h j).1
    (eid_range a0 a1 a2 a3 a4 a5 a6 a7 a8 a9 a10 a11 a12 a13 h j).2

end Cert.PreIdx
-- ==== Proof.KI.FrameKI.lean ====
/-
  The frame of the idealized kernel program from its run: the student and exercise ids lie in range under the
  precondition, so every table-indexed block lies inside its array; the run then ends with every argument array at its
  launch contents.
-/
import proofs.«180269_j89635967468180_1_alg».proof.Defs
import proofs.«180269_j89635967468180_1_alg».proof.Proof.KI.Run
import proofs.«180269_j89635967468180_1_alg».proof.Proof.KI.Ok6
import proofs.«180269_j89635967468180_1_alg».proof.Proof.KI.PreIdx

set_option maxRecDepth 16384

noncomputable section

namespace Cert.KernelIdeal.Gen

open Idealize.ShloMosaic Idealize.ShloMosaic.TcCoe Idealize.SL.Sem

/-- Under the precondition the ids are in range, hence the tables' side condition. -/
theorem ok_of_pre (m : (ℓ : Loc nD τ sig) → Buf (Elt Ideal) ℓ) (h : Cert.Pre_KernelIdeal m) : Ok m :=
  Cert.KernelIdeal.Ok6.ok6_of_range (tbl m)
    (fun j => Cert.PreIdx.sid_toNat_lt _ _ _ _ _ _ _ _ _ _ _ _ _ _ (h 0) j)
    (fun j => Cert.PreIdx.eid_toNat_lt _ _ _ _ _ _ _ _ _ _ _ _ _ _ (h 0) j)

theorem frame_of_pre : Cert.frame_KernelIdeal := fun m ρ hpre =>
  (θ_run defs _ _).mono (fun r h c => ⟨(h c _ (mem_uc main_arg0 (by decide))).trans (W15_main_arg0 m ρ (ok_of_pre m hpre) c),
    (h c _ (mem_uc main_arg1 (by decide))).trans (W15_main_arg1 m ρ (ok_of_pre m hpre) c),
    (h c _ (mem_uc main_arg2 (by decide))).trans (W15_main_arg2 m ρ (ok_of_pre m hpre) c),
    (h c _ (mem_uc main_arg3 (by decide))).trans (W15_main_arg3 m ρ (ok_of_pre m hpre) c),
    (h c _ (mem_uc main_arg4 (by decide))).trans (W15_main_arg4 m ρ (ok_of_pre m hpre) c),
    (h c _ (mem_uc main_arg5 (by decide))).trans (W15_main_arg5 m ρ (ok_of_pre m hpre) c),
    (h c _ (mem_uc main_arg6 (by decide))).trans (W15_main_arg6 m ρ (ok_of_pre m hpre) c),
    (h c _ (mem_uc main_arg7 (by decide))).trans (W15_main_arg7 m ρ (ok_of_pre m hpre) c),
    (h c _ (mem_uc main_arg8 (by decide))).trans (W15_main_arg8 m ρ (ok_of_pre m hpre) c),
    (h c _ (mem_uc main_arg9 (by decide))).trans (W15_main_arg9 m ρ (ok_of_pre m hpre) c),
    (h c _ (mem_uc main_arg10 (by decide))).trans (W15_main_arg10 m ρ (ok_of_pre m hpre) c),
    (h c _ (mem_uc main_arg11 (by decide))).trans (W15_main_arg11 m ρ (ok_of_pre m hpre) c),
    (h c _ (mem_uc main_arg12 (by decide))).trans (W15_main_arg12 m ρ (ok_of_pre m hpre) c),
    (h c _ (mem_uc main_arg13 (by decide))).trans (W15_main_arg13 m ρ (ok_of_pre m hpre) c)⟩)
    (run m ρ (ok_of_pre m hpre))

end Cert.KernelIdeal.Gen

end
-- ==== Proof.K.Proj0.lean ====
/- The class-A half of region 0 (`cc0__project_kernel`, pipeline 0) of the program's @main, at a parameter `V` — the
   TensorCore's buffer contents when the region is entered: each window's block at a point (`iblk0`), the output
   window's buffer after the body as a function of the three input blocks (`out0_3`), the body's triple
   (`sound_kernel0`), the pipeline's proof data (`dat0`) and the body obligation (`body_obligation0`). Generic in
   the float model `F`. -/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the feature rows' block, index `(i, 0)`) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, block index `(0, 0)` at every point, so fetched at the first point only) holds
    its block at every point all the same: unfetched, the index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the per-row scale's block, index `(i, 0)`) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each through the whole block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

/-- The store's rectangle is the whole buffer, so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out0_3 x0 x1 x2`. The grid
    coordinate `i` is not read. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen
-- ==== Proof.K.Proj1.lean ====
/- The class-A half of region 1 (`cc1__project_kernel`, pipeline 1) of the program's @main, at a parameter `V` — the
   TensorCore's buffer contents when the region is entered: each window's block at a point (`iblk1`), the output
   window's buffer after the body as a function of the three input blocks (`out1_3`), the body's triple
   (`sound_kernel1`), the pipeline's proof data (`dat1`) and the body obligation (`body_obligation1`). Generic in
   the float model `F`. -/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the feature rows' block, index `(i, 0)`) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, block index `(0, 0)` at every point, so fetched at the first point only) holds
    its block at every point all the same: unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the per-row scale's block, index `(i, 0)`) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each through the whole block -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out1_3 (x0 : Vec F S5000x128 .f32) (x1 : Vec F S128x128 .f32) (x2 : Vec F S5000x1 .f32) : Vec F S5000x128 .f32 :=
  View.canon [⟨r1_0, k1_pay1 (View.ld x0 r1_0) (View.ld x1 r1_1) (View.ld x2 r1_2)⟩]

/-- The store's rectangle is the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out1_3 x0 x1 x2`. The grid
    coordinate `i` is not read. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__project_kernel i arg1 harg1 arg2 harg2 arg3 harg3 arg4 harg4) K := by
  simp only [cc1__project_kernel_eq_skeleton]; unfold cc1__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen
-- ==== Proof.K.Proj2.lean ====
/- The class-A half of region 2 (`cc2__project_kernel`, pipeline 2) of the program's @main, at a parameter `V` — the
   TensorCore's buffer contents when the region is entered: each window's block at a point (`iblk2`), the output
   window's buffer after the body as a function of the three input blocks (`out2_3`), the body's triple
   (`sound_kernel2`), the pipeline's proof data (`dat2`) and the body obligation (`body_obligation2`). Generic in
   the float model `F`. -/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the feature rows' block, index `(i, 0)`) holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight matrix, block index `(0, 0)` at every point, so fetched at the first point only) holds
    its block at every point all the same: unfetched, the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the per-row scale's block, index `(i, 0)`) holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each through the whole block -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out2_3 (x0 : Vec F S5000x128 .f32) (x1 : Vec F S128x128 .f32) (x2 : Vec F S5000x1 .f32) : Vec F S5000x128 .f32 :=
  View.canon [⟨r2_0, k2_pay1 (View.ld x0 r2_0) (View.ld x1 r2_1) (View.ld x2 r2_2)⟩]

/-- The store's rectangle is the whole buffer, so it covers it. -/
theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out2_3 x0 x1 x2`. The grid
    coordinate `i` is not read. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__project_kernel i arg1 harg1 arg2 harg2 arg3 harg3 arg4 harg4) K := by
  simp only [cc2__project_kernel_eq_skeleton]; unfold cc2__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen
-- ==== Proof.K.Proj3.lean ====
/- The class-A half of region 3 (`cc3__project_kernel`, pipeline 3) of the program's @main, at a parameter `V` — the
   TensorCore's buffer contents when the region is entered: each window's block at a point (`iblk3`), the output
   window's buffer after the body as a function of the three input blocks (`out3_3`), the body's triple
   (`sound_kernel3`), the pipeline's proof data (`dat3`) and the body obligation (`body_obligation3`). Generic in
   the float model `F`. -/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the feature rows' block, index `(i, 0)`) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, block index `(0, 0)` at every point, so fetched at the first point only) holds
    its block at every point all the same: unfetched, the index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the per-row scale's block, index `(i, 0)`) holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each through the whole block -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out3_3 (x0 : Vec F S5000x128 .f32) (x1 : Vec F S128x128 .f32) (x2 : Vec F S5000x1 .f32) : Vec F S5000x128 .f32 :=
  View.canon [⟨r3_0, k3_pay1 (View.ld x0 r3_0) (View.ld x1 r3_1) (View.ld x2 r3_2)⟩]

/-- The store's rectangle is the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out3_3 x0 x1 x2`. The grid
    coordinate `i` is not read. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__project_kernel i arg1 harg1 arg2 harg2 arg3 harg3 arg4 harg4) K := by
  simp only [cc3__project_kernel_eq_skeleton]; unfold cc3__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Gen
-- ==== Proof.K.Proj4.lean ====
/- The class-A half of region 4 (`cc4__project_kernel`, pipeline 4) of the program's @main, at a parameter `V` — the
   TensorCore's buffer contents when the region is entered: each window's block at a point (`iblk4`), the output
   window's buffer after the body as a function of the three input blocks (`out4_3`), the body's triple
   (`sound_kernel4`), the pipeline's proof data (`dat4`) and the body obligation (`body_obligation4`). Generic in
   the float model `F`. -/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the feature rows' block, index `(i, 0)`) holds its block at every point, for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weight matrix, block index `(0, 0)` at every point, so fetched at the first point only) holds
    its block at every point all the same: unfetched, the index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the per-row scale's block, index `(i, 0)`) holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each through the whole block -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out4_3 (x0 : Vec F S5000x128 .f32) (x1 : Vec F S128x128 .f32) (x2 : Vec F S5000x1 .f32) : Vec F S5000x128 .f32 :=
  View.canon [⟨r4_0, k4_pay1 (View.ld x0 r4_0) (View.ld x1 r4_1) (View.ld x2 r4_2)⟩]

/-- The store's rectangle is the whole buffer, so it covers it. -/
theorem cover4_3 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out4_3 x0 x1 x2`. The grid
    coordinate `i` is not read. -/
theorem sound_kernel4 (c : Dev nD) (E : Set ℕ) (i : grid4.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__project_kernel i arg1 harg1 arg2 harg2 arg3 harg3 arg4 harg4) K := by
  simp only [cc4__project_kernel_eq_skeleton]; unfold cc4__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Gen
-- ==== Proof.K.Proj5.lean ====
/- The class-A half of region 5 (`cc5__project_kernel`, pipeline 5) of the program's @main, at a parameter `V` — the
   TensorCore's buffer contents when the region is entered: each window's block at a point (`iblk5`), the output
   window's buffer after the body as a function of the three input blocks (`out5_3`), the body's triple
   (`sound_kernel5`), the pipeline's proof data (`dat5`) and the body obligation (`body_obligation5`). Generic in
   the float model `F`. -/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the feature rows' block, index `(i, 0)`) holds its block at every point, for any proof data whose
    array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the weight matrix, block index `(0, 0)` at every point, so fetched at the first point only) holds
    its block at every point all the same: unfetched, the index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the per-row scale's block, index `(i, 0)`) holds its block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each through the whole block -/

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S5000x1 := Rect.unit (s := S5000x1) ![0, 0] S5000x1.size inb_S5000x1_S5000x1_0_0

/-! ## What the body leaves in the output window's buffer -/

/-- Window 3's staging buffer after the body, from the three input blocks: its one store, through the whole block,
    of the scaled product of the rounded operands. -/
def out5_3 (x0 : Vec F S5000x128 .f32) (x1 : Vec F S128x128 .f32) (x2 : Vec F S5000x1 .f32) : Vec F S5000x128 .f32 :=
  View.canon [⟨r5_0, k5_pay1 (View.ld x0 r5_0) (View.ld x1 r5_1) (View.ld x2 r5_2)⟩]

/-- The store's rectangle is the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out5_3 x0 x1 x2`. The grid
    coordinate `i` is not read. -/
theorem sound_kernel5 (c : Dev nD) (E : Set ℕ) (i : grid5.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__project_kernel i arg1 harg1 arg2 harg2 arg3 harg3 arg4 harg4) K := by
  simp only [cc5__project_kernel_eq_skeleton]; unfold cc5__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Gen
-- ==== Proof.K.Gath.lean ====
/-
  The row-gathering call (the seventh), at any float instance: one grid point per batch entry; the three input
  windows' block indices are read off two prefetched index tables (student ids into the 50000 student rows, exercise
  ids into the 20000 exercise rows and the 20000 discrimination rows), the three output windows' block index is the
  point itself. The body copies each input block to the matching output block. Stated here at a PARAMETER `V` (the
  buffers' contents when the call is entered) and a parameter `a` (admissible contents of the two tables): the
  blocks, what the body leaves, the body's triple, the proof data and the body obligation.
-/
import proofs.«180269_j89635967468180_1_alg».proof.Proof.Gen.Kernel.Launch
import proofs.«180269_j89635967468180_1_alg».proof.Proof.Gen.Kernel.Skeleton
import proofs.«180269_j89635967468180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))
variable (a : (pcfg6 (F := F)).Adm)

/-- Window `w`'s block at point `t`, read off its array as the call finds it; for the three inputs a function of
    the tables' words. -/
def iblk6 (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

theorem before6_0_of {c : Dev nD} (dat : Dat τ (Elt F) Unit ℕ (UR sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ (cfg6 a) c) (hA : dat.A 1 = V c (Pipeline.arrRef spec6 1))
    (hafter : ∀ t, dat.after 1 t = iblk6 V a c 1 t) (t : Fin (cfg6 a).N) (d) : dat.before 1 t d = iblk6 V a c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ (cfg6 a) c) (hA : dat.A 2 = V c (Pipeline.arrRef spec6 2))
    (hafter : ∀ t, dat.after 2 t = iblk6 V a c 2 t) (t : Fin (cfg6 a).N) (d) : dat.before 2 t d = iblk6 V a c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_0 : Rect S1x1x128 := Rect.unit (s := S1x1x128) ![0, 0, 0] S1x1x128.size inb_S1x1x128_S1x1x128_0_0_0
abbrev r6_1 : Rect S1x1x1 := Rect.unit (s := S1x1x1) ![0, 0, 0] S1x1x1.size inb_S1x1x1_S1x1x1_0_0_0

/-- What the body leaves in each output's staging buffer: the matching input block, copied. -/
def out6_3 (x0 : Vec F S1x1x128 .f32) : Vec F S1x1x128 .f32 := View.canon [⟨r6_0, k6_pay1 (View.ld x0 r6_0)⟩]
def out6_4 (x1 : Vec F S1x1x128 .f32) : Vec F S1x1x128 .f32 := View.canon [⟨r6_0, k6_pay2 (View.ld x1 r6_0)⟩]
def out6_5 (x2 : Vec F S1x1x1 .f32) : Vec F S1x1x1 .f32 := View.canon [⟨r6_1, k6_pay3 (View.ld x2 r6_1)⟩]

theorem cover6_a (p0 : Vec F S1x1x128 .f32) (y : S1x1x128.Idx) :
    ∃ pc ∈ ([⟨r6_0, p0⟩] : List (View.Piece (Elt F) S1x1x128 .f32)), y ∈ pc.1.set :=
  View.cover_of_tiled [⟨r6_0, p0⟩] S1x1x128.size (by rfl) y
theorem cover6_b (p0 : Vec F S1x1x1 .f32) (y : S1x1x1.Idx) :
    ∃ pc ∈ ([⟨r6_1, p0⟩] : List (View.Piece (Elt F) S1x1x1 .f32)), y ∈ pc.1.set :=
  View.cover_of_tiled [⟨r6_1, p0⟩] S1x1x1.size (by rfl) y

set_option maxHeartbeats 1000000 in
/-- The body on whole staging memrefs: the inputs stay, each output ends at the copy of its input. The two table
    memrefs are handed to the body and never read. -/
theorem sound_kernel6 (c : Dev nD) (E : Set ℕ) (i : grid6.Coords)
    (arg1 : Memref sig .tc .smem S8192 .i32) (harg1 : arg1.IsWhole) (arg2 : Memref sig .tc .smem S8192 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x1 .f32) (harg5 : arg5.IsWhole) (arg6 : Memref sig .tc .vmem S1x1x128 .f32) (harg6 : arg6.IsWhole)
    (arg7 : Memref sig .tc .vmem S1x1x128 .f32) (harg7 : arg7.IsWhole) (arg8 : Memref sig .tc .vmem S1x1x1 .f32) (harg8 : arg8.IsWhole)
    (x0 : Vec F S1x1x128 .f32) (x1 : Vec F S1x1x128 .f32) (x2 : Vec F S1x1x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out6_3 x0) ∗ owns (c : Thread nD τ) arg7 fullShare (out6_4 x1) ∗ owns (c : Thread nD τ) arg8 fullShare (out6_5 x2)) -∗ K ⟨⟩))
      ⊢ wp frame (wpE (defs₀ (F := F)) Variants.none c none) E (cc6__gather_kernel i arg1 harg1 arg2 harg2 arg3 harg3 arg4 harg4 arg5 harg5 arg6 harg6 arg7 harg7 arg8 harg8) K := by
  simp only [cc6__gather_kernel_eq_skeleton]; unfold cc6__gather_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_a _)
  isplitl [H4]
  · iexists _; isplitr
    swap; · iexact H4
    ipureintro
    exact View.read_writes_eq_canon _ _ _ (cover6_a _)
  iexists _; isplitr
  swap; · iexact H5
  ipureintro
  exact View.read_writes_eq_canon _ _ _ (cover6_b _)

/-! ## The proof data -/

/-- The call's proof data on core `c`: the arrays as the call finds them; after the body at point `t` each input's
    buffer at its block and each output's at the copy of the matching input block; the invariant: the scoped rest, the
    generator register, and the two tables held whole at the admissible contents; nothing owed; full shares. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => iblk6 V a c 2 t
    | ⟨3, _⟩ => out6_3 (iblk6 V a c 0 t)
    | ⟨4, _⟩ => out6_4 (iblk6 V a c 1 t)
    | ⟨5, _⟩ => out6_5 (iblk6 V a c 2 t)
  Φ _ := iprop(Pipeline.ΦA spec6 c ∗ Pipeline.prefHeld (Ix := Unit) (Name := ℕ) (U := UR sig nD τ) (Lvl := ℕ) pre6 c (fun _ => fullShare) a.1)
  q _ := fullShare
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = iblk6 V a c 1 t := by dsimp only [dat6]; try rfl
theorem after6_2 (c : Dev nD) (t : Fin (cfg6 a).N) : (dat6 V a c).after 2 t = iblk6 V a c 2 t := by dsimp only [dat6]; try rfl
theorem after6_3 (c : Dev nD) (t : Fin (cfg6 a).N) : (dat6 V a c).after 3 t = out6_3 (iblk6 V a c 0 t) := by dsimp only [dat6]; try rfl
theorem after6_4 (c : Dev nD) (t : Fin (cfg6 a).N) : (dat6 V a c).after 4 t = out6_4 (iblk6 V a c 1 t) := by dsimp only [dat6]; try rfl
theorem after6_5 (c : Dev nD) (t : Fin (cfg6 a).N) : (dat6 V a c).after 5 t = out6_5 (iblk6 V a c 2 t) := by dsimp only [dat6]; try rfl

theorem before6_0 (c : Dev nD) (t : Fin (cfg6 a).N) (d) : (dat6 V a c).before 0 t d = iblk6 V a c 0 t :=
  before6_0_of V a (dat6 V a c) (A_eq6 V a c 0) (after6_0 V a c) t d
theorem before6_1 (c : Dev nD) (t : Fin (cfg6 a).N) (d) : (dat6 V a c).before 1 t d = iblk6 V a c 1 t :=
  before6_1_of V a (dat6 V a c) (A_eq6 V a c 1) (after6_1 V a c) t d
theorem before6_2 (c : Dev nD) (t : Fin (cfg6 a).N) (d) : (dat6 V a c).before 2 t d = iblk6 V a c 2 t :=
  before6_2_of V a (dat6 V a c) (A_eq6 V a c 2) (after6_2 V a c) t d

/-! ## The body obligation, at a generic point -/

/-- The current staging memref of each window at point `t`. -/
abbrev st6_0 (t : Fin (cfg6 a).N) := spec6_0.stage ((cfg6 a).slots t 0)
abbrev st6_1 (t : Fin (cfg6 a).N) := spec6_1.stage ((cfg6 a).slots t 1)
abbrev st6_2 (t : Fin (cfg6 a).N) := spec6_2.stage ((cfg6 a).slots t 2)
abbrev st6_3 (t : Fin (cfg6 a).N) := spec6_3.stage ((cfg6 a).slots t 3)
abbrev st6_4 (t : Fin (cfg6 a).N) := spec6_4.stage ((cfg6 a).slots t 4)
abbrev st6_5 (t : Fin (cfg6 a).N) := spec6_5.stage ((cfg6 a).slots t 5)

/-- The body at point `t`, on what the call hands it: the point's coordinates, the two tables' whole buffers, the
    six current staging memrefs. -/
abbrev bodyAt6 (t : Fin (cfg6 a).N) : Prog (TpuEff nD τ sig (Elt F) Λ₀ .tc) PUnit :=
  cc6__gather_kernel (grid6.coords t) (Memref.whole main_arg12) (Memref.isWhole_whole _) (Memref.whole main_arg13) (Memref.isWhole_whole _)
    (spec6_0.stage ((cfg6 a).slots t 0)) (hstage6_0 (((cfg6 a).slots t 0).cast nbuf6_0)) (spec6_1.stage ((cfg6 a).slots t 1)) (hstage6_1 (((cfg6 a).slots t 1).cast nbuf6_1))
    (spec6_2.stage ((cfg6 a).slots t 2)) (hstage6_2 (((cfg6 a).slots t 2).cast nbuf6_2)) (spec6_3.stage ((cfg6 a).slots t 3)) (hstage6_3 (((cfg6 a).slots t 3).cast nbuf6_3))
    (spec6_4.stage ((cfg6 a).slots t 4)) (hstage6_4 (((cfg6 a).slots t 4).cast nbuf6_4)) (spec6_5.stage ((cfg6 a).slots t 5)) (hstage6_5 (((cfg6 a).slots t 5).cast nbuf6_5))

def bodyPre6 (c : Dev nD) (t : Fin (cfg6 a).N) : sProp 𝕄 :=
  iprop((dat6 V a c).Φ t.castSucc ∗ (dat6 V a c).owesAt () t.castSucc
    ∗ (∃ d, owns (c : Thread nD τ) (st6_0 a t) fullShare ((dat6 V a c).before 0 t d))
    ∗ (∃ d, owns (c : Thread nD τ) (st6_1 a t) fullShare ((dat6 V a c).before 1 t d))
    ∗ (∃ d, owns (c : Thread nD τ) (st6_2 a t) fullShare ((dat6 V a c).before 2 t d))
    ∗ (∃ d, owns (c : Thread nD τ) (st6_3 a t) fullShare ((dat6 V a c).before 3 t d))
    ∗ (∃ d, owns (c : Thread nD τ) (st6_4 a t) fullShare ((dat6 V a c).before 4 t d))
    ∗ (∃ d, owns (c : Thread nD τ) (st6_5 a t) fullShare ((dat6 V a c).before 5 t d)))

def bodyPost6 (c : Dev nD) (t : Fin (cfg6 a).N) : sProp 𝕄 :=
  iprop((dat6 V a c).Φ t.succ ∗ (dat6 V a c).owesAt () t.succ
    ∗ owns (c : Thread nD τ) (st6_0 a t) fullShare ((dat6 V a c).after 0 t)
    ∗ owns (c : Thread nD τ) (st6_1 a t) fullShare ((dat6 V a c).after 1 t)
    ∗ owns (c : Thread nD τ) (st6_2 a t) fullShare ((dat6 V a c).after 2 t)
    ∗ owns (c : Thread nD τ) (st6_3 a t) fullShare ((dat6 V a c).after 3 t)
    ∗ owns (c : Thread nD τ) (st6_4 a t) fullShare ((dat6 V a c).after 4 t)
    ∗ owns (c : Thread nD τ) (st6_5 a t) fullShare ((dat6 V a c).after 5 t))

theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0, before6_1, before6_2]
  rw [show (dat6 V a c).Φ t.succ = (dat6 V a c).Φ t.castSucc from rfl,
    show (dat6 V a c).owesAt () t.succ = (dat6 V a c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ _ _ _ _ (iblk6 V a c 0 t) (iblk6 V a c 1 t) (iblk6 V a c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V a c) (defs₀ (F := F)) Variants.none () Set.univ := fun t => by
  rw [bigSep_W6, bigSep_W6]
  exact sound_body6 V a c t

end Region6

end Cert.Kernel.Gen

end
-- ==== Proof.K.Fold.lean ====
/-
  The buffers' contents at every boundary of the program, folded from the launch memory: a stretch of host operations
  applies them in order; a pallas_call leaves its windows' arrays at what its write-backs leave and every other buffer
  as it found it. The two prefetched tables are the student-id and exercise-id arguments themselves.
-/
import proofs.«180269_j89635967468180_1_alg».proof.Proof.K.Proj0
import proofs.«180269_j89635967468180_1_alg».proof.Proof.K.Proj1
import proofs.«180269_j89635967468180_1_alg».proof.Proof.K.Proj2
import proofs.«180269_j89635967468180_1_alg».proof.Proof.K.Proj3
import proofs.«180269_j89635967468180_1_alg».proof.Proof.K.Proj4
import proofs.«180269_j89635967468180_1_alg».proof.Proof.K.Proj5
import proofs.«180269_j89635967468180_1_alg».proof.Proof.K.Gath
import proofs.«180269_j89635967468180_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The prefetched tables, read off the launch memory -/

/-- The two tables' contents: the student-id and exercise-id arguments as launched (one device). -/
def tbl : pre6.Contents (Elt F) := fun j => m (((0 : Dev nD) : Thread nD τ).loc (pre6.ref j))
/-- The side condition of the tables' contents: every table-indexed block lies inside its array. -/
abbrev Ok : Prop := ok6 (F := F) (tbl m)
/-- The tables' contents as admissible contents. -/
abbrev adm6 (hO : Ok m) : (pcfg6 (F := F)).Adm := ⟨tbl m, hO⟩

/-! ## The fold -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After projection call 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- After projection call 1: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- After projection call 2: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b

/-- After projection call 3: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
abbrev W9 : Dev nD → Valuation τ sig (Elt F) := fun c => StableHlo.after hostOps4 (W8 m ρ c)
abbrev U9 : (c : Dev nD) → (b : Ref sig .tc) → Buf (Elt F) ((c : Thread nD τ).loc b) := fun c b => W9 m ρ c b

/-- After projection call 4: its arrays at what the pipeline leaves, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 (launch4 (F := F)).win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)
abbrev W11 : Dev nD → Valuation τ sig (Elt F) := fun c => StableHlo.after hostOps5 (W10 m ρ c)
abbrev U11 : (c : Dev nD) → (b : Ref sig .tc) → Buf (Elt F) ((c : Thread nD τ).loc b) := fun c b => W11 m ρ c b

/-- After projection call 5: its arrays at what the pipeline leaves, every other buffer as entered. -/
def W12 (c : Dev nD) : Valuation τ sig (Elt F) :=
  Pipeline.withArrays spec5 c (W11 m ρ c) fun w => (dat5 (U11 m ρ) c).arrAt w cfg5.N
theorem W12_arr (c : Dev nD) (w : Fin cfg5.W) :
    W12 m ρ c (Proc.devRef .tc (Pipeline.arrRef spec5 w)) = (dat5 (U11 m ρ) c).arrAt w cfg5.N := by
  unfold W12; exact Pipeline.withArrays_arr spec5 (launch5 (F := F)).win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev U12 : (c : Dev nD) → (b : Ref sig .tc) → Buf (Elt F) ((c : Thread nD τ).loc b) := fun c b => W12 m ρ c b
theorem hF5 (c : Dev nD) (w : Fin cfg5.W) : (dat5 (U11 m ρ) c).arrAt w cfg5.N = U12 m ρ c (Pipeline.arrRef spec5 w) :=
  (W12_arr m ρ c w).symm
theorem hrest5 (c : Dev nD) : ∀ b, b ∉ Finset.univ.image (Pipeline.arrRef spec5) → U12 m ρ c b = U11 m ρ c b :=
  fun b hb => W12_of_ne m ρ c b fun w e => hb (Finset.mem_image.mpr ⟨w, Finset.mem_univ _, e⟩)
abbrev W13 : Dev nD → Valuation τ sig (Elt F) := fun c => StableHlo.after hostOps6 (W12 m ρ c)
abbrev U13 : (c : Dev nD) → (b : Ref sig .tc) → Buf (Elt F) ((c : Thread nD τ).loc b) := fun c b => W13 m ρ c b

/-- After the gathering call, at admissible tables. -/
def W14 (hO : Ok m) (c : Dev nD) : Valuation τ sig (Elt F) :=
  Pipeline.withArrays spec6 c (W13 m ρ c) fun w => (dat6 (U13 m ρ) (adm6 m hO) c).arrAt w (cfg6 (adm6 m hO)).N
theorem W14_arr (hO : Ok m) (c : Dev nD) (w : Fin (cfg6 (adm6 m hO)).W) :
    W14 m ρ hO c (Proc.devRef .tc (Pipeline.arrRef spec6 w)) = (dat6 (U13 m ρ) (adm6 m hO) c).arrAt w (cfg6 (adm6 m hO)).N := by
  unfold W14; exact Pipeline.withArrays_arr spec6 (launch6 (F := F)).win.arr_inj c _ _ w
theorem W14_of_ne (hO : Ok m) (c : Dev nD) (b : Ref sig .tc) (hb : ∀ w, Pipeline.arrRef spec6 w ≠ b) :
    W14 m ρ hO c (Proc.devRef .tc b) = W13 m ρ c (Proc.devRef .tc b) := by
  unfold W14; exact Pipeline.withArrays_of_ne spec6 c _ _ b hb
abbrev U14 (hO : Ok m) : (c : Dev nD) → (b : Ref sig .tc) → Buf (Elt F) ((c : Thread nD τ).loc b) := fun c b => W14 m ρ hO c b
theorem hF6 (hO : Ok m) (c : Dev nD) (w : Fin (cfg6 (adm6 m hO)).W) :
    (dat6 (U13 m ρ) (adm6 m hO) c).arrAt w (cfg6 (adm6 m hO)).N = U14 m ρ hO c (Pipeline.arrRef spec6 w) :=
  (W14_arr m ρ hO c w).symm
theorem hrest6 (hO : Ok m) (c : Dev nD) : ∀ b, b ∉ Finset.univ.image (Pipeline.arrRef spec6) → U14 m ρ hO c b = U13 m ρ c b :=
  fun b hb => W14_of_ne m ρ hO c b fun w e => hb (Finset.mem_image.mpr ⟨w, Finset.mem_univ _, e⟩)
abbrev W15 (hO : Ok m) : Dev nD → Valuation τ sig (Elt F) := fun c => StableHlo.after hostOps7 (W14 m ρ hO c)

end Cert.Kernel.Gen

end
-- ==== Proof.K.Keep.lean ====
/-
  What every boundary keeps: a stretch of host operations changes only the buffers it writes; a pallas_call changes only
  its output windows' arrays (an input window's array ends as entered). Hence every argument array, and both index
  tables, hold their launch contents at every boundary.
-/
import proofs.«180269_j89635967468180_1_alg».proof.Proof.K.Fold

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step back through each boundary -/

theorem W1_of (c : Dev nD) (r : Ref sig .tc) (h : r ∉ hostOps0_W) : W1 m ρ c r = W0 m ρ c r :=
  StableHlo.after_of_writes_sub hostOps0 _ hostOps0_writes h
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
theorem W3_of (c : Dev nD) (r : Ref sig .tc) (h : r ∉ hostOps1_W) : W3 m ρ c r = W2 m ρ c r :=
  StableHlo.after_of_writes_sub hostOps1 _ hostOps1_writes h
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
theorem W5_of (c : Dev nD) (r : Ref sig .tc) (h : r ∉ hostOps2_W) : W5 m ρ c r = W4 m ρ c r :=
  StableHlo.after_of_writes_sub hostOps2 _ hostOps2_writes h
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))
theorem W7_of (c : Dev nD) (r : Ref sig .tc) (h : r ∉ hostOps3_W) : W7 m ρ c r = W6 m ρ c r :=
  StableHlo.after_of_writes_sub hostOps3 _ hostOps3_writes h
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (U7 m ρ) c).arrAt_in w hw _).trans (A_eq3 (U7 m ρ) c w))
theorem W9_of (c : Dev nD) (r : Ref sig .tc) (h : r ∉ hostOps4_W) : W9 m ρ c r = W8 m ρ c r :=
  StableHlo.after_of_writes_sub hostOps4 _ hostOps4_writes h
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (U9 m ρ) c).arrAt_in w hw _).trans (A_eq4 (U9 m ρ) c w))
theorem W11_of (c : Dev nD) (r : Ref sig .tc) (h : r ∉ hostOps5_W) : W11 m ρ c r = W10 m ρ c r :=
  StableHlo.after_of_writes_sub hostOps5 _ hostOps5_writes h
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (U11 m ρ) c).arrAt_in w hw _).trans (A_eq5 (U11 m ρ) c w))
theorem W13_of (c : Dev nD) (r : Ref sig .tc) (h : r ∉ hostOps6_W) : W13 m ρ c r = W12 m ρ c r :=
  StableHlo.after_of_writes_sub hostOps6 _ hostOps6_writes h
theorem W14_in (hO : Ok m) (c : Dev nD) (w : Fin (cfg6 (adm6 m hO)).W) (hw : ((cfg6 (adm6 m hO)).win w).isOut = false) :
    W14 m ρ hO c (Proc.devRef .tc (Pipeline.arrRef spec6 w)) = W13 m ρ c (Proc.devRef .tc (Pipeline.arrRef spec6 w)) :=
  (W14_arr m ρ hO c w).trans (((dat6 (U13 m ρ) (adm6 m hO) c).arrAt_in w hw _).trans (A_eq6 (U13 m ρ) (adm6 m hO) c w))
theorem W15_of (hO : Ok m) (c : Dev nD) (r : Ref sig .tc) (h : r ∉ hostOps7_W) : W15 m ρ hO c r = W14 m ρ hO c r :=
  StableHlo.after_of_writes_sub hostOps7 _ hostOps7_writes h

/-! ## The arguments at every boundary -/
theorem W13_main_arg0 (c : Dev nD) : W13 m ρ c (Proc.devRef .tc main_arg0) = m ((c : Thread nD τ).loc main_arg0) :=
  (W13_of m ρ c main_arg0 (by decide)).trans <| (W12_of_ne m ρ c main_arg0 (by decide)).trans <| (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
theorem W15_main_arg0 (hO : Ok m) (c : Dev nD) : W15 m ρ hO c (Proc.devRef .tc main_arg0) = m ((c : Thread nD τ).loc main_arg0) :=
  (W15_of m ρ hO c main_arg0 (by decide)).trans <| (W14_of_ne m ρ hO c main_arg0 (by decide)).trans <| W13_main_arg0 m ρ c
theorem W13_main_arg1 (c : Dev nD) : W13 m ρ c (Proc.devRef .tc main_arg1) = m ((c : Thread nD τ).loc main_arg1) :=
  (W13_of m ρ c main_arg1 (by decide)).trans <| (W12_of_ne m ρ c main_arg1 (by decide)).trans <| (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W15_main_arg1 (hO : Ok m) (c : Dev nD) : W15 m ρ hO c (Proc.devRef .tc main_arg1) = m ((c : Thread nD τ).loc main_arg1) :=
  (W15_of m ρ hO c main_arg1 (by decide)).trans <| (W14_of_ne m ρ hO c main_arg1 (by decide)).trans <| W13_main_arg1 m ρ c
theorem W13_main_arg2 (c : Dev nD) : W13 m ρ c (Proc.devRef .tc main_arg2) = m ((c : Thread nD τ).loc main_arg2) :=
  (W13_of m ρ c main_arg2 (by decide)).trans <| (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W15_main_arg2 (hO : Ok m) (c : Dev nD) : W15 m ρ hO c (Proc.devRef .tc main_arg2) = m ((c : Thread nD τ).loc main_arg2) :=
  (W15_of m ρ hO c main_arg2 (by decide)).trans <| (W14_of_ne m ρ hO c main_arg2 (by decide)).trans <| W13_main_arg2 m ρ c
theorem W13_main_arg3 (c : Dev nD) : W13 m ρ c (Proc.devRef .tc main_arg3) = m ((c : Thread nD τ).loc main_arg3) :=
  (W13_of m ρ c main_arg3 (by decide)).trans <| (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
theorem W15_main_arg3 (hO : Ok m) (c : Dev nD) : W15 m ρ hO c (Proc.devRef .tc main_arg3) = m ((c : Thread nD τ).loc main_arg3) :=
  (W15_of m ρ hO c main_arg3 (by decide)).trans <| (W14_of_ne m ρ hO c main_arg3 (by decide)).trans <| W13_main_arg3 m ρ c
theorem W13_main_arg4 (c : Dev nD) : W13 m ρ c (Proc.devRef .tc main_arg4) = m ((c : Thread nD τ).loc main_arg4) :=
  (W13_of m ρ c main_arg4 (by decide)).trans <| (W12_of_ne m ρ c main_arg4 (by decide)).trans <| (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans rfl
theorem W15_main_arg4 (hO : Ok m) (c : Dev nD) : W15 m ρ hO c (Proc.devRef .tc main_arg4) = m ((c : Thread nD τ).loc main_arg4) :=
  (W15_of m ρ hO c main_arg4 (by decide)).trans <| (W14_of_ne m ρ hO c main_arg4 (by decide)).trans <| W13_main_arg4 m ρ c
theorem W13_main_arg5 (c : Dev nD) : W13 m ρ c (Proc.devRef .tc main_arg5) = m ((c : Thread nD τ).loc main_arg5) :=
  (W13_of m ρ c main_arg5 (by decide)).trans <| (W12_of_ne m ρ c main_arg5 (by decide)).trans <| (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W15_main_arg5 (hO : Ok m) (c : Dev nD) : W15 m ρ hO c (Proc.devRef .tc main_arg5) = m ((c : Thread nD τ).loc main_arg5) :=
  (W15_of m ρ hO c main_arg5 (by decide)).trans <| (W14_of_ne m ρ hO c main_arg5 (by decide)).trans <| W13_main_arg5 m ρ c
theorem W13_main_arg6 (c : Dev nD) : W13 m ρ c (Proc.devRef .tc main_arg6) = m ((c : Thread nD τ).loc main_arg6) :=
  (W13_of m ρ c main_arg6 (by decide)).trans <| (W12_of_ne m ρ c main_arg6 (by decide)).trans <| (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
theorem W15_main_arg6 (hO : Ok m) (c : Dev nD) : W15 m ρ hO c (Proc.devRef .tc main_arg6) = m ((c : Thread nD τ).loc main_arg6) :=
  (W15_of m ρ hO c main_arg6 (by decide)).trans <| (W14_of_ne m ρ hO c main_arg6 (by decide)).trans <| W13_main_arg6 m ρ c
theorem W13_main_arg7 (c : Dev nD) : W13 m ρ c (Proc.devRef .tc main_arg7) = m ((c : Thread nD τ).loc main_arg7) :=
  (W13_of m ρ c main_arg7 (by decide)).trans <| (W12_of_ne m ρ c main_arg7 (by decide)).trans <| (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_in m ρ c 2 rfl).trans <| (W5_of m ρ c main_arg7 (by decide)).trans <| (W4_in m ρ c 2 rfl).trans <| (W3_of m ρ c main_arg7 (by decide)).trans <| (W2_in m ρ c 2 rfl).trans <| (W1_of m ρ c main_arg7 (by decide)).trans rfl
theorem W15_main_arg7 (hO : Ok m) (c : Dev nD) : W15 m ρ hO c (Proc.devRef .tc main_arg7) = m ((c : Thread nD τ).loc main_arg7) :=
  (W15_of m ρ hO c main_arg7 (by decide)).trans <| (W14_of_ne m ρ hO c main_arg7 (by decide)).trans <| W13_main_arg7 m ρ c
theorem W13_main_arg8 (c : Dev nD) : W13 m ρ c (Proc.devRef .tc main_arg8) = m ((c : Thread nD τ).loc main_arg8) :=
  (W13_of m ρ c main_arg8 (by decide)).trans <| (W12_of_ne m ρ c main_arg8 (by decide)).trans <| (W11_of m ρ c main_arg8 (by decide)).trans <| (W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W15_main_arg8 (hO : Ok m) (c : Dev nD) : W15 m ρ hO c (Proc.devRef .tc main_arg8) = m ((c : Thread nD τ).loc main_arg8) :=
  (W15_of m ρ hO c main_arg8 (by decide)).trans <| (W14_of_ne m ρ hO c main_arg8 (by decide)).trans <| W13_main_arg8 m ρ c
theorem W13_main_arg9 (c : Dev nD) : W13 m ρ c (Proc.devRef .tc main_arg9) = m ((c : Thread nD τ).loc main_arg9) :=
  (W13_of m ρ c main_arg9 (by decide)).trans <| (W12_in m ρ c 2 rfl).trans <| (W11_of m ρ c main_arg9 (by decide)).trans <| (W10_in m ρ c 2 rfl).trans <| (W9_of m ρ c main_arg9 (by decide)).trans <| (W8_in m ρ c 2 rfl).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W15_main_arg9 (hO : Ok m) (c : Dev nD) : W15 m ρ hO c (Proc.devRef .tc main_arg9) = m ((c : Thread nD τ).loc main_arg9) :=
  (W15_of m ρ hO c main_arg9 (by decide)).trans <| (W14_of_ne m ρ hO c main_arg9 (by decide)).trans <| W13_main_arg9 m ρ c
theorem W13_main_arg10 (c : Dev nD) : W13 m ρ c (Proc.devRef .tc main_arg10) = m ((c : Thread nD τ).loc main_arg10) :=
  (W13_of m ρ c main_arg10 (by decide)).trans <| (W12_of_ne m ρ c main_arg10 (by decide)).trans <| (W11_of m ρ c main_arg10 (by decide)).trans <| (W10_of_ne m ρ c main_arg10 (by decide)).trans <| (W9_of m ρ c main_arg10 (by decide)).trans <| (W8_of_ne m ρ c main_arg10 (by decide)).trans <| (W7_of m ρ c main_arg10 (by decide)).trans <| (W6_of_ne m ρ c main_arg10 (by decide)).trans <| (W5_of m ρ c main_arg10 (by decide)).trans <| (W4_of_ne m ρ c main_arg10 (by decide)).trans <| (W3_of m ρ c main_arg10 (by decide)).trans <| (W2_of_ne m ρ c main_arg10 (by decide)).trans <| (W1_of m ρ c main_arg10 (by decide)).trans rfl
theorem W15_main_arg10 (hO : Ok m) (c : Dev nD) : W15 m ρ hO c (Proc.devRef .tc main_arg10) = m ((c : Thread nD τ).loc main_arg10) :=
  (W15_of m ρ hO c main_arg10 (by decide)).trans <| (W14_of_ne m ρ hO c main_arg10 (by decide)).trans <| W13_main_arg10 m ρ c
theorem W13_main_arg11 (c : Dev nD) : W13 m ρ c (Proc.devRef .tc main_arg11) = m ((c : Thread nD τ).loc main_arg11) :=
  (W13_of m ρ c main_arg11 (by decide)).trans <| (W12_of_ne m ρ c main_arg11 (by decide)).trans <| (W11_of m ρ c main_arg11 (by decide)).trans <| (W10_of_ne m ρ c main_arg11 (by decide)).trans <| (W9_of m ρ c main_arg11 (by decide)).trans <| (W8_of_ne m ρ c main_arg11 (by decide)).trans <| (W7_of m ρ c main_arg11 (by decide)).trans <| (W6_of_ne m ρ c main_arg11 (by decide)).trans <| (W5_of m ρ c main_arg11 (by decide)).trans <| (W4_of_ne m ρ c main_arg11 (by decide)).trans <| (W3_of m ρ c main_arg11 (by decide)).trans <| (W2_of_ne m ρ c main_arg11 (by decide)).trans <| (W1_of m ρ c main_arg11 (by decide)).trans rfl
theorem W15_main_arg11 (hO : Ok m) (c : Dev nD) : W15 m ρ hO c (Proc.devRef .tc main_arg11) = m ((c : Thread nD τ).loc main_arg11) :=
  (W15_of m ρ hO c main_arg11 (by decide)).trans <| (W14_of_ne m ρ hO c main_arg11 (by decide)).trans <| W13_main_arg11 m ρ c
theorem W13_main_arg12 (c : Dev nD) : W13 m ρ c (Proc.devRef .tc main_arg12) = m ((c : Thread nD τ).loc main_arg12) :=
  (W13_of m ρ c main_arg12 (by decide)).trans <| (W12_of_ne m ρ c main_arg12 (by decide)).trans <| (W11_of m ρ c main_arg12 (by decide)).trans <| (W10_of_ne m ρ c main_arg12 (by decide)).trans <| (W9_of m ρ c main_arg12 (by decide)).trans <| (W8_of_ne m ρ c main_arg12 (by decide)).trans <| (W7_of m ρ c main_arg12 (by decide)).trans <| (W6_of_ne m ρ c main_arg12 (by decide)).trans <| (W5_of m ρ c main_arg12 (by decide)).trans <| (W4_of_ne m ρ c main_arg12 (by decide)).trans <| (W3_of m ρ c main_arg12 (by decide)).trans <| (W2_of_ne m ρ c main_arg12 (by decide)).trans <| (W1_of m ρ c main_arg12 (by decide)).trans rfl
theorem W15_main_arg12 (hO : Ok m) (c : Dev nD) : W15 m ρ hO c (Proc.devRef .tc main_arg12) = m ((c : Thread nD τ).loc main_arg12) :=
  (W15_of m ρ hO c main_arg12 (by decide)).trans <| (W14_of_ne m ρ hO c main_arg12 (by decide)).trans <| W13_main_arg12 m ρ c
theorem W13_main_arg13 (c : Dev nD) : W13 m ρ c (Proc.devRef .tc main_arg13) = m ((c : Thread nD τ).loc main_arg13) :=
  (W13_of m ρ c main_arg13 (by decide)).trans <| (W12_of_ne m ρ c main_arg13 (by decide)).trans <| (W11_of m ρ c main_arg13 (by decide)).trans <| (W10_of_ne m ρ c main_arg13 (by decide)).trans <| (W9_of m ρ c main_arg13 (by decide)).trans <| (W8_of_ne m ρ c main_arg13 (by decide)).trans <| (W7_of m ρ c main_arg13 (by decide)).trans <| (W6_of_ne m ρ c main_arg13 (by decide)).trans <| (W5_of m ρ c main_arg13 (by decide)).trans <| (W4_of_ne m ρ c main_arg13 (by decide)).trans <| (W3_of m ρ c main_arg13 (by decide)).trans <| (W2_of_ne m ρ c main_arg13 (by decide)).trans <| (W1_of m ρ c main_arg13 (by decide)).trans rfl
theorem W15_main_arg13 (hO : Ok m) (c : Dev nD) : W15 m ρ hO c (Proc.devRef .tc main_arg13) = m ((c : Thread nD τ).loc main_arg13) :=
  (W15_of m ρ hO c main_arg13 (by decide)).trans <| (W14_of_ne m ρ hO c main_arg13 (by decide)).trans <| W13_main_arg13 m ρ c

/-- On every device the tables hold, when the gathering call is entered, their launch contents (there is one device). -/
theorem U13_pre (c : Dev nD) (j : Fin 2) : U13 m ρ c (pre6.ref j) = tbl m j := by
  obtain rfl : c = 0 := Subsingleton.elim _ _
  match j with
  | ⟨0, _⟩ => exact W13_main_arg12 m ρ 0
  | ⟨1, _⟩ => exact W13_main_arg13 m ρ 0

end Cert.Kernel.Gen

end
-- ==== Proof.K.Run.lean ====
/-
  The whole program's run at any float instance: the seven pallas_calls and the stretches of host operations between
  them as one chain of segments over the thread state "every unscoped buffer at the boundary's contents, the generator
  register at some state, nothing owed". Every weakly fair execution terminates, nothing faults, and every unscoped
  buffer ends at the last boundary's contents.
-/
import proofs.«180269_j89635967468180_1_alg».proof.Proof.K.Keep

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' admissible contents, call by call: only the gathering call has tables. -/
def adm (hO : Ok m) : (p : Fin 7) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => cfg4.toPCfg_adm
  | ⟨5, _⟩ => cfg5.toPCfg_adm
  | ⟨6, _⟩ => adm6 m hO
  | ⟨_ + 7, h⟩ => absurd h (Nat.not_lt.2 (Nat.le_add_left _ _))

/-- Every call's proof data, each at its entry contents. -/
def pdats (hO : Ok m) : (p : Fin 7) → (c : Dev nD) → Dat τ (Elt F) Unit ℕ (UR sig nD τ) ℕ (Pipeline.pin (pcfgs (F := F)) (adm m hO) p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
  | ⟨6, _⟩ => fun c => dat6 (U13 m ρ) (adm6 m hO) c
  | ⟨_ + 7, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Projection call 0 over the thread state: entered from every unscoped buffer at `W1`, left at `W2`. -/
def reg0 (hO : Ok m) : Pipeline.RegionSeg (pcfgs (F := F)) (adm m hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) (adm m hO) (pdats m ρ hO) (launch0 (F := F)).win (launch0 (F := F)).arr_whole c
      ((pdats m ρ hO 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m ρ hO) ((pdats m ρ hO 0 c).share_full fun _ => rfl)
      (U1 m ρ c) (U2 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 1 over the thread state: entered from every unscoped buffer at `W3`, left at `W4`. -/
def reg1 (hO : Ok m) : Pipeline.RegionSeg (pcfgs (F := F)) (adm m hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) (adm m hO) (pdats m ρ hO) (launch1 (F := F)).win (launch1 (F := F)).arr_whole c
      ((pdats m ρ hO 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m ρ hO) ((pdats m ρ hO 1 c).share_full fun _ => rfl)
      (U3 m ρ c) (U4 m ρ c) ((pdats m ρ hO 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 2 over the thread state: entered from every unscoped buffer at `W5`, left at `W6`. -/
def reg2 (hO : Ok m) : Pipeline.RegionSeg (pcfgs (F := F)) (adm m hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) (adm m hO) (pdats m ρ hO) (launch2 (F := F)).win (launch2 (F := F)).arr_whole c
      ((pdats m ρ hO 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hO 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hO) (Ix := Unit) (Name := ℕ) (U := UR sig nD τ) (Lvl := ℕ)
      (launch2 (F := F)).win (launch2 (F := F)).arr_whole c (pdats m ρ hO) ((pdats m ρ hO 2 c).share_full fun _ => rfl)
      (U5 m ρ c) (U6 m ρ c) ((pdats m ρ hO 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 3 over the thread state: entered from every unscoped buffer at `W7`, left at `W8`. -/
def reg3 (hO : Ok m) : Pipeline.RegionSeg (pcfgs (F := F)) (adm m hO) (pdats m ρ hO) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) (adm m hO) (pdats m ρ hO) (launch3 (F := F)).win (launch3 (F := F)).arr_whole c
      ((pdats m ρ hO 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ hO 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m hO) (Ix := Unit) (Name := ℕ) (U := UR sig nD τ) (Lvl := ℕ)
      (launch3 (F := F)).win (launch3 (F := F)).arr_whole c (pdats m ρ hO) ((pdats m ρ hO 3 c).share_full fun _ => rfl)
      (U7 m ρ c) (U8 m ρ c) ((pdats m ρ hO 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 4 over the thread state: entered from every unscoped buffer at `W9`, left at `W10`. -/
def reg4 (hO : Ok m) : Pipeline.RegionSeg (pcfgs (F := F)) (adm m hO) (pdats m ρ hO) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) (adm m hO) (pdats m ρ hO) (launch4 (F := F)).win (launch4 (F := F)).arr_whole c
      ((pdats m ρ hO 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ hO 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m hO) (Ix := Unit) (Name := ℕ) (U := UR sig nD τ) (Lvl := ℕ)
      (launch4 (F := F)).win (launch4 (F := F)).arr_whole c (pdats m ρ hO) ((pdats m ρ hO 4 c).share_full fun _ => rfl)
      (U9 m ρ c) (U10 m ρ c) ((pdats m ρ hO 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 5 over the thread state: entered from every unscoped buffer at `W11`, left at `W12`. -/
def reg5 (hO : Ok m) : Pipeline.RegionSeg (pcfgs (F := F)) (adm m hO) (pdats m ρ hO) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (U11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) (adm m hO) (pdats m ρ hO) (launch5 (F := F)).win (launch5 (F := F)).arr_whole c
      ((pdats m ρ hO 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ hO 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) (adm m hO) (Ix := Unit) (Name := ℕ) (U := UR sig nD τ) (Lvl := ℕ)
      (launch5 (F := F)).win (launch5 (F := F)).arr_whole c (pdats m ρ hO) ((pdats m ρ hO 5 c).share_full fun _ => rfl)
      (U11 m ρ c) (U12 m ρ c) ((pdats m ρ hO 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gathering call over the thread state: entered from every unscoped buffer at `W13`, left at `W14`. Its arrays and
    its two tables are split out of the unscoped buffers at entry (the tables hold their launch contents there) and put
    back at exit. -/
def reg6 (hO : Ok m) : Pipeline.RegionSeg (pcfgs (F := F)) (adm m hO) (pdats m ρ hO) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := (body_obligation6 (U13 m ρ) (adm6 m hO) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ hO c) ∗ R c)
  X c := iprop(∃ r, prngReg c r)
  Y c := iprop((∃ r, prngReg c r) ∗ Pipeline.prefHeld (Ix := Unit) (Name := ℕ) (U := UR sig nD τ) (Lvl := ℕ) pre6 c (fun _ => fullShare) (tbl m))
  Z c := Pipeline.unscopedRestP (Ix := Unit) (Name := ℕ) (U := UR sig nD τ) (Lvl := ℕ) pre6 spec6 c (U13 m ρ c)
  hentry c := by
    rw [Pipeline.ownSems0_none]
    have hT : (fun k => U13 m ρ c (pre6.ref k)) = tbl m := funext (U13_pre m ρ c)
    have hsplit := Pipeline.arrays_of_unscopedBufs (p := 6) (pcfgs (F := F)) (adm m hO) (pdats m ρ hO) (launch6 (F := F)).win (launch6 (F := F)).arr_whole c
      ((pdats m ρ hO 6 c).share_full fun _ => rfl) (U13 m ρ c) fun _ => rfl
    have hs : (Pipeline.unscopedRest (Ix := Unit) (Name := ℕ) (U := UR sig nD τ) (Lvl := ℕ) (Pipeline.pin (pcfgs (F := F)) (adm m hO) 6).spec c (U13 m ρ c) : sProp 𝕄)
        = iprop(Pipeline.prefHeld pre6 c (fun _ => fullShare) (tbl m) ∗ Pipeline.unscopedRestP pre6 spec6 c (U13 m ρ c)) :=
      (Pipeline.unscopedRest_split preFacts6 c (U13 m ρ c)).trans (by rw [hT])
    rw [Pipeline.unscopedBufs_held, hs] at hsplit
    show iprop(iprop(StableHlo.held (c : Thread nD τ) (Pipeline.ucRefs τ sig) (W13 m ρ c) ∗ R c) ∗ BI.emp ∗ levAts L lv)
      ⊢ |={Set.univ}=> iprop((pdats m ρ hO 6 c).arrays ((pdats m ρ hO 6 c).arrAt · 0) ∗ Pipeline.prefHeld pre6 c (fun _ => fullShare) (tbl m)
        ∗ (pdats m ρ hO 6 c).owesAt () 0 ∗ (∃ r, prngReg c r) ∗ Pipeline.unscopedRestP pre6 spec6 c (U13 m ρ c))
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 6 c).Φ 0 = iprop(Pipeline.ΦA spec6 c ∗ Pipeline.prefHeld (Ix := Unit) (Name := ℕ) (U := UR sig nD τ) (Lvl := ℕ) pre6 c (fun _ => fullShare) (tbl m)) from rfl]; unfold Pipeline.ΦA
    iintro ⟨Hp, HT, Hr⟩
    isplitl [Hr Hp]
    · isplitl [Hr]; · iexact Hr
      iexact Hp
    iexact HT
  hout c := by
    rw [Pipeline.ownSems0_none, show (pdats m ρ hO 6 c).Φ (Fin.last _) = iprop(Pipeline.ΦA spec6 c ∗ Pipeline.prefHeld (Ix := Unit) (Name := ℕ) (U := UR sig nD τ) (Lvl := ℕ) pre6 c (fun _ => fullShare) (tbl m)) from rfl]; unfold Pipeline.ΦA
    iintro ⟨⟨Hr, Hp⟩, HT⟩
    isplitl [Hp HT]
    · isplitl [Hp]; · iexact Hp
      iexact HT
    isplitr; · iempintro
    iexact Hr
  hexit c := by
    have hT : (fun k => U13 m ρ c (pre6.ref k)) = tbl m := funext (U13_pre m ρ c)
    have hjoin := Pipeline.unscopedBufs_of_arrays (p := 6) (pcfgs (F := F)) (adm m hO) (Ix := Unit) (Name := ℕ) (U := UR sig nD τ) (Lvl := ℕ)
      (launch6 (F := F)).win (launch6 (F := F)).arr_whole c (pdats m ρ hO) ((pdats m ρ hO 6 c).share_full fun _ => rfl)
      (U13 m ρ c) (U14 m ρ hO c) ((pdats m ρ hO 6 c).arrAt · (cfg6 (adm6 m hO)).N) (hF6 m ρ hO c) (hrest6 m ρ hO c)
    have hs : (Pipeline.unscopedRest (Ix := Unit) (Name := ℕ) (U := UR sig nD τ) (Lvl := ℕ) (Pipeline.pin (pcfgs (F := F)) (adm m hO) 6).spec c (U13 m ρ c) : sProp 𝕄)
        = iprop(Pipeline.prefHeld pre6 c (fun _ => fullShare) (tbl m) ∗ Pipeline.unscopedRestP pre6 spec6 c (U13 m ρ c)) :=
      (Pipeline.unscopedRest_split preFacts6 c (U13 m ρ c)).trans (by rw [hT])
    rw [Pipeline.unscopedBufs_held, hs] at hjoin
    iintro ⟨Ha, HO, ⟨Hp, HT⟩, Hrest⟩
    imodintro
    isplitl [Ha Hrest HT]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

/-! ## The program as segments, and the run -/

abbrev msegs (hO : Ok m) : List (Pipeline.Seg (pcfgs (F := F)) (adm m hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ)),
    .region (reg1 m ρ hO),
    .host (hseg hostOps2 hostOps2_sub hostOps2_fresh (W4 m ρ)),
    .region (reg2 m ρ hO),
    .host (hseg hostOps3 hostOps3_sub hostOps3_fresh (W6 m ρ)),
    .region (reg3 m ρ hO),
    .host (hseg hostOps4 hostOps4_sub hostOps4_fresh (W8 m ρ)),
    .region (reg4 m ρ hO),
    .host (hseg hostOps5 hostOps5_sub hostOps5_fresh (W10 m ρ)),
    .region (reg5 m ρ hO),
    .host (hseg hostOps6 hostOps6_sub hostOps6_fresh (W12 m ρ)),
    .region (reg6 m ρ hO),
    .host (hseg hostOps7 hostOps7_sub hostOps7_fresh (W14 m ρ hO)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Under the tables' side condition: from any memory with zero counters every weakly fair execution of the
    program terminates, nothing faulting, and every final state holds every unscoped buffer at the last boundary's
    contents `W15`. -/
theorem run (hO : Ok m) : θ_run defs (onTc (τ := τ) (main (F := F))) ⟨m, fun _ => 0, ρ⟩ (fun r => ∀ c : Dev nD,
      ∀ b ∈ Pipeline.ucRefs τ sig, r.2.mem (((c : Thread nD τ)).1, b) = W15 m ρ hO c b) :=
  Pipeline.θ_run_regions_kit (pcfgs (F := F)) (adm m hO) (pdats m ρ hO) () (cellOf_inj (adm m hO)) emb₁ defs₀ 𝒱₀ L lv m ρ main (msegs m ρ hO)
    (fun c Q => by
      rewrite [main_chain c, Pipeline.Seg.run_eq_chain,
        show (msegs m ρ hO).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W15 m ρ hO c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W15 m ρ hO c) ∗ R c)
          ⊢ iprop(iprop(StableHlo.held (c : Thread nD τ) (Pipeline.ucRefs τ sig) (W15 m ρ hO c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ hO c) s')
      isplitl [Hh] <;> iassumption)
    (hQ := fun s h c => h c)

end Cert.Kernel.Gen

end
-- ==== Proof.K.Ok6.lean ====
/-
  The side condition of the row-gathering call, from the ranges of its two prefetched index tables.
  Window w's block index at grid point i is (t i, 0, 0), t i the unsigned reading of one word of a table:
  table 0 (indexing 50000 row blocks) for window 0, table 1 (indexing 20000) for windows 1 and 2. A block of
  sizes (1, 1, n) at block index (t, 0, 0) lies inside an array of sizes (N, 1, n) exactly when t < N, so
  every word of table 0 below 50000 and every word of table 1 below 20000 give the three conjuncts; the
  elements are 32-bit, which settles the word-exactness disjunct. The tables' contents stay a variable.
-/
import proofs.«180269_j89635967468180_1_alg».proof.Proof.Gen.Kernel.Launch

namespace Cert.Kernel.Ok6

open Cert.Kernel Cert.Kernel.Gen
open Idealize.ShloMosaic

variable {F : FTy → Type} [FloatOps F]

/-- A block of sizes (1, 1, n) at block index (t, 0, 0) is inside an array of sizes (N, 1, n) when t < N. -/
theorem block_inb (t N n : Nat) (ht : t < N) (a : Fin 3) :
    ((![t, 0, 0] : Fin 3 → Nat) a + 1) * (⟨3, ![1, 1, n]⟩ : Shape).size a ≤ (⟨3, ![N, 1, n]⟩ : Shape).size a := by
  fin_cases a
  · show (t + 1) * 1 ≤ N; omega
  · show (0 + 1) * 1 ≤ 1; omega
  · show (0 + 1) * n ≤ n; omega

/-- Window 0's block index is (t, 0, 0), t the unsigned reading of a word of table 0. -/
theorem transform_0_eq (pf : pre6.Contents (Elt F)) (i : grid6.Coords) :
    ∃ j : S8192.Idx, cc6_transform_0 k6_off1_inb numel1_S1 pf i = ![(pf 0 j : BitVec 32).toNat, 0, 0] := ⟨_, rfl⟩

/-- Window 1's block index is (t, 0, 0), t the unsigned reading of a word of table 1. -/
theorem transform_1_eq (pf : pre6.Contents (Elt F)) (i : grid6.Coords) :
    ∃ j : S8192.Idx, cc6_transform_1 k6_off1_inb numel1_S1 pf i = ![(pf 1 j : BitVec 32).toNat, 0, 0] := ⟨_, rfl⟩

/-- Window 2's block index is (t, 0, 0), t the unsigned reading of a word of table 1. -/
theorem transform_2_eq (pf : pre6.Contents (Elt F)) (i : grid6.Coords) :
    ∃ j : S8192.Idx, cc6_transform_2 k6_off1_inb numel1_S1 pf i = ![(pf 1 j : BitVec 32).toNat, 0, 0] := ⟨_, rfl⟩

/-- The gather call's side condition holds at any table contents whose words are inside the gathered arrays. -/
theorem ok6_of_range (pf : pre6.Contents (Elt F))
    (h12 : ∀ j : S8192.Idx, (pf 0 j : BitVec 32).toNat < 50000)
    (h13 : ∀ j : S8192.Idx, (pf 1 j : BitVec 32).toNat < 20000) : ok6 pf := by
  refine ⟨fun i => ⟨fun a => ?_, .inl rfl⟩, fun i => ⟨fun a => ?_, .inl rfl⟩, fun i => ⟨fun a => ?_, .inl rfl⟩⟩
  · obtain ⟨j, e⟩ := transform_0_eq pf i
    rw [e]; exact block_inb _ 50000 128 (h12 j) a
  · obtain ⟨j, e⟩ := transform_1_eq pf i
    rw [e]; exact block_inb _ 20000 128 (h13 j) a
  · obtain ⟨j, e⟩ := transform_2_eq pf i
    rw [e]; exact block_inb _ 20000 1 (h13 j) a

end Cert.Kernel.Ok6
-- ==== Proof.K.FrameK.lean ====
/-
  The frame of the word-level kernel program from its run: the student and exercise ids lie in range under the
  precondition, so every table-indexed block lies inside its array; the run then ends with every argument array at its
  launch contents.
-/
import proofs.«180269_j89635967468180_1_alg».proof.Defs
import proofs.«180269_j89635967468180_1_alg».proof.Proof.K.Run
import proofs.«180269_j89635967468180_1_alg».proof.Proof.K.Ok6
import proofs.«180269_j89635967468180_1_alg».proof.Proof.KI.PreIdx

set_option maxRecDepth 16384

noncomputable section

namespace Cert.Kernel.Gen

open Idealize.ShloMosaic Idealize.ShloMosaic.TcCoe Idealize.SL.Sem

/-- Under the precondition the ids are in range, hence the tables' side condition. -/
theorem ok_of_pre (m : (ℓ : Loc nD τ sig) → Buf (Elt Bits) ℓ) (h : Cert.Pre_Kernel m) : Ok m :=
  Cert.Kernel.Ok6.ok6_of_range (tbl m)
    (fun j => Cert.PreIdx.sid_toNat_lt _ _ _ _ _ _ _ _ _ _ _ _ _ _ (h 0) j)
    (fun j => Cert.PreIdx.eid_toNat_lt _ _ _ _ _ _ _ _ _ _ _ _ _ _ (h 0) j)

theorem frame_of_pre : Cert.frame_Kernel := fun m ρ hpre =>
  (θ_run defs _ _).mono (fun r h c => ⟨(h c _ (mem_uc main_arg0 (by decide))).trans (W15_main_arg0 m ρ (ok_of_pre m hpre) c),
    (h c _ (mem_uc main_arg1 (by decide))).trans (W15_main_arg1 m ρ (ok_of_pre m hpre) c),
    (h c _ (mem_uc main_arg2 (by decide))).trans (W15_main_arg2 m ρ (ok_of_pre m hpre) c),
    (h c _ (mem_uc main_arg3 (by decide))).trans (W15_main_arg3 m ρ (ok_of_pre m hpre) c),
    (h c _ (mem_uc main_arg4 (by decide))).trans (W15_main_arg4 m ρ (ok_of_pre m hpre) c),
    (h c _ (mem_uc main_arg5 (by decide))).trans (W15_main_arg5 m ρ (ok_of_pre m hpre) c),
    (h c _ (mem_uc main_arg6 (by decide))).trans (W15_main_arg6 m ρ (ok_of_pre m hpre) c),
    (h c _ (mem_uc main_arg7 (by decide))).trans (W15_main_arg7 m ρ (ok_of_pre m hpre) c),
    (h c _ (mem_uc main_arg8 (by decide))).trans (W15_main_arg8 m ρ (ok_of_pre m hpre) c),
    (h c _ (mem_uc main_arg9 (by decide))).trans (W15_main_arg9 m ρ (ok_of_pre m hpre) c),
    (h c _ (mem_uc main_arg10 (by decide))).trans (W15_main_arg10 m ρ (ok_of_pre m hpre) c),
    (h c _ (mem_uc main_arg11 (by decide))).trans (W15_main_arg11 m ρ (ok_of_pre m hpre) c),
    (h c _ (mem_uc main_arg12 (by decide))).trans (W15_main_arg12 m ρ (ok_of_pre m hpre) c),
    (h c _ (mem_uc main_arg13 (by decide))).trans (W15_main_arg13 m ρ (ok_of_pre m hpre) c)⟩)
    (run m ρ (ok_of_pre m hpre))

end Cert.Kernel.Gen

end
-- ==== Proof.KI.Spec.lean ====
/-
  The program's result as pure functions of the argument arrays, written with the host operations the program itself
  applies: the concatenated node features; an edge list's source and destination rows; one layer's weight matrix; the
  projection (features times weights, each row scaled by its source-side normalizer); the aggregation (gather the
  projected rows along the edges' sources, scatter-add them at the edges' destinations, scale each row by its
  destination-side normalizer); three layers per graph; the two graphs summed on the student rows and on the exercise rows.
-/
import proofs.«180269_j89635967468180_1_alg».proof.KernelIdeal
import Idealize.ShloMosaic.PureOps

noncomputable section

namespace Cert.KernelIdeal.Spec

open Idealize.ShloMosaic Cert.KernelIdeal
open Cert.KernelIdeal.Facts₀ Cert.KernelIdeal.Facts

variable {F : FTy → Type} [FloatOps F] [Cert.KernelIdeal.Facts]

/-- Student rows above exercise rows. -/
def feat0 (a0 : FVec F S50000x128 .f32) (a1 : FVec F S20000x128 .f32) : FVec F S70000x128 .f32 :=
  concatenate S70000x128 0 [⟨S50000x128, a0⟩, ⟨S20000x128, a1⟩] concatenates_S50000x128_S20000x128_S70000x128_d0

/-- Row `j` of an edge list (0: sources, 1: destinations), as the program slices and reshapes it. -/
def edgeSrc (e : IVec S2x1000000 32) : IVec S1000000 32 :=
  shapeCast S1000000 (extractStridedSlice S1x1000000 ![0, 0] e slices_S2x1000000_S1x1000000_0_0) shapeCasts_S1x1000000_S1000000
def edgeDst (e : IVec S2x1000000 32) : IVec S1000000 32 :=
  shapeCast S1000000 (extractStridedSlice S1x1000000 ![1, 0] e slices_S2x1000000_S1x1000000_1_0) shapeCasts_S1x1000000_S1000000

/-- Layer `j`'s weight matrix. -/
def wt0 (w : FVec F S3x128x128 .f32) : FVec F S128x128 .f32 :=
  shapeCast S128x128 (extractStridedSlice S1x128x128 ![0, 0, 0] w slices_S3x128x128_S1x128x128_0_0_0) shapeCasts_S1x128x128_S128x128
def wt1 (w : FVec F S3x128x128 .f32) : FVec F S128x128 .f32 :=
  shapeCast S128x128 (extractStridedSlice S1x128x128 ![1, 0, 0] w slices_S3x128x128_S1x128x128_1_0_0) shapeCasts_S1x128x128_S128x128
def wt2 (w : FVec F S3x128x128 .f32) : FVec F S128x128 .f32 :=
  shapeCast S128x128 (extractStridedSlice S1x128x128 ![2, 0, 0] w slices_S3x128x128_S1x128x128_2_0_0) shapeCasts_S1x128x128_S128x128

/-- The aggregation of projected rows `h` along the edges, scaled by `ci`. -/
def agg (h : FVec F S70000x128 .f32) (src dst : IVec S1000000 32) (ci : FVec F S70000x1 .f32) : FVec F S70000x128 .f32 :=
  mulf (Host.scatterAdd scatter_S70000x128_S1000000x1_S1000000x128_1_0_0_1
      (broadcastInDim S70000x128 ![] bcast_S_S70000x128 (constant S_ .f32 0x00000000#32))
      (broadcastInDim S1000000x1 ![0] bcast_S1000000_S1000000x1_0 dst)
      (Host.gather gather_S70000x128_S1000000x1_S1000000x128_1_0_n_n_0_1_1128 h
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 70000#32))) src))))
    (broadcastInDim S70000x128 ![0, 1] bcast_S70000x1_S70000x128_0_1 ci)

/-- The two graphs' results summed on the student rows (the first 50000) and on the exercise rows (the last 20000). -/
def stuSum (w1 w2 : FVec F S70000x128 .f32) : FVec F S50000x128 .f32 :=
  addf (extractStridedSlice S50000x128 ![0, 0] w1 slices_S70000x128_S50000x128_0_0) (extractStridedSlice S50000x128 ![0, 0] w2 slices_S70000x128_S50000x128_0_0)
def exerSum (w1 w2 : FVec F S70000x128 .f32) : FVec F S20000x128 .f32 :=
  addf (extractStridedSlice S20000x128 ![50000, 0] w1 slices_S70000x128_S20000x128_50000_0) (extractStridedSlice S20000x128 ![50000, 0] w2 slices_S70000x128_S20000x128_50000_0)

end Cert.KernelIdeal.Spec

end
-- ==== Proof.KI.HR7.lean ====
/-
  The last stretch: the three gathered arrays re-laid without the unit middle axis.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h7_v109 (V : Valuation τ sig (Elt F)) :
    StableHlo.after hostOps7 V (Proc.devRef .tc main_v109) = shapeCast S8192x128 (V (Proc.devRef .tc main_v108_0)) shapeCasts_S8192x1x128_S8192x128 := by
  after_results_simp <;> rfl

set_option maxHeartbeats 4000000 in
theorem h7_v110 (V : Valuation τ sig (Elt F)) :
    StableHlo.after hostOps7 V (Proc.devRef .tc main_v110) = shapeCast S8192x128 (V (Proc.devRef .tc main_v108_1)) shapeCasts_S8192x1x128_S8192x128 := by
  after_results_simp <;> rfl

set_option maxHeartbeats 4000000 in
theorem h7_v111 (V : Valuation τ sig (Elt F)) :
    StableHlo.after hostOps7 V (Proc.devRef .tc main_v111) = shapeCast S8192x1 (V (Proc.devRef .tc main_v108_2)) shapeCasts_S8192x1x1_S8192x1 := by
  after_results_simp <;> rfl

end Cert.KernelIdeal.Gen

end
-- ==== Proof.KI.GathValue.lean ====
/-
  The VALUE of the row-gathering call, at any float instance: each of its three output arrays, after the call, row by
  row in terms of the matching input array and the two prefetched tables. Point `r` of the one-axis grid copies, per
  window, the one-row block the table names at `r` into output row `r`; the 8192 output blocks tile each output array.
  Also here: the host re-layings around the call (dropping or adding a unit axis), read at an index.
-/
import proofs.«180269_j89635967468180_1_alg».proof.Proof.KI.Gath
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

section Value6
variable (V : (c : Dev nD) → (b : Ref sig .tc) → Buf (Elt F) ((c : Thread nD τ).loc b))
variable (a : (pcfg6 (F := F)).Adm)

/-! ## The grid: one axis of 8192 points -/

theorem N6 : (cfg6 a).N = 8192 := N_6

theorem lt6 (t : Fin (cfg6 a).N) : t.val < 8192 := lt_of_lt_of_eq t.isLt N_6

/-- On the one-axis grid a point's coordinate is its number. -/
theorem coord6_val (t : Fin (cfg6 a).N) : (((cfg6 a).grid.coords t) 0 : Nat) = t.val := by
  have h := lt6 a t
  show t.val / grid6.stride 0 % 8192 = t.val
  rw [show grid6.stride 0 = 1 from by decide, Nat.div_one, Nat.mod_eq_of_lt h]

/-- The grid point of batch entry `r`. -/
def pt6 (r : Fin 8192) : Fin (cfg6 a).N := ⟨r.val, lt_of_lt_of_eq r.isLt N_6.symm⟩

/-! ## The rows the tables name -/

/-- The student row batch entry `r` reads: block index, axis 0, of input 0 at point `r`. -/
def row6_0 (r : Fin 8192) : Nat := cc6_transform_0 k6_off1_inb numel1_S1 a.1 ((cfg6 a).grid.coords (pt6 a r)) 0
/-- The exercise row batch entry `r` reads: block index, axis 0, of input 1 (and of input 2) at point `r`. -/
def row6_1 (r : Fin 8192) : Nat := cc6_transform_1 k6_off1_inb numel1_S1 a.1 ((cfg6 a).grid.coords (pt6 a r)) 0

/-- A number below 8192 as a 32-bit word, read back. -/
theorem word32 (n : Nat) (h : n < 8192) : (Scalar.indexCast (BitVec.ofNat 32 n)).toNat = n := by
  show (BitVec.ofNat 32 n).toNat = n
  rw [BitVec.toNat_ofNat]; exact Nat.mod_eq_of_lt (by omega)

/-- The student row is table 0's word at `r`, unsigned. -/
theorem row6_0_eq (r : Fin 8192) : row6_0 a r = (a.1 0 (ix1 r) : BitVec 32).toNat := by
  unfold row6_0 cc6_transform_0
  refine congrArg (fun x => (a.1 0 x : BitVec 32).toNat) ?_
  refine funext fun (d : Fin 1) => Fin.ext ?_
  obtain rfl : d = 0 := Subsingleton.elim _ _
  show (Scalar.indexCast (BitVec.ofNat 32 (((cfg6 a).grid.coords (pt6 a r)) 0).val)).toNat + 1 * 0 = r.val
  rw [coord6_val, word32 _ (lt6 a _)]; rfl

/-- The exercise row is table 1's word at `r`, unsigned. -/
theorem row6_1_eq (r : Fin 8192) : row6_1 a r = (a.1 1 (ix1 r) : BitVec 32).toNat := by
  unfold row6_1 cc6_transform_1
  refine congrArg (fun x => (a.1 1 x : BitVec 32).toNat) ?_
  refine funext fun (d : Fin 1) => Fin.ext ?_
  obtain rfl : d = 0 := Subsingleton.elim _ _
  show (Scalar.indexCast (BitVec.ofNat 32 (((cfg6 a).grid.coords (pt6 a r)) 0).val)).toNat + 1 * 0 = r.val
  rw [coord6_val, word32 _ (lt6 a _)]; rfl

/-- Admissible tables name rows inside the arrays. -/
theorem row6_0_lt (r : Fin 8192) : row6_0 a r < 50000 := by
  have h := (a.2 : ok6 a.1)
  unfold ok6 at h
  obtain ⟨hb, -⟩ := h.1 ((cfg6 a).grid.coords (pt6 a r))
  have e : (cc6_transform_0 k6_off1_inb numel1_S1 a.1 ((cfg6 a).grid.coords (pt6 a r)) 0 + 1) * 1 ≤ 50000 := hb 0
  show cc6_transform_0 k6_off1_inb numel1_S1 a.1 ((cfg6 a).grid.coords (pt6 a r)) 0 < 50000
  omega

theorem row6_1_lt (r : Fin 8192) : row6_1 a r < 20000 := by
  have h := (a.2 : ok6 a.1)
  unfold ok6 at h
  obtain ⟨hb, -⟩ := h.2.1 ((cfg6 a).grid.coords (pt6 a r))
  have e : (cc6_transform_1 k6_off1_inb numel1_S1 a.1 ((cfg6 a).grid.coords (pt6 a r)) 0 + 1) * 1 ≤ 20000 := hb 0
  show cc6_transform_1 k6_off1_inb numel1_S1 a.1 ((cfg6 a).grid.coords (pt6 a r)) 0 < 20000
  omega

/-! ## The block indices at a point -/

theorem index6_0_0 (t : Fin (cfg6 a).N) : ((cfg6 a).win 0).index t (0 : Fin 3) = row6_0 a ⟨t.val, lt6 a t⟩ := rfl
theorem index6_0_1 (t : Fin (cfg6 a).N) : ((cfg6 a).win 0).index t (1 : Fin 3) = 0 := rfl
theorem index6_0_2 (t : Fin (cfg6 a).N) : ((cfg6 a).win 0).index t (2 : Fin 3) = 0 := rfl
theorem index6_1_0 (t : Fin (cfg6 a).N) : ((cfg6 a).win 1).index t (0 : Fin 3) = row6_1 a ⟨t.val, lt6 a t⟩ := rfl
theorem index6_1_1 (t : Fin (cfg6 a).N) : ((cfg6 a).win 1).index t (1 : Fin 3) = 0 := rfl
theorem index6_1_2 (t : Fin (cfg6 a).N) : ((cfg6 a).win 1).index t (2 : Fin 3) = 0 := rfl
theorem index6_2_0 (t : Fin (cfg6 a).N) : ((cfg6 a).win 2).index t (0 : Fin 3) = row6_1 a ⟨t.val, lt6 a t⟩ := rfl
theorem index6_2_1 (t : Fin (cfg6 a).N) : ((cfg6 a).win 2).index t (1 : Fin 3) = 0 := rfl
theorem index6_2_2 (t : Fin (cfg6 a).N) : ((cfg6 a).win 2).index t (2 : Fin 3) = 0 := rfl

theorem ofNat32_toNat (t : Fin (cfg6 a).N) : (BitVec.ofNat 32 (((cfg6 a).grid.coords t) 0).val).toNat = t.val := by
  rw [coord6_val, BitVec.toNat_ofNat]; exact Nat.mod_eq_of_lt (by have := lt6 a t; omega)

theorem index6_3_0 (t : Fin (cfg6 a).N) : ((cfg6 a).win 3).index t (0 : Fin 3) = t.val := ofNat32_toNat a t
theorem index6_3_1 (t : Fin (cfg6 a).N) : ((cfg6 a).win 3).index t (1 : Fin 3) = 0 := rfl
theorem index6_3_2 (t : Fin (cfg6 a).N) : ((cfg6 a).win 3).index t (2 : Fin 3) = 0 := rfl
theorem index6_4_0 (t : Fin (cfg6 a).N) : ((cfg6 a).win 4).index t (0 : Fin 3) = t.val := ofNat32_toNat a t
theorem index6_4_1 (t : Fin (cfg6 a).N) : ((cfg6 a).win 4).index t (1 : Fin 3) = 0 := rfl
theorem index6_4_2 (t : Fin (cfg6 a).N) : ((cfg6 a).win 4).index t (2 : Fin 3) = 0 := rfl
theorem index6_5_0 (t : Fin (cfg6 a).N) : ((cfg6 a).win 5).index t (0 : Fin 3) = t.val := ofNat32_toNat a t
theorem index6_5_1 (t : Fin (cfg6 a).N) : ((cfg6 a).win 5).index t (1 : Fin 3) = 0 := rfl
theorem index6_5_2 (t : Fin (cfg6 a).N) : ((cfg6 a).win 5).index t (2 : Fin 3) = 0 := rfl

theorem hz3 : (![0, 0, 0] : Fin 3 → Nat) = fun _ => 0 := funext fun d => by fin_cases d <;> rfl

/-! ## Each output: the copied block, the write-back, the cover, the array -/

/-- What the body leaves in output 3's buffer is the input block it copied. -/
theorem out6_3_eq (x0 : Vec F S1x1x128 .f32) : out6_3 x0 = x0 := by
  unfold out6_3
  rw [View.canon_unit_zero hz3, View.ld_unit_zero hz3]
  unfold k6_pay1
  exact shapeCast_self _ _

/-- Input block 0 at point `t` is row `row6_0 t` of its array. -/
theorem iblk6_0_apply (c : Dev nD) (t : Fin (cfg6 a).N) (y : S1x1x128.Idx) (k : S50000x1x128.Idx)
    (hk0 : (k 0).val = row6_0 a ⟨t.val, lt6 a t⟩) (hk1 : (k 1).val = 0) (hk2 : (k 2).val = (y 2).val) :
    (iblk6 V a c 0 t : Vec F S1x1x128 .f32) y = (V c main_v105 : S50000x1x128.Idx → Elt F .f32) k := by
  show (V c main_v105 : S50000x1x128.Idx → Elt F .f32) ((((cfg6 a).win 0).blk t).view.emb y) = V c main_v105 k
  refine congrArg (V c main_v105 : S50000x1x128.Idx → Elt F .f32) ?_
  refine funext fun (d : Fin 3) => Fin.ext ?_
  have h0 : (y 0).val < 1 := (y 0).isLt
  have h1 : (y 1).val < 1 := (y 1).isLt
  match d with
  | ⟨0, _⟩ => show ((cfg6 a).win 0).index t (0 : Fin 3) * 1 + 1 * (y 0).val = (k 0).val; rw [index6_0_0, hk0]; omega
  | ⟨1, _⟩ => show ((cfg6 a).win 0).index t (1 : Fin 3) * 1 + 1 * (y 1).val = (k 1).val; rw [index6_0_1, hk1]; omega
  | ⟨2, _⟩ => show ((cfg6 a).win 0).index t (2 : Fin 3) * 128 + 1 * (y 2).val = (k 2).val; rw [index6_0_2, hk2]; omega

/-- Every point writes output 3's block back: the next point's block is another row. -/
theorem flush6_3 (t : Fin (cfg6 a).N) : ((cfg6 a).win 3).flush t = true := by
  have ht := lt6 a t
  unfold Pipeline.Window.flush
  simp only [Bool.and_eq_true, Bool.or_eq_true, decide_eq_true_eq]
  refine ⟨rfl, ?_⟩
  by_cases hl : t.val + 1 = 8192
  · exact .inl (hl.trans N_6.symm)
  · have hlt : t.val + 1 < 8192 := by omega
    refine .inr ⟨lt_of_lt_of_eq hlt N_6.symm, fun e => ?_⟩
    have e0 := congrFun e (0 : Fin 3)
    rw [index6_3_0, index6_3_0] at e0
    exact absurd e0 (Nat.succ_ne_self _)

/-- Output 3 after the call: row `i` is row `row6_0 i` of input 0's array. -/
def gath6_3 (c : Dev nD) : S8192x1x128.Idx → Elt F .f32 := fun i =>
  (V c main_v105 : S50000x1x128.Idx → Elt F .f32) (ix3 ⟨row6_0 a (i 0), row6_0_lt a (i 0)⟩ (i 1) (i 2))

/-- What point `t` writes back to output 3 is block `t` of that array. -/
theorem flushed6_3 (c : Dev nD) (t : Fin (cfg6 a).N) :
    (dat6 V a c).flushed 3 t = (((cfg6 a).win 3).blk t).view.read (Elt F) (gath6_3 V a c) := by
  have e : (dat6 V a c).after 3 t = iblk6 V a c 0 t := (after6_3 V a c t).trans (out6_3_eq _)
  refine funext fun (j : S1x1x128.Idx) => ?_
  have hj0 : (j 0).val < 1 := (j 0).isLt
  have hj1 : (j 1).val < 1 := (j 1).isLt
  refine (congrFun e (((cfg6 a).win 3).xinj ((cfg6 a).grid.coords t) j)).trans ?_
  refine (iblk6_0_apply V a c t _ (ix3 ⟨row6_0 a ((((cfg6 a).win 3).blk t).view.emb j (0 : Fin 3)), row6_0_lt a _⟩
    ((((cfg6 a).win 3).blk t).view.emb j (1 : Fin 3)) ((((cfg6 a).win 3).blk t).view.emb j (2 : Fin 3))) ?_ ?_ ?_).trans ?_
  · show row6_0 a _ = row6_0 a _
    refine congrArg (row6_0 a) (Fin.ext ?_)
    show ((cfg6 a).win 3).index t (0 : Fin 3) * 1 + 1 * (j 0).val = t.val
    rw [index6_3_0]; omega
  · show ((cfg6 a).win 3).index t (1 : Fin 3) * 1 + 1 * (j 1).val = 0
    rw [index6_3_1]; omega
  · show ((cfg6 a).win 3).index t (2 : Fin 3) * 128 + 1 * (j 2).val = (j 2).val
    rw [index6_3_2]; omega
  · rfl

/-- THE ARRAY after the call: the 8192 one-row blocks tile it, point `r` covering row `r`. -/
theorem final6_3 (c : Dev nD) : (dat6 V a c).arrAt 3 (cfg6 a).N = gath6_3 V a c :=
  (dat6 V a c).arrAt_eq_of_cover 3 (gath6_3 V a c) (fun t _ => flushed6_3 V a c t) fun (i : S8192x1x128.Idx) => by
    have hi0 : (i 0).val < 8192 := (i 0).isLt
    have hi1 : (i 1).val < 1 := (i 1).isLt
    have hi2 : (i 2).val < 128 := (i 2).isLt
    refine ⟨⟨(i 0).val, lt_of_lt_of_eq hi0 N_6.symm⟩, flush6_3 a _, ?_⟩
    refine (congrArg (fun S => i ∈ S) (View.set_slice_whole main_v108_0 (((cfg6 a).win 3).rect ⟨(i 0).val, lt_of_lt_of_eq hi0 N_6.symm⟩))).mpr ?_
    refine Rect.mem_set_unit.mpr fun (d : Fin 3) => ?_
    match d with
    | ⟨0, _⟩ =>
      show ((cfg6 a).win 3).index ⟨(i 0).val, lt_of_lt_of_eq hi0 N_6.symm⟩ (0 : Fin 3) * 1 ≤ (i 0).val
        ∧ (i 0).val < ((cfg6 a).win 3).index ⟨(i 0).val, lt_of_lt_of_eq hi0 N_6.symm⟩ (0 : Fin 3) * 1 + 1
      rw [index6_3_0]
      show (i 0).val * 1 ≤ (i 0).val ∧ (i 0).val < (i 0).val * 1 + 1
      omega
    | ⟨1, _⟩ =>
      show ((cfg6 a).win 3).index ⟨(i 0).val, lt_of_lt_of_eq hi0 N_6.symm⟩ (1 : Fin 3) * 1 ≤ (i 1).val
        ∧ (i 1).val < ((cfg6 a).win 3).index ⟨(i 0).val, lt_of_lt_of_eq hi0 N_6.symm⟩ (1 : Fin 3) * 1 + 1
      rw [index6_3_1]; omega
    | ⟨2, _⟩ =>
      show ((cfg6 a).win 3).index ⟨(i 0).val, lt_of_lt_of_eq hi0 N_6.symm⟩ (2 : Fin 3) * 128 ≤ (i 2).val
        ∧ (i 2).val < ((cfg6 a).win 3).index ⟨(i 0).val, lt_of_lt_of_eq hi0 N_6.symm⟩ (2 : Fin 3) * 128 + 128
      rw [index6_3_2]; omega

/-- What the body leaves in output 4's buffer is the input block it copied. -/
theorem out6_4_eq (x0 : Vec F S1x1x128 .f32) : out6_4 x0 = x0 := by
  unfold out6_4
  rw [View.canon_unit_zero hz3, View.ld_unit_zero hz3]
  unfold k6_pay2
  exact shapeCast_self _ _

/-- Input block 1 at point `t` is row `row6_1 t` of its array. -/
theorem iblk6_1_apply (c : Dev nD) (t : Fin (cfg6 a).N) (y : S1x1x128.Idx) (k : S20000x1x128.Idx)
    (hk0 : (k 0).val = row6_1 a ⟨t.val, lt6 a t⟩) (hk1 : (k 1).val = 0) (hk2 : (k 2).val = (y 2).val) :
    (iblk6 V a c 1 t : Vec F S1x1x128 .f32) y = (V c main_v106 : S20000x1x128.Idx → Elt F .f32) k := by
  show (V c main_v106 : S20000x1x128.Idx → Elt F .f32) ((((cfg6 a).win 1).blk t).view.emb y) = V c main_v106 k
  refine congrArg (V c main_v106 : S20000x1x128.Idx → Elt F .f32) ?_
  refine funext fun (d : Fin 3) => Fin.ext ?_
  have h0 : (y 0).val < 1 := (y 0).isLt
  have h1 : (y 1).val < 1 := (y 1).isLt
  match d with
  | ⟨0, _⟩ => show ((cfg6 a).win 1).index t (0 : Fin 3) * 1 + 1 * (y 0).val = (k 0).val; rw [index6_1_0, hk0]; omega
  | ⟨1, _⟩ => show ((cfg6 a).win 1).index t (1 : Fin 3) * 1 + 1 * (y 1).val = (k 1).val; rw [index6_1_1, hk1]; omega
  | ⟨2, _⟩ => show ((cfg6 a).win 1).index t (2 : Fin 3) * 128 + 1 * (y 2).val = (k 2).val; rw [index6_1_2, hk2]; omega

/-- Every point writes output 4's block back: the next point's block is another row. -/
theorem flush6_4 (t : Fin (cfg6 a).N) : ((cfg6 a).win 4).flush t = true := by
  have ht := lt6 a t
  unfold Pipeline.Window.flush
  simp only [Bool.and_eq_true, Bool.or_eq_true, decide_eq_true_eq]
  refine ⟨rfl, ?_⟩
  by_cases hl : t.val + 1 = 8192
  · exact .inl (hl.trans N_6.symm)
  · have hlt : t.val + 1 < 8192 := by omega
    refine .inr ⟨lt_of_lt_of_eq hlt N_6.symm, fun e => ?_⟩
    have e0 := congrFun e (0 : Fin 3)
    rw [index6_4_0, index6_4_0] at e0
    exact absurd e0 (Nat.succ_ne_self _)

/-- Output 4 after the call: row `i` is row `row6_1 i` of input 1's array. -/
def gath6_4 (c : Dev nD) : S8192x1x128.Idx → Elt F .f32 := fun i =>
  (V c main_v106 : S20000x1x128.Idx → Elt F .f32) (ix3 ⟨row6_1 a (i 0), row6_1_lt a (i 0)⟩ (i 1) (i 2))

/-- What point `t` writes back to output 4 is block `t` of that array. -/
theorem flushed6_4 (c : Dev nD) (t : Fin (cfg6 a).N) :
    (dat6 V a c).flushed 4 t = (((cfg6 a).win 4).blk t).view.read (Elt F) (gath6_4 V a c) := by
  have e : (dat6 V a c).after 4 t = iblk6 V a c 1 t := (after6_4 V a c t).trans (out6_4_eq _)
  refine funext fun (j : S1x1x128.Idx) => ?_
  have hj0 : (j 0).val < 1 := (j 0).isLt
  have hj1 : (j 1).val < 1 := (j 1).isLt
  refine (congrFun e (((cfg6 a).win 4).xinj ((cfg6 a).grid.coords t) j)).trans ?_
  refine (iblk6_1_apply V a c t _ (ix3 ⟨row6_1 a ((((cfg6 a).win 4).blk t).view.emb j (0 : Fin 3)), row6_1_lt a _⟩
    ((((cfg6 a).win 4).blk t).view.emb j (1 : Fin 3)) ((((cfg6 a).win 4).blk t).view.emb j (2 : Fin 3))) ?_ ?_ ?_).trans ?_
  · show row6_1 a _ = row6_1 a _
    refine congrArg (row6_1 a) (Fin.ext ?_)
    show ((cfg6 a).win 4).index t (0 : Fin 3) * 1 + 1 * (j 0).val = t.val
    rw [index6_4_0]; omega
  · show ((cfg6 a).win 4).index t (1 : Fin 3) * 1 + 1 * (j 1).val = 0
    rw [index6_4_1]; omega
  · show ((cfg6 a).win 4).index t (2 : Fin 3) * 128 + 1 * (j 2).val = (j 2).val
    rw [index6_4_2]; omega
  · rfl

/-- THE ARRAY after the call: the 8192 one-row blocks tile it, point `r` covering row `r`. -/
theorem final6_4 (c : Dev nD) : (dat6 V a c).arrAt 4 (cfg6 a).N = gath6_4 V a c :=
  (dat6 V a c).arrAt_eq_of_cover 4 (gath6_4 V a c) (fun t _ => flushed6_4 V a c t) fun (i : S8192x1x128.Idx) => by
    have hi0 : (i 0).val < 8192 := (i 0).isLt
    have hi1 : (i 1).val < 1 := (i 1).isLt
    have hi2 : (i 2).val < 128 := (i 2).isLt
    refine ⟨⟨(i 0).val, lt_of_lt_of_eq hi0 N_6.symm⟩, flush6_4 a _, ?_⟩
    refine (congrArg (fun S => i ∈ S) (View.set_slice_whole main_v108_1 (((cfg6 a).win 4).rect ⟨(i 0).val, lt_of_lt_of_eq hi0 N_6.symm⟩))).mpr ?_
    refine Rect.mem_set_unit.mpr fun (d : Fin 3) => ?_
    match d with
    | ⟨0, _⟩ =>
      show ((cfg6 a).win 4).index ⟨(i 0).val, lt_of_lt_of_eq hi0 N_6.symm⟩ (0 : Fin 3) * 1 ≤ (i 0).val
        ∧ (i 0).val < ((cfg6 a).win 4).index ⟨(i 0).val, lt_of_lt_of_eq hi0 N_6.symm⟩ (0 : Fin 3) * 1 + 1
      rw [index6_4_0]
      show (i 0).val * 1 ≤ (i 0).val ∧ (i 0).val < (i 0).val * 1 + 1
      omega
    | ⟨1, _⟩ =>
      show ((cfg6 a).win 4).index ⟨(i 0).val, lt_of_lt_of_eq hi0 N_6.symm⟩ (1 : Fin 3) * 1 ≤ (i 1).val
        ∧ (i 1).val < ((cfg6 a).win 4).index ⟨(i 0).val, lt_of_lt_of_eq hi0 N_6.symm⟩ (1 : Fin 3) * 1 + 1
      rw [index6_4_1]; omega
    | ⟨2, _⟩ =>
      show ((cfg6 a).win 4).index ⟨(i 0).val, lt_of_lt_of_eq hi0 N_6.symm⟩ (2 : Fin 3) * 128 ≤ (i 2).val
        ∧ (i 2).val < ((cfg6 a).win 4).index ⟨(i 0).val, lt_of_lt_of_eq hi0 N_6.symm⟩ (2 : Fin 3) * 128 + 128
      rw [index6_4_2]; omega

/-- What the body leaves in output 5's buffer is the input block it copied. -/
theorem out6_5_eq (x0 : Vec F S1x1x1 .f32) : out6_5 x0 = x0 := by
  unfold out6_5
  rw [View.canon_unit_zero hz3, View.ld_unit_zero hz3]
  unfold k6_pay3
  exact shapeCast_self _ _

/-- Input block 2 at point `t` is row `row6_1 t` of its array. -/
theorem iblk6_2_apply (c : Dev nD) (t : Fin (cfg6 a).N) (y : S1x1x1.Idx) (k : S20000x1x1.Idx)
    (hk0 : (k 0).val = row6_1 a ⟨t.val, lt6 a t⟩) (hk1 : (k 1).val = 0) (hk2 : (k 2).val = (y 2).val) :
    (iblk6 V a c 2 t : Vec F S1x1x1 .f32) y = (V c main_v107 : S20000x1x1.Idx → Elt F .f32) k := by
  show (V c main_v107 : S20000x1x1.Idx → Elt F .f32) ((((cfg6 a).win 2).blk t).view.emb y) = V c main_v107 k
  refine congrArg (V c main_v107 : S20000x1x1.Idx → Elt F .f32) ?_
  refine funext fun (d : Fin 3) => Fin.ext ?_
  have h0 : (y 0).val < 1 := (y 0).isLt
  have h1 : (y 1).val < 1 := (y 1).isLt
  match d with
  | ⟨0, _⟩ => show ((cfg6 a).win 2).index t (0 : Fin 3) * 1 + 1 * (y 0).val = (k 0).val; rw [index6_2_0, hk0]; omega
  | ⟨1, _⟩ => show ((cfg6 a).win 2).index t (1 : Fin 3) * 1 + 1 * (y 1).val = (k 1).val; rw [index6_2_1, hk1]; omega
  | ⟨2, _⟩ => show ((cfg6 a).win 2).index t (2 : Fin 3) * 1 + 1 * (y 2).val = (k 2).val; rw [index6_2_2, hk2]; omega

/-- Every point writes output 5's block back: the next point's block is another row. -/
theorem flush6_5 (t : Fin (cfg6 a).N) : ((cfg6 a).win 5).flush t = true := by
  have ht := lt6 a t
  unfold Pipeline.Window.flush
  simp only [Bool.and_eq_true, Bool.or_eq_true, decide_eq_true_eq]
  refine ⟨rfl, ?_⟩
  by_cases hl : t.val + 1 = 8192
  · exact .inl (hl.trans N_6.symm)
  · have hlt : t.val + 1 < 8192 := by omega
    refine .inr ⟨lt_of_lt_of_eq hlt N_6.symm, fun e => ?_⟩
    have e0 := congrFun e (0 : Fin 3)
    rw [index6_5_0, index6_5_0] at e0
    exact absurd e0 (Nat.succ_ne_self _)

/-- Output 5 after the call: row `i` is row `row6_1 i` of input 2's array. -/
def gath6_5 (c : Dev nD) : S8192x1x1.Idx → Elt F .f32 := fun i =>
  (V c main_v107 : S20000x1x1.Idx → Elt F .f32) (ix3 ⟨row6_1 a (i 0), row6_1_lt a (i 0)⟩ (i 1) (i 2))

/-- What point `t` writes back to output 5 is block `t` of that array. -/
theorem flushed6_5 (c : Dev nD) (t : Fin (cfg6 a).N) :
    (dat6 V a c).flushed 5 t = (((cfg6 a).win 5).blk t).view.read (Elt F) (gath6_5 V a c) := by
  have e : (dat6 V a c).after 5 t = iblk6 V a c 2 t := (after6_5 V a c t).trans (out6_5_eq _)
  refine funext fun (j : S1x1x1.Idx) => ?_
  have hj0 : (j 0).val < 1 := (j 0).isLt
  have hj1 : (j 1).val < 1 := (j 1).isLt
  refine (congrFun e (((cfg6 a).win 5).xinj ((cfg6 a).grid.coords t) j)).trans ?_
  refine (iblk6_2_apply V a c t _ (ix3 ⟨row6_1 a ((((cfg6 a).win 5).blk t).view.emb j (0 : Fin 3)), row6_1_lt a _⟩
    ((((cfg6 a).win 5).blk t).view.emb j (1 : Fin 3)) ((((cfg6 a).win 5).blk t).view.emb j (2 : Fin 3))) ?_ ?_ ?_).trans ?_
  · show row6_1 a _ = row6_1 a _
    refine congrArg (row6_1 a) (Fin.ext ?_)
    show ((cfg6 a).win 5).index t (0 : Fin 3) * 1 + 1 * (j 0).val = t.val
    rw [index6_5_0]; omega
  · show ((cfg6 a).win 5).index t (1 : Fin 3) * 1 + 1 * (j 1).val = 0
    rw [index6_5_1]; omega
  · show ((cfg6 a).win 5).index t (2 : Fin 3) * 1 + 1 * (j 2).val = (j 2).val
    rw [index6_5_2]; omega
  · rfl

/-- THE ARRAY after the call: the 8192 one-row blocks tile it, point `r` covering row `r`. -/
theorem final6_5 (c : Dev nD) : (dat6 V a c).arrAt 5 (cfg6 a).N = gath6_5 V a c :=
  (dat6 V a c).arrAt_eq_of_cover 5 (gath6_5 V a c) (fun t _ => flushed6_5 V a c t) fun (i : S8192x1x1.Idx) => by
    have hi0 : (i 0).val < 8192 := (i 0).isLt
    have hi1 : (i 1).val < 1 := (i 1).isLt
    have hi2 : (i 2).val < 1 := (i 2).isLt
    refine ⟨⟨(i 0).val, lt_of_lt_of_eq hi0 N_6.symm⟩, flush6_5 a _, ?_⟩
    refine (congrArg (fun S => i ∈ S) (View.set_slice_whole main_v108_2 (((cfg6 a).win 5).rect ⟨(i 0).val, lt_of_lt_of_eq hi0 N_6.symm⟩))).mpr ?_
    refine Rect.mem_set_unit.mpr fun (d : Fin 3) => ?_
    match d with
    | ⟨0, _⟩ =>
      show ((cfg6 a).win 5).index ⟨(i 0).val, lt_of_lt_of_eq hi0 N_6.symm⟩ (0 : Fin 3) * 1 ≤ (i 0).val
        ∧ (i 0).val < ((cfg6 a).win 5).index ⟨(i 0).val, lt_of_lt_of_eq hi0 N_6.symm⟩ (0 : Fin 3) * 1 + 1
      rw [index6_5_0]
      show (i 0).val * 1 ≤ (i 0).val ∧ (i 0).val < (i 0).val * 1 + 1
      omega
    | ⟨1, _⟩ =>
      show ((cfg6 a).win 5).index ⟨(i 0).val, lt_of_lt_of_eq hi0 N_6.symm⟩ (1 : Fin 3) * 1 ≤ (i 1).val
        ∧ (i 1).val < ((cfg6 a).win 5).index ⟨(i 0).val, lt_of_lt_of_eq hi0 N_6.symm⟩ (1 : Fin 3) * 1 + 1
      rw [index6_5_1]; omega
    | ⟨2, _⟩ =>
      show ((cfg6 a).win 5).index ⟨(i 0).val, lt_of_lt_of_eq hi0 N_6.symm⟩ (2 : Fin 3) * 1 ≤ (i 2).val
        ∧ (i 2).val < ((cfg6 a).win 5).index ⟨(i 0).val, lt_of_lt_of_eq hi0 N_6.symm⟩ (2 : Fin 3) * 1 + 1
      rw [index6_5_2]; omega

end Value6

/-! ## The host re-layings around the call, read at an index -/

section Relay
variable {α : Type}

/-- Dropping the unit axis of a gathered [8192,1,128] array: row `r`, column `q`. -/
theorem relay_out128 (x : S8192x1x128.Idx → α) (r : Fin 8192) (q : Fin 128) :
    shapeCast S8192x128 x shapeCasts_S8192x1x128_S8192x128 (ix2 r q) = x (ix3 r (0 : Fin 1) q) := by
  refine shapeCast_apply x _ (ix2 r q) (ix3 r (0 : Fin 1) q) ?_
  rw [Shape.rowMajor_val_three, Shape.rowMajor_val_two]
  show (r.val * 1 + 0) * 128 + q.val = r.val * 128 + q.val
  omega

/-- Dropping the unit axis of the gathered [8192,1,1] array. -/
theorem relay_out1 (x : S8192x1x1.Idx → α) (r : Fin 8192) (z : Fin 1) :
    shapeCast S8192x1 x shapeCasts_S8192x1x1_S8192x1 (ix2 r z) = x (ix3 r (0 : Fin 1) z) := by
  refine shapeCast_apply x _ (ix2 r z) (ix3 r (0 : Fin 1) z) ?_
  rw [Shape.rowMajor_val_three, Shape.rowMajor_val_two]
  show (r.val * 1 + 0) * 1 + z.val = r.val * 1 + z.val
  omega

/-- Adding a unit axis to the [50000,128] student rows. -/
theorem relay_in_stu (y : S50000x128.Idx → α) (p : Fin 50000) (q : Fin 128) :
    shapeCast S50000x1x128 y shapeCasts_S50000x128_S50000x1x128 (ix3 p (0 : Fin 1) q) = y (ix2 p q) := by
  refine shapeCast_apply y _ (ix3 p (0 : Fin 1) q) (ix2 p q) ?_
  rw [Shape.rowMajor_val_three, Shape.rowMajor_val_two]
  show p.val * 128 + q.val = (p.val * 1 + 0) * 128 + q.val
  omega

/-- Adding a unit axis to the [20000,128] exercise rows. -/
theorem relay_in_exer (y : S20000x128.Idx → α) (p : Fin 20000) (q : Fin 128) :
    shapeCast S20000x1x128 y shapeCasts_S20000x128_S20000x1x128 (ix3 p (0 : Fin 1) q) = y (ix2 p q) := by
  refine shapeCast_apply y _ (ix3 p (0 : Fin 1) q) (ix2 p q) ?_
  rw [Shape.rowMajor_val_three, Shape.rowMajor_val_two]
  show p.val * 128 + q.val = (p.val * 1 + 0) * 128 + q.val
  omega

/-- Adding a unit axis to the [20000,1] column. -/
theorem relay_in_disc (y : S20000x1.Idx → α) (p : Fin 20000) (z : Fin 1) :
    shapeCast S20000x1x1 y shapeCasts_S20000x1_S20000x1x1 (ix3 p (0 : Fin 1) z) = y (ix2 p z) := by
  refine shapeCast_apply y _ (ix3 p (0 : Fin 1) z) (ix2 p z) ?_
  rw [Shape.rowMajor_val_three, Shape.rowMajor_val_two]
  show p.val * 1 + z.val = (p.val * 1 + 0) * 1 + z.val
  omega

end Relay

end Cert.KernelIdeal.Gen

end
-- ==== Proof.KI.HR0.lean ====
/-
  The first stretch of host operations, read at the buffers later boundaries use: the concatenated features, the first graph's edge sources and destinations, its first weight matrix.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h0_v0 (V : Valuation τ sig (Elt F)) :
    StableHlo.after hostOps0 V (Proc.devRef .tc main_v0) = Spec.feat0 (V (Proc.devRef .tc main_arg0)) (V (Proc.devRef .tc main_arg1)) := by
  after_results_simp <;> rfl

set_option maxHeartbeats 4000000 in
theorem h0_v2 (V : Valuation τ sig (Elt F)) :
    StableHlo.after hostOps0 V (Proc.devRef .tc main_v2) = Spec.edgeSrc (V (Proc.devRef .tc main_arg10)) := by
  after_results_simp <;> rfl

set_option maxHeartbeats 4000000 in
theorem h0_v4 (V : Valuation τ sig (Elt F)) :
    StableHlo.after hostOps0 V (Proc.devRef .tc main_v4) = Spec.edgeDst (V (Proc.devRef .tc main_arg10)) := by
  after_results_simp <;> rfl

set_option maxHeartbeats 4000000 in
theorem h0_v6 (V : Valuation τ sig (Elt F)) :
    StableHlo.after hostOps0 V (Proc.devRef .tc main_v6) = Spec.wt0 (V (Proc.devRef .tc main_arg4)) := by
  after_results_simp <;> rfl

end Cert.KernelIdeal.Gen

end
-- ==== Proof.KI.HR1.lean ====
/-
  The stretch after the first projection: the aggregation of the projected rows, and the second weight matrix.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h1_v19 (V : Valuation τ sig (Elt F)) :
    StableHlo.after hostOps1 V (Proc.devRef .tc main_v19) = Spec.agg (V (Proc.devRef .tc main_v7)) (V (Proc.devRef .tc main_v2)) (V (Proc.devRef .tc main_v4)) (V (Proc.devRef .tc main_arg6)) := by
  after_results_simp <;> rfl

set_option maxHeartbeats 4000000 in
theorem h1_v21 (V : Valuation τ sig (Elt F)) :
    StableHlo.after hostOps1 V (Proc.devRef .tc main_v21) = Spec.wt1 (V (Proc.devRef .tc main_arg4)) := by
  after_results_simp <;> rfl

end Cert.KernelIdeal.Gen

end
-- ==== Proof.KI.HR2.lean ====
/-
  The stretch after the second projection: the aggregation, and the third weight matrix.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h2_v34 (V : Valuation τ sig (Elt F)) :
    StableHlo.after hostOps2 V (Proc.devRef .tc main_v34) = Spec.agg (V (Proc.devRef .tc main_v22)) (V (Proc.devRef .tc main_v2)) (V (Proc.devRef .tc main_v4)) (V (Proc.devRef .tc main_arg6)) := by
  after_results_simp <;> rfl

set_option maxHeartbeats 4000000 in
theorem h2_v36 (V : Valuation τ sig (Elt F)) :
    StableHlo.after hostOps2 V (Proc.devRef .tc main_v36) = Spec.wt2 (V (Proc.devRef .tc main_arg4)) := by
  after_results_simp <;> rfl

end Cert.KernelIdeal.Gen

end
-- ==== Proof.KI.HR3.lean ====
/-
  The stretch after the third projection: the first graph's result, the second graph's edge sources and destinations and its first weight matrix.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h3_v49 (V : Valuation τ sig (Elt F)) :
    StableHlo.after hostOps3 V (Proc.devRef .tc main_v49) = Spec.agg (V (Proc.devRef .tc main_v37)) (V (Proc.devRef .tc main_v2)) (V (Proc.devRef .tc main_v4)) (V (Proc.devRef .tc main_arg6)) := by
  after_results_simp <;> rfl

set_option maxHeartbeats 4000000 in
theorem h3_v51 (V : Valuation τ sig (Elt F)) :
    StableHlo.after hostOps3 V (Proc.devRef .tc main_v51) = Spec.edgeSrc (V (Proc.devRef .tc main_arg11)) := by
  after_results_simp <;> rfl

set_option maxHeartbeats 4000000 in
theorem h3_v53 (V : Valuation τ sig (Elt F)) :
    StableHlo.after hostOps3 V (Proc.devRef .tc main_v53) = Spec.edgeDst (V (Proc.devRef .tc main_arg11)) := by
  after_results_simp <;> rfl

set_option maxHeartbeats 4000000 in
theorem h3_v55 (V : Valuation τ sig (Elt F)) :
    StableHlo.after hostOps3 V (Proc.devRef .tc main_v55) = Spec.wt0 (V (Proc.devRef .tc main_arg5)) := by
  after_results_simp <;> rfl

end Cert.KernelIdeal.Gen

end
-- ==== Proof.KI.HR4.lean ====
/-
  The stretch after the fourth projection.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h4_v68 (V : Valuation τ sig (Elt F)) :
    StableHlo.after hostOps4 V (Proc.devRef .tc main_v68) = Spec.agg (V (Proc.devRef .tc main_v56)) (V (Proc.devRef .tc main_v51)) (V (Proc.devRef .tc main_v53)) (V (Proc.devRef .tc main_arg8)) := by
  after_results_simp <;> rfl

set_option maxHeartbeats 4000000 in
theorem h4_v70 (V : Valuation τ sig (Elt F)) :
    StableHlo.after hostOps4 V (Proc.devRef .tc main_v70) = Spec.wt1 (V (Proc.devRef .tc main_arg5)) := by
  after_results_simp <;> rfl

end Cert.KernelIdeal.Gen

end
-- ==== Proof.KI.HR5.lean ====
/-
  The stretch after the fifth projection.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h5_v83 (V : Valuation τ sig (Elt F)) :
    StableHlo.after hostOps5 V (Proc.devRef .tc main_v83) = Spec.agg (V (Proc.devRef .tc main_v71)) (V (Proc.devRef .tc main_v51)) (V (Proc.devRef .tc main_v53)) (V (Proc.devRef .tc main_arg8)) := by
  after_results_simp <;> rfl

set_option maxHeartbeats 4000000 in
theorem h5_v85 (V : Valuation τ sig (Elt F)) :
    StableHlo.after hostOps5 V (Proc.devRef .tc main_v85) = Spec.wt2 (V (Proc.devRef .tc main_arg5)) := by
  after_results_simp <;> rfl

end Cert.KernelIdeal.Gen

end
-- ==== Proof.KI.HR6.lean ====
/-
  The stretch before the gathering call: the second graph's result, the two graphs summed on the student rows and on the exercise rows, and the three arrays re-laid with a unit middle axis for the gather's blocks.
-/
import proofs.«180269_j89635967468180_1_alg».proof.Proof.Gen.KernelIdeal.Launch
import proofs.«180269_j89635967468180_1_alg».proof.Proof.KI.Spec
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

set_option maxHeartbeats 4000000 in
theorem h6_v98 (V : Valuation τ sig (Elt F)) :
    StableHlo.after hostOps6 V (Proc.devRef .tc main_v98) = Spec.agg (V (Proc.devRef .tc main_v86)) (V (Proc.devRef .tc main_v51)) (V (Proc.devRef .tc main_v53)) (V (Proc.devRef .tc main_arg8)) := by
  after_results_simp <;> rfl

set_option maxHeartbeats 4000000 in
theorem h6_v105 (V : Valuation τ sig (Elt F)) :
    StableHlo.after hostOps6 V (Proc.devRef .tc main_v105) = shapeCast S50000x1x128 (Spec.stuSum (V (Proc.devRef .tc main_v49)) (Spec.agg (V (Proc.devRef .tc main_v86)) (V (Proc.devRef .tc main_v51)) (V (Proc.devRef .tc main_v53)) (V (Proc.devRef .tc main_arg8)))) shapeCasts_S50000x128_S50000x1x128 := by
  after_results_simp <;> rfl

set_option maxHeartbeats 4000000 in
theorem h6_v106 (V : Valuation τ sig (Elt F)) :
    StableHlo.after hostOps6 V (Proc.devRef .tc main_v106) = shapeCast S20000x1x128 (Spec.exerSum (V (Proc.devRef .tc main_v49)) (Spec.agg (V (Proc.devRef .tc main_v86)) (V (Proc.devRef .tc main_v51)) (V (Proc.devRef .tc main_v53)) (V (Proc.devRef .tc main_arg8)))) shapeCasts_S20000x128_S20000x1x128 := by
  after_results_simp <;> rfl

set_option maxHeartbeats 4000000 in
theorem h6_v107 (V : Valuation τ sig (Elt F)) :
    StableHlo.after hostOps6 V (Proc.devRef .tc main_v107) = shapeCast S20000x1x1 (V (Proc.devRef .tc main_arg3)) shapeCasts_S20000x1_S20000x1x1 := by
  after_results_simp <;> rfl

end Cert.KernelIdeal.Gen

end
-- ==== Proof.KI.PayValue.lean ====
/-
  The value a projection region's body stores, read at an index, over the extended reals.

  The body reads a block `x0` of 5000 rows of the features, the whole 128 × 128 weight `x1` and the block's 5000 scales
  `x2` (a column), and stores  (x0 · x1) ∘ broadcast x2 : at row `p`, column `q` this is
  (∑ k, x0 (p, k) * x1 (k, q)) * x2 (p, 0). Over the extended reals the roundings on the way into the product are the
  identity and the product into a zero accumulator is the plain sum over the contraction index.

  Also here: the whole-array projection `projFn` of a [70000, 128] feature array, and the statement that a block's
  payload is a block of it (`block_value`), given what the three loaded blocks are.
-/
import proofs.«180269_j89635967468180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ProjValue

open Cert.KernelIdeal Cert.KernelIdeal.Gen Idealize.ShloMosaic Idealize.ShloMosaic.ValueIdx Idealize.SL.Sem

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scale column of a block, broadcast over the 128 columns. -/
theorem bcastCol (x2 : Vec Ideal S5000x1 .f32) (h : S5000x1.Broadcasts S5000x128) (p : Fin 5000) (q : Fin 128) :
    broadcastTo S5000x128 x2 h (ix2 p q) = x2 (ix2 p 0) :=
  broadcastTo_a1_ab_apply x2 h p q

/-- The left operand's row coordinate under the contraction: the result's row. -/
theorem lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column coordinate under the contraction: the contraction position. -/
theorem lhs1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row coordinate under the contraction: the contraction position. -/
theorem rhs0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column coordinate under the contraction: the result's column. -/
theorem rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 × 128 block with the 128 × 128 weight into a zero accumulator, at `(p, q)`: the sum over the
    contraction index of the products. -/
theorem matmulAt (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs0 _ _
    | ⟨1, _⟩ => exact (lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs0 _ _).trans hk
    | ⟨1, _⟩ => exact rhs1 _ _)
  rw [el, er]

/-! ## Region 0 -/

/-- The stored value of region 0's body at row `p`, column `q` of its block: the row of the feature block times the
    column of the weight, summed over the 128 contraction positions, times the row's scale. -/
theorem pay0_apply (x0 : Vec Ideal S5000x128 .f32) (x1 : Vec Ideal S128x128 .f32) (x2 : Vec Ideal S5000x1 .f32)
    (p : Fin 5000) (q : Fin 128) :
    Cert.KernelIdeal.Gen.k0_pay1 (F := Ideal) x0 x1 x2 (ix2 p q)
      = (∑ k : Fin 128, x0 (ix2 p k) * x1 (ix2 k q)) * x2 (ix2 p 0) := by
  unfold Cert.KernelIdeal.Gen.k0_pay1
  rw [mulf_apply, shapeCast_self, shapeCast_self]
  refine congrArg₂ (· * ·) ?_ (bcastCol x2 _ p q)
  exact matmulAt (truncf .bf16 x0 bitsLt_bf16_f32) (truncf .bf16 x1 bitsLt_bf16_f32) p q

/-! ## Region 1 -/

/-- The stored value of region 1's body at row `p`, column `q` of its block: the row of the feature block times the
    column of the weight, summed over the 128 contraction positions, times the row's scale. -/
theorem pay1_apply (x0 : Vec Ideal S5000x128 .f32) (x1 : Vec Ideal S128x128 .f32) (x2 : Vec Ideal S5000x1 .f32)
    (p : Fin 5000) (q : Fin 128) :
    Cert.KernelIdeal.Gen.k1_pay1 (F := Ideal) x0 x1 x2 (ix2 p q)
      = (∑ k : Fin 128, x0 (ix2 p k) * x1 (ix2 k q)) * x2 (ix2 p 0) := by
  unfold Cert.KernelIdeal.Gen.k1_pay1
  rw [mulf_apply, shapeCast_self, shapeCast_self]
  refine congrArg₂ (· * ·) ?_ (bcastCol x2 _ p q)
  exact matmulAt (truncf .bf16 x0 bitsLt_bf16_f32) (truncf .bf16 x1 bitsLt_bf16_f32) p q

/-! ## Region 2 -/

/-- The stored value of region 2's body at row `p`, column `q` of its block: the row of the feature block times the
    column of the weight, summed over the 128 contraction positions, times the row's scale. -/
theorem pay2_apply (x0 : Vec Ideal S5000x128 .f32) (x1 : Vec Ideal S128x128 .f32) (x2 : Vec Ideal S5000x1 .f32)
    (p : Fin 5000) (q : Fin 128) :
    Cert.KernelIdeal.Gen.k2_pay1 (F := Ideal) x0 x1 x2 (ix2 p q)
      = (∑ k : Fin 128, x0 (ix2 p k) * x1 (ix2 k q)) * x2 (ix2 p 0) := by
  unfold Cert.KernelIdeal.Gen.k2_pay1
  rw [mulf_apply, shapeCast_self, shapeCast_self]
  refine congrArg₂ (· * ·) ?_ (bcastCol x2 _ p q)
  exact matmulAt (truncf .bf16 x0 bitsLt_bf16_f32) (truncf .bf16 x1 bitsLt_bf16_f32) p q

/-! ## Region 3 -/

/-- The stored value of region 3's body at row `p`, column `q` of its block: the row of the feature block times the
    column of the weight, summed over the 128 contraction positions, times the row's scale. -/
theorem pay3_apply (x0 : Vec Ideal S5000x128 .f32) (x1 : Vec Ideal S128x128 .f32) (x2 : Vec Ideal S5000x1 .f32)
    (p : Fin 5000) (q : Fin 128) :
    Cert.KernelIdeal.Gen.k3_pay1 (F := Ideal) x0 x1 x2 (ix2 p q)
      = (∑ k : Fin 128, x0 (ix2 p k) * x1 (ix2 k q)) * x2 (ix2 p 0) := by
  unfold Cert.KernelIdeal.Gen.k3_pay1
  rw [mulf_apply, shapeCast_self, shapeCast_self]
  refine congrArg₂ (· * ·) ?_ (bcastCol x2 _ p q)
  exact matmulAt (truncf .bf16 x0 bitsLt_bf16_f32) (truncf .bf16 x1 bitsLt_bf16_f32) p q

/-! ## Region 4 -/

/-- The stored value of region 4's body at row `p`, column `q` of its block: the row of the feature block times the
    column of the weight, summed over the 128 contraction positions, times the row's scale. -/
theorem pay4_apply (x0 : Vec Ideal S5000x128 .f32) (x1 : Vec Ideal S128x128 .f32) (x2 : Vec Ideal S5000x1 .f32)
    (p : Fin 5000) (q : Fin 128) :
    Cert.KernelIdeal.Gen.k4_pay1 (F := Ideal) x0 x1 x2 (ix2 p q)
      = (∑ k : Fin 128, x0 (ix2 p k) * x1 (ix2 k q)) * x2 (ix2 p 0) := by
  unfold Cert.KernelIdeal.Gen.k4_pay1
  rw [mulf_apply, shapeCast_self, shapeCast_self]
  refine congrArg₂ (· * ·) ?_ (bcastCol x2 _ p q)
  exact matmulAt (truncf .bf16 x0 bitsLt_bf16_f32) (truncf .bf16 x1 bitsLt_bf16_f32) p q

/-! ## Region 5 -/

/-- The stored value of region 5's body at row `p`, column `q` of its block: the row of the feature block times the
    column of the weight, summed over the 128 contraction positions, times the row's scale. -/
theorem pay5_apply (x0 : Vec Ideal S5000x128 .f32) (x1 : Vec Ideal S128x128 .f32) (x2 : Vec Ideal S5000x1 .f32)
    (p : Fin 5000) (q : Fin 128) :
    Cert.KernelIdeal.Gen.k5_pay1 (F := Ideal) x0 x1 x2 (ix2 p q)
      = (∑ k : Fin 128, x0 (ix2 p k) * x1 (ix2 k q)) * x2 (ix2 p 0) := by
  unfold Cert.KernelIdeal.Gen.k5_pay1
  rw [mulf_apply, shapeCast_self, shapeCast_self]
  refine congrArg₂ (· * ·) ?_ (bcastCol x2 _ p q)
  exact matmulAt (truncf .bf16 x0 bitsLt_bf16_f32) (truncf .bf16 x1 bitsLt_bf16_f32) p q

/-! ## The whole-array function, and a block of it -/

theorem hz : (![0, 0] : Fin 2 → Nat) = fun _ => 0 := funext fun a => by fin_cases a <;> rfl

/-- The projection of features `A0` by the weight `A1`, each row scaled by its entry of the column `A2`. -/
def projFn (A0 : S70000x128.Idx → Elt Ideal .f32) (A1 : S128x128.Idx → Elt Ideal .f32) (A2 : S70000x1.Idx → Elt Ideal .f32) :
    S70000x128.Idx → Elt Ideal .f32 :=
  fun i => (∑ k : Fin 128, A0 (ix2 (i 0) k) * A1 (ix2 k (i 1))) * A2 (ix2 (i 0) 0)

theorem projFn_apply (A0 : S70000x128.Idx → Elt Ideal .f32) (A1 : S128x128.Idx → Elt Ideal .f32) (A2 : S70000x1.Idx → Elt Ideal .f32)
    (r : Fin 70000) (q : Fin 128) :
    projFn A0 A1 A2 (ix2 r q) = (∑ k : Fin 128, A0 (ix2 r k) * A1 (ix2 k q)) * A2 (ix2 r 0) := rfl

/-- A block's payload is the block of the projection: when the three loaded blocks are rows `5000 T …` of the features,
    the whole weight and rows `5000 T …` of the scale column, the payload at `j` is the projection at row
    `5000 T + j 0`, column `j 1`. -/
theorem block_value (pay : Vec Ideal S5000x128 .f32 → Vec Ideal S128x128 .f32 → Vec Ideal S5000x1 .f32 → FVec Ideal S5000x128 .f32)
    (hpay : ∀ (x0 : Vec Ideal S5000x128 .f32) (x1 : Vec Ideal S128x128 .f32) (x2 : Vec Ideal S5000x1 .f32) (p : Fin 5000) (q : Fin 128),
      pay x0 x1 x2 (ix2 p q) = (∑ k : Fin 128, x0 (ix2 p k) * x1 (ix2 k q)) * x2 (ix2 p 0))
    (A0 : S70000x128.Idx → Elt Ideal .f32) (A1 : S128x128.Idx → Elt Ideal .f32) (A2 : S70000x1.Idx → Elt Ideal .f32)
    (x0 : Vec Ideal S5000x128 .f32) (x1 : Vec Ideal S128x128 .f32) (x2 : Vec Ideal S5000x1 .f32) (T : ℕ)
    (h0 : ∀ (y : S5000x128.Idx) (i : S70000x128.Idx), (i 0).val = T * 5000 + (y 0).val → (i 1).val = (y 1).val → x0 y = A0 i)
    (h1 : ∀ y : S128x128.Idx, x1 y = A1 y)
    (h2 : ∀ (y : S5000x1.Idx) (i : S70000x1.Idx), (i 0).val = T * 5000 + (y 0).val → x2 y = A2 i)
    (j : S5000x128.Idx) (i : S70000x128.Idx) (hi0 : (i 0).val = T * 5000 + (j 0).val) (hi1 : (i 1).val = (j 1).val) :
    pay x0 x1 x2 j = projFn A0 A1 A2 i := by
  obtain ⟨p, q, rfl⟩ : ∃ (p : Fin 5000) (q : Fin 128), j = ix2 p q := ⟨j 0, j 1, eq_ix2 j⟩
  obtain ⟨r, q', rfl⟩ : ∃ (r : Fin 70000) (q' : Fin 128), i = ix2 r q' := ⟨i 0, i 1, eq_ix2 i⟩
  obtain rfl : q' = q := Fin.ext hi1
  have hr : r.val = T * 5000 + p.val := hi0
  rw [hpay, projFn_apply, h2 (ix2 p 0) (ix2 r 0) hr]
  refine congrArg (· * A2 (ix2 r 0)) (Finset.sum_congr rfl fun k _ => ?_)
  rw [h0 (ix2 p k) (ix2 r k) hr rfl, h1]

end Cert.KernelIdeal.ProjValue
-- ==== Proof.KI.ProjArray.lean ====
/-
  The array projection region 0 leaves, as one function of the arrays it reads, over the extended reals.

  The region's grid has 14 points; point `t` reads rows `5000 t … 5000 t + 4999` of the features [70000, 128] and of the
  scale column [70000, 1], the whole weight [128, 128], and writes back rows `5000 t … 5000 t + 4999` of the output
  [70000, 128]: the block's payload. The 14 blocks tile the output, row `r` falling in point `r / 5000`'s, so the output
  ends holding, at `(r, q)`,  (∑ k, feat (r, k) * W (k, q)) * cj (r, 0).
-/
import proofs.«180269_j89635967468180_1_alg».proof.Proof.KI.Proj0
import proofs.«180269_j89635967468180_1_alg».proof.Proof.KI.PayValue
import Idealize.ShloMosaic.Lib.Pipeline.Value
import Idealize.ShloMosaic.Lib.ValueIdx
import Idealize.ShloMosaic.Lib.Tactic

noncomputable section

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)
/-! ## Region 0 -/

section Region0
-- the core's buffer contents when the region is entered
variable (V : (c : Dev nD) → (b : Ref sig .tc) → Buf (Elt Ideal) ((c : Thread nD τ).loc b))

/-- The printed index maps, decided over the 14 grid points: the feature, scale and output windows sit at block row
    `t`, block column `0`; the weight's window at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `5000 t … 5000 t + 4999` of its array. -/
theorem iblk0_0_apply (c : Dev nD) (t : Fin cfg0.N) (y : S5000x128.Idx) (i : S70000x128.Idx)
    (h0 : (i 0).val = t.val * 5000 + (y 0).val) (h1 : (i 1).val = (y 1).val) :
    (iblk0 V c 0 t : Vec Ideal S5000x128 .f32) y = (V c (Pipeline.arrRef spec0 0) : S70000x128.Idx → Elt Ideal .f32) i := by
  obtain ⟨e0, e1, -⟩ := idx_facts0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's one block is its whole array. -/
theorem iblk0_1_apply (c : Dev nD) (t : Fin cfg0.N) (y : S128x128.Idx) :
    (iblk0 V c 1 t : Vec Ideal S128x128 .f32) y = (V c (Pipeline.arrRef spec0 1) : S128x128.Idx → Elt Ideal .f32) y := by
  obtain ⟨-, -, e0, e1, -⟩ := idx_facts0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The scale window's block at point `t` is rows `5000 t … 5000 t + 4999` of the scale column. -/
theorem iblk0_2_apply (c : Dev nD) (t : Fin cfg0.N) (y : S5000x1.Idx) (i : S70000x1.Idx)
    (h0 : (i 0).val = t.val * 5000 + (y 0).val) :
    (iblk0 V c 2 t : Vec Ideal S5000x1 .f32) y = (V c (Pipeline.arrRef spec0 2) : S70000x1.Idx → Elt Ideal .f32) i := by
  obtain ⟨-, -, -, -, e0, e1, -⟩ := idx_facts0 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 5000 + 1 * (y 0).val = (i 0).val; rw [e0, h0]; omega
  | ⟨1, _⟩ =>
    show win0_2.index t (1 : Fin 2) * 1 + 1 * (y 1).val = (i 1).val
    have hy : (y 1).val < 1 := (y 1).isLt
    have hi : (i 1).val < 1 := (i 1).isLt
    rw [e1]; omega

/-- What point `t` writes back is block `t` of the projection of the region's three arrays. -/
theorem flushed0_eq (c : Dev nD) (t : Fin cfg0.N) :
    (dat0 V c).flushed 3 t = ((cfg0.win 3).blk t).view.read (Elt Ideal)
      (projFn (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts0 t
  funext j
  show k0_pay1 (F := Ideal) (iblk0 V c 0 t) (iblk0 V c 1 t) (iblk0 V c 2 t) j = projFn _ _ _ (((cfg0.win 3).blk t).view.emb j)
  refine block_value (k0_pay1 (F := Ideal)) pay0_apply _ _ _ _ _ _ t.val (iblk0_0_apply V c t) (iblk0_1_apply V c t) (iblk0_2_apply V c t) j _ ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- An index of the output's array is in point `t`'s block iff each coordinate is in the block's range on its axis. -/
theorem mem_blk0 (t : Fin cfg0.N) (i : S70000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Every index of the output's array is in the block of the point its row falls in: row `r` in point `r / 5000`'s. -/
theorem cover0 (i : S70000x128.Idx) :
    ∃ t : Fin cfg0.N, (cfg0.win 3).flush t = true ∧ i ∈ ((cfg0.win 3).blk t).view.set := by
  have hi0 : (i 0).val < 70000 := (i 0).isLt
  have hi1 : (i 1).val < 128 := (i 1).isLt
  have hN : cfg0.N = 14 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The output's array after the region: the projection of the region's three arrays as the region finds them. -/
theorem final0 (c : Dev nD) : (dat0 V c).arrAt 3 cfg0.N
    = projFn (V c (Pipeline.arrRef spec0 0)) (V c (Pipeline.arrRef spec0 1)) (V c (Pipeline.arrRef spec0 2)) :=
  (dat0 V c).arrAt_eq_of_cover 3 _ (fun t _ => flushed0_eq V c t) cover0

end Region0

end Cert.KernelIdeal.ProjValue
-- ==== Proof.KI.ProjArray1.lean ====
/-
  The array projection region 1 leaves, as one function of the arrays it reads, over the extended reals.

  The region's grid has 14 points; point `t` reads rows `5000 t … 5000 t + 4999` of the features [70000, 128] and of the
  scale column [70000, 1], the whole weight [128, 128], and writes back rows `5000 t … 5000 t + 4999` of the output
  [70000, 128]: the block's payload. The 14 blocks tile the output, row `r` falling in point `r / 5000`'s, so the output
  ends holding, at `(r, q)`,  (∑ k, feat (r, k) * W (k, q)) * cj (r, 0).
-/
import proofs.«180269_j89635967468180_1_alg».proof.Proof.KI.Proj1
import proofs.«180269_j89635967468180_1_alg».proof.Proof.KI.PayValue
import Idealize.ShloMosaic.Lib.Pipeline.Value
import Idealize.ShloMosaic.Lib.ValueIdx
import Idealize.ShloMosaic.Lib.Tactic

noncomputable section

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)
/-! ## Region 1 -/

section Region1
-- the core's buffer contents when the region is entered
variable (V : (c : Dev nD) → (b : Ref sig .tc) → Buf (Elt Ideal) ((c : Thread nD τ).loc b))

/-- The printed index maps, decided over the 14 grid points: the feature, scale and output windows sit at block row
    `t`, block column `0`; the weight's window at block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The feature window's block at point `t` is rows `5000 t … 5000 t + 4999` of its array. -/
theorem iblk1_0_apply (c : Dev nD) (t : Fin cfg1.N) (y : S5000x128.Idx) (i : S70000x128.Idx)
    (h0 : (i 0).val = t.val * 5000 + (y 0).val) (h1 : (i 1).val = (y 1).val) :
    (iblk1 V c 0 t : Vec Ideal S5000x128 .f32) y = (V c (Pipeline.arrRef spec1 0) : S70000x128.Idx → Elt Ideal .f32) i := by
  obtain ⟨e0, e1, -⟩ := idx_facts1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight window's one block is its whole array. -/
theorem iblk1_1_apply (c : Dev nD) (t : Fin cfg1.N) (y : S128x128.Idx) :
    (iblk1 V c 1 t : Vec Ideal S128x128 .f32) y = (V c (Pipeline.arrRef spec1 1) : S128x128.Idx → Elt Ideal .f32) y := by
  obtain ⟨-, -, e0, e1, -⟩ := idx_facts1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The scale window's block at point `t` is rows `5000 t … 5000 t + 4999` of the scale column. -/
theorem iblk1_2_apply (c : Dev nD) (t : Fin cfg1.N) (y : S5000x1.Idx) (i : S70000x1.Idx)
    (h0 : (i 0).val = t.val * 5000 + (y 0).val) :
    (iblk1 V c 2 t : Vec Ideal S5000x1 .f32) y = (V c (Pipeline.arrRef spec1 2) : S70000x1.Idx → Elt Ideal .f32) i := by
  obtain ⟨-, -, -, -, e0, e1, -⟩ := idx_facts1 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 5000 + 1 * (y 0).val = (i 0).val; rw [e0, h0]; omega
  | ⟨1, _⟩ =>
    show win1_2.index t (1 : Fin 2) * 1 + 1 * (y 1).val = (i 1).val
    have hy : (y 1).val < 1 := (y 1).isLt
    have hi : (i 1).val < 1 := (i 1).isLt
    rw [e1]; omega

/-- What point `t` writes back is block `t` of the projection of the region's three arrays. -/
theorem flushed1_eq (c : Dev nD) (t : Fin cfg1.N) :
    (dat1 V c).flushed 3 t = ((cfg1.win 3).blk t).view.read (Elt Ideal)
      (projFn (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts1 t
  funext j
  show k1_pay1 (F := Ideal) (iblk1 V c 0 t) (iblk1 V c 1 t) (iblk1 V c 2 t) j = projFn _ _ _ (((cfg1.win 3).blk t).view.emb j)
  refine block_value (k1_pay1 (F := Ideal)) pay1_apply _ _ _ _ _ _ t.val (iblk1_0_apply V c t) (iblk1_1_apply V c t) (iblk1_2_apply V c t) j _ ?_ ?_
  · show win1_3.index t (0 : Fin 2) * 5000 + 1 * (j 0).val = t.val * 5000 + (j 0).val; rw [e0]; omega
  · show win1_3.index t (1 : Fin 2) * 128 + 1 * (j 1).val = (j 1).val; rw [e1]; omega

/-- An index of the output's array is in point `t`'s block iff each coordinate is in the block's range on its axis. -/
theorem mem_blk1 (t : Fin cfg1.N) (i : S70000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Every index of the output's array is in the block of the point its row falls in: row `r` in point `r / 5000`'s. -/
theorem cover1 (i : S70000x128.Idx) :
    ∃ t : Fin cfg1.N, (cfg1.win 3).flush t = true ∧ i ∈ ((cfg1.win 3).blk t).view.set := by
  have hi0 : (i 0).val < 70000 := (i 0).isLt
  have hi1 : (i 1).val < 128 := (i 1).isLt
  have hN : cfg1.N = 14 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 128 ≤ (i 1).val ∧ (i 1).val < win1_3.index t (1 : Fin 2) * 128 + 128; rw [e1]; omega

/-- The output's array after the region: the projection of the region's three arrays as the region finds them. -/
theorem final1 (c : Dev nD) : (dat1 V c).arrAt 3 cfg1.N
    = projFn (V c (Pipeline.arrRef spec1 0)) (V c (Pipeline.arrRef spec1 1)) (V c (Pipeline.arrRef spec1 2)) :=
  (dat1 V c).arrAt_eq_of_cover 3 _ (fun t _ => flushed1_eq V c t) cover1

end Region1

end Cert.KernelIdeal.ProjValue
-- ==== Proof.KI.ProjArray2.lean ====
/-
  The array projection region 2 leaves, as one function of the arrays it reads, over the extended reals.

  The region's grid has 14 points; point `t` reads rows `5000 t … 5000 t + 4999` of the features [70000, 128] and of the
  scale column [70000, 1], the whole weight [128, 128], and writes back rows `5000 t … 5000 t + 4999` of the output
  [70000, 128]: the block's payload. The 14 blocks tile the output, row `r` falling in point `r / 5000`'s, so the output
  ends holding, at `(r, q)`,  (∑ k, feat (r, k) * W (k, q)) * cj (r, 0).
-/
import proofs.«180269_j89635967468180_1_alg».proof.Proof.KI.Proj2
import proofs.«180269_j89635967468180_1_alg».proof.Proof.KI.PayValue
import Idealize.ShloMosaic.Lib.Pipeline.Value
import Idealize.ShloMosaic.Lib.ValueIdx
import Idealize.ShloMosaic.Lib.Tactic

noncomputable section

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)
/-! ## Region 2 -/

section Region2
-- the core's buffer contents when the region is entered
variable (V : (c : Dev nD) → (b : Ref sig .tc) → Buf (Elt Ideal) ((c : Thread nD τ).loc b))

/-- The printed index maps, decided over the 14 grid points: the feature, scale and output windows sit at block row
    `t`, block column `0`; the weight's window at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The feature window's block at point `t` is rows `5000 t … 5000 t + 4999` of its array. -/
theorem iblk2_0_apply (c : Dev nD) (t : Fin cfg2.N) (y : S5000x128.Idx) (i : S70000x128.Idx)
    (h0 : (i 0).val = t.val * 5000 + (y 0).val) (h1 : (i 1).val = (y 1).val) :
    (iblk2 V c 0 t : Vec Ideal S5000x128 .f32) y = (V c (Pipeline.arrRef spec2 0) : S70000x128.Idx → Elt Ideal .f32) i := by
  obtain ⟨e0, e1, -⟩ := idx_facts2 t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight window's one block is its whole array. -/
theorem iblk2_1_apply (c : Dev nD) (t : Fin cfg2.N) (y : S128x128.Idx) :
    (iblk2 V c 1 t : Vec Ideal S128x128 .f32) y = (V c (Pipeline.arrRef spec2 1) : S128x128.Idx → Elt Ideal .f32) y := by
  obtain ⟨-, -, e0, e1, -⟩ := idx_facts2 t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The scale window's block at point `t` is rows `5000 t … 5000 t + 4999` of the scale column. -/
theorem iblk2_2_apply (c : Dev nD) (t : Fin cfg2.N) (y : S5000x1.Idx) (i : S70000x1.Idx)
    (h0 : (i 0).val = t.val * 5000 + (y 0).val) :
    (iblk2 V c 2 t : Vec Ideal S5000x1 .f32) y = (V c (Pipeline.arrRef spec2 2) : S70000x1.Idx → Elt Ideal .f32) i := by
  obtain ⟨-, -, -, -, e0, e1, -⟩ := idx_facts2 t
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 5000 + 1 * (y 0).val = (i 0).val; rw [e0, h0]; omega
  | ⟨1, _⟩ =>
    show win2_2.index t (1 : Fin 2) * 1 + 1 * (y 1).val = (i 1).val
    have hy : (y 1).val < 1 := (y 1).isLt
    have hi : (i 1).val < 1 := (i 1).isLt
    rw [e1]; omega

/-- What point `t` writes back is block `t` of the projection of the region's three arrays. -/
theorem flushed2_eq (c : Dev nD) (t : Fin cfg2.N) :
    (dat2 V c).flushed 3 t = ((cfg2.win 3).blk t).view.read (Elt Ideal)
      (projFn (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts2 t
  funext j
  show k2_pay1 (F := Ideal) (iblk2 V c 0 t) (iblk2 V c 1 t) (iblk2 V c 2 t) j = projFn _ _ _ (((cfg2.win 3).blk t).view.emb j)
  refine block_value (k2_pay1 (F := Ideal)) pay2_apply _ _ _ _ _ _ t.val (iblk2_0_apply V c t) (iblk2_1_apply V c t) (iblk2_2_apply V c t) j _ ?_ ?_
  · show win2_3.index t (0 : Fin 2) * 5000 + 1 * (j 0).val = t.val * 5000 + (j 0).val; rw [e0]; omega
  · show win2_3.index t (1 : Fin 2) * 128 + 1 * (j 1).val = (j 1).val; rw [e1]; omega

/-- An index of the output's array is in point `t`'s block iff each coordinate is in the block's range on its axis. -/
theorem mem_blk2 (t : Fin cfg2.N) (i : S70000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Every index of the output's array is in the block of the point its row falls in: row `r` in point `r / 5000`'s. -/
theorem cover2 (i : S70000x128.Idx) :
    ∃ t : Fin cfg2.N, (cfg2.win 3).flush t = true ∧ i ∈ ((cfg2.win 3).blk t).view.set := by
  have hi0 : (i 0).val < 70000 := (i 0).isLt
  have hi1 : (i 1).val < 128 := (i 1).isLt
  have hN : cfg2.N = 14 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 128 ≤ (i 1).val ∧ (i 1).val < win2_3.index t (1 : Fin 2) * 128 + 128; rw [e1]; omega

/-- The output's array after the region: the projection of the region's three arrays as the region finds them. -/
theorem final2 (c : Dev nD) : (dat2 V c).arrAt 3 cfg2.N
    = projFn (V c (Pipeline.arrRef spec2 0)) (V c (Pipeline.arrRef spec2 1)) (V c (Pipeline.arrRef spec2 2)) :=
  (dat2 V c).arrAt_eq_of_cover 3 _ (fun t _ => flushed2_eq V c t) cover2

end Region2

end Cert.KernelIdeal.ProjValue
-- ==== Proof.KI.ProjArray3.lean ====
/-
  The array projection region 3 leaves, as one function of the arrays it reads, over the extended reals.

  The region's grid has 14 points; point `t` reads rows `5000 t … 5000 t + 4999` of the features [70000, 128] and of the
  scale column [70000, 1], the whole weight [128, 128], and writes back rows `5000 t … 5000 t + 4999` of the output
  [70000, 128]: the block's payload. The 14 blocks tile the output, row `r` falling in point `r / 5000`'s, so the output
  ends holding, at `(r, q)`,  (∑ k, feat (r, k) * W (k, q)) * cj (r, 0).
-/
import proofs.«180269_j89635967468180_1_alg».proof.Proof.KI.Proj3
import proofs.«180269_j89635967468180_1_alg».proof.Proof.KI.PayValue
import Idealize.ShloMosaic.Lib.Pipeline.Value
import Idealize.ShloMosaic.Lib.ValueIdx
import Idealize.ShloMosaic.Lib.Tactic

noncomputable section

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)
/-! ## Region 3 -/

section Region3
-- the core's buffer contents when the region is entered
variable (V : (c : Dev nD) → (b : Ref sig .tc) → Buf (Elt Ideal) ((c : Thread nD τ).loc b))

/-- The printed index maps, decided over the 14 grid points: the feature, scale and output windows sit at block row
    `t`, block column `0`; the weight's window at block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The feature window's block at point `t` is rows `5000 t … 5000 t + 4999` of its array. -/
theorem iblk3_0_apply (c : Dev nD) (t : Fin cfg3.N) (y : S5000x128.Idx) (i : S70000x128.Idx)
    (h0 : (i 0).val = t.val * 5000 + (y 0).val) (h1 : (i 1).val = (y 1).val) :
    (iblk3 V c 0 t : Vec Ideal S5000x128 .f32) y = (V c (Pipeline.arrRef spec3 0) : S70000x128.Idx → Elt Ideal .f32) i := by
  obtain ⟨e0, e1, -⟩ := idx_facts3 t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weight window's one block is its whole array. -/
theorem iblk3_1_apply (c : Dev nD) (t : Fin cfg3.N) (y : S128x128.Idx) :
    (iblk3 V c 1 t : Vec Ideal S128x128 .f32) y = (V c (Pipeline.arrRef spec3 1) : S128x128.Idx → Elt Ideal .f32) y := by
  obtain ⟨-, -, e0, e1, -⟩ := idx_facts3 t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- The scale window's block at point `t` is rows `5000 t … 5000 t + 4999` of the scale column. -/
theorem iblk3_2_apply (c : Dev nD) (t : Fin cfg3.N) (y : S5000x1.Idx) (i : S70000x1.Idx)
    (h0 : (i 0).val = t.val * 5000 + (y 0).val) :
    (iblk3 V c 2 t : Vec Ideal S5000x1 .f32) y = (V c (Pipeline.arrRef spec3 2) : S70000x1.Idx → Elt Ideal .f32) i := by
  obtain ⟨-, -, -, -, e0, e1, -⟩ := idx_facts3 t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 5000 + 1 * (y 0).val = (i 0).val; rw [e0, h0]; omega
  | ⟨1, _⟩ =>
    show win3_2.index t (1 : Fin 2) * 1 + 1 * (y 1).val = (i 1).val
    have hy : (y 1).val < 1 := (y 1).isLt
    have hi : (i 1).val < 1 := (i 1).isLt
    rw [e1]; omega

/-- What point `t` writes back is block `t` of the projection of the region's three arrays. -/
theorem flushed3_eq (c : Dev nD) (t : Fin cfg3.N) :
    (dat3 V c).flushed 3 t = ((cfg3.win 3).blk t).view.read (Elt Ideal)
      (projFn (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts3 t
  funext j
  show k3_pay1 (F := Ideal) (iblk3 V c 0 t) (iblk3 V c 1 t) (iblk3 V c 2 t) j = projFn _ _ _ (((cfg3.win 3).blk t).view.emb j)
  refine block_value (k3_pay1 (F := Ideal)) pay3_apply _ _ _ _ _ _ t.val (iblk3_0_apply V c t) (iblk3_1_apply V c t) (iblk3_2_apply V c t) j _ ?_ ?_
  · show win3_3.index t (0 : Fin 2) * 5000 + 1 * (j 0).val = t.val * 5000 + (j 0).val; rw [e0]; omega
  · show win3_3.index t (1 : Fin 2) * 128 + 1 * (j 1).val = (j 1).val; rw [e1]; omega

/-- An index of the output's array is in point `t`'s block iff each coordinate is in the block's range on its axis. -/
theorem mem_blk3 (t : Fin cfg3.N) (i : S70000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

/-- Every index of the output's array is in the block of the point its row falls in: row `r` in point `r / 5000`'s. -/
theorem cover3 (i : S70000x128.Idx) :
    ∃ t : Fin cfg3.N, (cfg3.win 3).flush t = true ∧ i ∈ ((cfg3.win 3).blk t).view.set := by
  have hi0 : (i 0).val < 70000 := (i 0).isLt
  have hi1 : (i 1).val < 128 := (i 1).isLt
  have hN : cfg3.N = 14 := N_3
  obtain ⟨t, ht⟩ : ∃ t : Fin cfg3.N, t.val = (i 0).val / 5000 := ⟨⟨(i 0).val / 5000, by rw [hN]; omega⟩, rfl⟩
  obtain ⟨-, -, -, -, -, -, e0, e1⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-- The output's array after the region: the projection of the region's three arrays as the region finds them. -/
theorem final3 (c : Dev nD) : (dat3 V c).arrAt 3 cfg3.N
    = projFn (V c (Pipeline.arrRef spec3 0)) (V c (Pipeline.arrRef spec3 1)) (V c (Pipeline.arrRef spec3 2)) :=
  (dat3 V c).arrAt_eq_of_cover 3 _ (fun t _ => flushed3_eq V c t) cover3

end Region3

end Cert.KernelIdeal.ProjValue
-- ==== Proof.KI.ProjArray4.lean ====
/-
  The array projection region 4 leaves, as one function of the arrays it reads, over the extended reals.

  The region's grid has 14 points; point `t` reads rows `5000 t … 5000 t + 4999` of the features [70000, 128] and of the
  scale column [70000, 1], the whole weight [128, 128], and writes back rows `5000 t … 5000 t + 4999` of the output
  [70000, 128]: the block's payload. The 14 blocks tile the output, row `r` falling in point `r / 5000`'s, so the output
  ends holding, at `(r, q)`,  (∑ k, feat (r, k) * W (k, q)) * cj (r, 0).
-/
import proofs.«180269_j89635967468180_1_alg».proof.Proof.KI.Proj4
import proofs.«180269_j89635967468180_1_alg».proof.Proof.KI.PayValue
import Idealize.ShloMosaic.Lib.Pipeline.Value
import Idealize.ShloMosaic.Lib.ValueIdx
import Idealize.ShloMosaic.Lib.Tactic

noncomputable section

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)
/-! ## Region 4 -/

section Region4
-- the core's buffer contents when the region is entered
variable (V : (c : Dev nD) → (b : Ref sig .tc) → Buf (Elt Ideal) ((c : Thread nD τ).loc b))

/-- The printed index maps, decided over the 14 grid points: the feature, scale and output windows sit at block row
    `t`, block column `0`; the weight's window at block `(0, 0)`. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The feature window's block at point `t` is rows `5000 t … 5000 t + 4999` of its array. -/
theorem iblk4_0_apply (c : Dev nD) (t : Fin cfg4.N) (y : S5000x128.Idx) (i : S70000x128.Idx)
    (h0 : (i 0).val = t.val * 5000 + (y 0).val) (h1 : (i 1).val = (y 1).val) :
    (iblk4 V c 0 t : Vec Ideal S5000x128 .f32) y = (V c (Pipeline.arrRef spec4 0) : S70000x128.Idx → Elt Ideal .f32) i := by
  obtain ⟨e0, e1, -⟩ := idx_facts4 t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The weight window's one block is its whole array. -/
theorem iblk4_1_apply (c : Dev nD) (t : Fin cfg4.N) (y : S128x128.Idx) :
    (iblk4 V c 1 t : Vec Ideal S128x128 .f32) y = (V c (Pipeline.arrRef spec4 1) : S128x128.Idx → Elt Ideal .f32) y := by
  obtain ⟨-, -, e0, e1, -⟩ := idx_facts4 t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- The scale window's block at point `t` is rows `5000 t … 5000 t + 4999` of the scale column. -/
theorem iblk4_2_apply (c : Dev nD) (t : Fin cfg4.N) (y : S5000x1.Idx) (i : S70000x1.Idx)
    (h0 : (i 0).val = t.val * 5000 + (y 0).val) :
    (iblk4 V c 2 t : Vec Ideal S5000x1 .f32) y = (V c (Pipeline.arrRef spec4 2) : S70000x1.Idx → Elt Ideal .f32) i := by
  obtain ⟨-, -, -, -, e0, e1, -⟩ := idx_facts4 t
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 5000 + 1 * (y 0).val = (i 0).val; rw [e0, h0]; omega
  | ⟨1, _⟩ =>
    show win4_2.index t (1 : Fin 2) * 1 + 1 * (y 1).val = (i 1).val
    have hy : (y 1).val < 1 := (y 1).isLt
    have hi : (i 1).val < 1 := (i 1).isLt
    rw [e1]; omega

/-- What point `t` writes back is block `t` of the projection of the region's three arrays. -/
theorem flushed4_eq (c : Dev nD) (t : Fin cfg4.N) :
    (dat4 V c).flushed 3 t = ((cfg4.win 3).blk t).view.read (Elt Ideal)
      (projFn (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts4 t
  funext j
  show k4_pay1 (F := Ideal) (iblk4 V c 0 t) (iblk4 V c 1 t) (iblk4 V c 2 t) j = projFn _ _ _ (((cfg4.win 3).blk t).view.emb j)
  refine block_value (k4_pay1 (F := Ideal)) pay4_apply _ _ _ _ _ _ t.val (iblk4_0_apply V c t) (iblk4_1_apply V c t) (iblk4_2_apply V c t) j _ ?_ ?_
  · show win4_3.index t (0 : Fin 2) * 5000 + 1 * (j 0).val = t.val * 5000 + (j 0).val; rw [e0]; omega
  · show win4_3.index t (1 : Fin 2) * 128 + 1 * (j 1).val = (j 1).val; rw [e1]; omega

/-- An index of the output's array is in point `t`'s block iff each coordinate is in the block's range on its axis. -/
theorem mem_blk4 (t : Fin cfg4.N) (i : S70000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole (Pipeline.arrRef spec4 3)).slice (win4_3.rect t)).set ↔ _
  rw [View.set_slice_whole, Rect.mem_set_unit]
  exact Iff.rfl

/-- Every index of the output's array is in the block of the point its row falls in: row `r` in point `r / 5000`'s. -/
theorem cover4 (i : S70000x128.Idx) :
    ∃ t : Fin cfg4.N, (cfg4.win 3).flush t = true ∧ i ∈ ((cfg4.win 3).blk t).view.set := by
  have hi0 : (i 0).val < 70000 := (i 0).isLt
  have hi1 : (i 1).val < 128 := (i 1).isLt
  have hN : cfg4.N = 14 := N_4
  obtain ⟨t, ht⟩ : ∃ t : Fin cfg4.N, t.val = (i 0).val / 5000 := ⟨⟨(i 0).val / 5000, by rw [hN]; omega⟩, rfl⟩
  obtain ⟨-, -, -, -, -, -, e0, e1⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 128 ≤ (i 1).val ∧ (i 1).val < win4_3.index t (1 : Fin 2) * 128 + 128; rw [e1]; omega

/-- The output's array after the region: the projection of the region's three arrays as the region finds them. -/
theorem final4 (c : Dev nD) : (dat4 V c).arrAt 3 cfg4.N
    = projFn (V c (Pipeline.arrRef spec4 0)) (V c (Pipeline.arrRef spec4 1)) (V c (Pipeline.arrRef spec4 2)) :=
  (dat4 V c).arrAt_eq_of_cover 3 _ (fun t _ => flushed4_eq V c t) cover4

end Region4

end Cert.KernelIdeal.ProjValue
-- ==== Proof.KI.ProjArray5.lean ====
/-
  The array projection region 5 leaves, as one function of the arrays it reads, over the extended reals.

  The region's grid has 14 points; point `t` reads rows `5000 t … 5000 t + 4999` of the features [70000, 128] and of the
  scale column [70000, 1], the whole weight [128, 128], and writes back rows `5000 t … 5000 t + 4999` of the output
  [70000, 128]: the block's payload. The 14 blocks tile the output, row `r` falling in point `r / 5000`'s, so the output
  ends holding, at `(r, q)`,  (∑ k, feat (r, k) * W (k, q)) * cj (r, 0).
-/
import proofs.«180269_j89635967468180_1_alg».proof.Proof.KI.Proj5
import proofs.«180269_j89635967468180_1_alg».proof.Proof.KI.PayValue
import Idealize.ShloMosaic.Lib.Pipeline.Value
import Idealize.ShloMosaic.Lib.ValueIdx
import Idealize.ShloMosaic.Lib.Tactic

noncomputable section

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat)
/-! ## Region 5 -/

section Region5
-- the core's buffer contents when the region is entered
variable (V : (c : Dev nD) → (b : Ref sig .tc) → Buf (Elt Ideal) ((c : Thread nD τ).loc b))

/-- The printed index maps, decided over the 14 grid points: the feature, scale and output windows sit at block row
    `t`, block column `0`; the weight's window at block `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The feature window's block at point `t` is rows `5000 t … 5000 t + 4999` of its array. -/
theorem iblk5_0_apply (c : Dev nD) (t : Fin cfg5.N) (y : S5000x128.Idx) (i : S70000x128.Idx)
    (h0 : (i 0).val = t.val * 5000 + (y 0).val) (h1 : (i 1).val = (y 1).val) :
    (iblk5 V c 0 t : Vec Ideal S5000x128 .f32) y = (V c (Pipeline.arrRef spec5 0) : S70000x128.Idx → Elt Ideal .f32) i := by
  obtain ⟨e0, e1, -⟩ := idx_facts5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- The weight window's one block is its whole array. -/
theorem iblk5_1_apply (c : Dev nD) (t : Fin cfg5.N) (y : S128x128.Idx) :
    (iblk5 V c 1 t : Vec Ideal S128x128 .f32) y = (V c (Pipeline.arrRef spec5 1) : S128x128.Idx → Elt Ideal .f32) y := by
  obtain ⟨-, -, e0, e1, -⟩ := idx_facts5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 128 + 1 * (y 0).val = (y 0).val; rw [e0]; omega
  | ⟨1, _⟩ => show win5_1.index t (1 : Fin 2) * 128 + 1 * (y 1).val = (y 1).val; rw [e1]; omega

/-- The scale window's block at point `t` is rows `5000 t … 5000 t + 4999` of the scale column. -/
theorem iblk5_2_apply (c : Dev nD) (t : Fin cfg5.N) (y : S5000x1.Idx) (i : S70000x1.Idx)
    (h0 : (i 0).val = t.val * 5000 + (y 0).val) :
    (iblk5 V c 2 t : Vec Ideal S5000x1 .f32) y = (V c (Pipeline.arrRef spec5 2) : S70000x1.Idx → Elt Ideal .f32) i := by
  obtain ⟨-, -, -, -, e0, e1, -⟩ := idx_facts5 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 5000 + 1 * (y 0).val = (i 0).val; rw [e0, h0]; omega
  | ⟨1, _⟩ =>
    show win5_2.index t (1 : Fin 2) * 1 + 1 * (y 1).val = (i 1).val
    have hy : (y 1).val < 1 := (y 1).isLt
    have hi : (i 1).val < 1 := (i 1).isLt
    rw [e1]; omega

/-- What point `t` writes back is block `t` of the projection of the region's three arrays. -/
theorem flushed5_eq (c : Dev nD) (t : Fin cfg5.N) :
    (dat5 V c).flushed 3 t = ((cfg5.win 3).blk t).view.read (Elt Ideal)
      (projFn (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts5 t
  funext j
  show k5_pay1 (F := Ideal) (iblk5 V c 0 t) (iblk5 V c 1 t) (iblk5 V c 2 t) j = projFn _ _ _ (((cfg5.win 3).blk t).view.emb j)
  refine block_value (k5_pay1 (F := Ideal)) pay5_apply _ _ _ _ _ _ t.val (iblk5_0_apply V c t) (iblk5_1_apply V c t) (iblk5_2_apply V c t) j _ ?_ ?_
  · show win5_3.index t (0 : Fin 2) * 5000 + 1 * (j 0).val = t.val * 5000 + (j 0).val; rw [e0]; omega
  · show win5_3.index t (1 : Fin 2) * 128 + 1 * (j 1).val = (j 1).val; rw [e1]; omega

/-- An index of the output's array is in point `t`'s block iff each coordinate is in the block's range on its axis. -/
theorem mem_blk5 (t : Fin cfg5.N) (i : S70000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

/-- Every index of the output's array is in the block of the point its row falls in: row `r` in point `r / 5000`'s. -/
theorem cover5 (i : S70000x128.Idx) :
    ∃ t : Fin cfg5.N, (cfg5.win 3).flush t = true ∧ i ∈ ((cfg5.win 3).blk t).view.set := by
  have hi0 : (i 0).val < 70000 := (i 0).isLt
  have hi1 : (i 1).val < 128 := (i 1).isLt
  have hN : cfg5.N = 14 := N_5
  obtain ⟨t, ht⟩ : ∃ t : Fin cfg5.N, t.val = (i 0).val / 5000 := ⟨⟨(i 0).val / 5000, by rw [hN]; omega⟩, rfl⟩
  obtain ⟨-, -, -, -, -, -, e0, e1⟩ := idx_facts5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e0, ht]; omega
  | ⟨1, _⟩ => show win5_3.index t (1 : Fin 2) * 128 ≤ (i 1).val ∧ (i 1).val < win5_3.index t (1 : Fin 2) * 128 + 128; rw [e1]; omega

/-- The output's array after the region: the projection of the region's three arrays as the region finds them. -/
theorem final5 (c : Dev nD) : (dat5 V c).arrAt 3 cfg5.N
    = projFn (V c (Pipeline.arrRef spec5 0)) (V c (Pipeline.arrRef spec5 1)) (V c (Pipeline.arrRef spec5 2)) :=
  (dat5 V c).arrAt_eq_of_cover 3 _ (fun t _ => flushed5_eq V c t) cover5

end Region5

end Cert.KernelIdeal.ProjValue
-- ==== Proof.KI.Chain.lean ====
/-
  The kernel program's buffers at every boundary, at the extended reals, as functions of the launch memory: after each
  projection call the output array is the projection of its three input arrays (features times weights, rows scaled);
  after each stretch of host operations the aggregation of that; after three layers per graph the two graph results;
  before the gathering call the two sums re-laid with a unit middle axis.
-/
import proofs.«180269_j89635967468180_1_alg».proof.Proof.KI.Keep
import proofs.«180269_j89635967468180_1_alg».proof.Proof.KI.HR0
import proofs.«180269_j89635967468180_1_alg».proof.Proof.KI.HR1
import proofs.«180269_j89635967468180_1_alg».proof.Proof.KI.HR2
import proofs.«180269_j89635967468180_1_alg».proof.Proof.KI.HR3
import proofs.«180269_j89635967468180_1_alg».proof.Proof.KI.HR4
import proofs.«180269_j89635967468180_1_alg».proof.Proof.KI.HR5
import proofs.«180269_j89635967468180_1_alg».proof.Proof.KI.HR6
import proofs.«180269_j89635967468180_1_alg».proof.Proof.KI.ProjArray
import proofs.«180269_j89635967468180_1_alg».proof.Proof.KI.ProjArray1
import proofs.«180269_j89635967468180_1_alg».proof.Proof.KI.ProjArray2
import proofs.«180269_j89635967468180_1_alg».proof.Proof.KI.ProjArray3
import proofs.«180269_j89635967468180_1_alg».proof.Proof.KI.ProjArray4
import proofs.«180269_j89635967468180_1_alg».proof.Proof.KI.ProjArray5

set_option maxRecDepth 16384

noncomputable section

namespace Cert.KernelIdeal.Gen

open Idealize.ShloMosaic Idealize.ShloMosaic.TcCoe Idealize.SL.Sem
open Cert.KernelIdeal.ProjValue (projFn)

/-- One layer at the extended reals: the projection as a plain sum, then the aggregation along the edges. -/
def layerI (feat : FVec Ideal S70000x128 .f32) (w : FVec Ideal S128x128 .f32) (cj ci : FVec Ideal S70000x1 .f32) (e : IVec S2x1000000 32) : FVec Ideal S70000x128 .f32 :=
  Spec.agg (F := Ideal) (projFn feat w cj) (Spec.edgeSrc e) (Spec.edgeDst e) ci
/-- Three layers over one graph. -/
def graphI (a0 : FVec Ideal S50000x128 .f32) (a1 : FVec Ideal S20000x128 .f32) (w : FVec Ideal S3x128x128 .f32) (ci cj : FVec Ideal S70000x1 .f32) (e : IVec S2x1000000 32) : FVec Ideal S70000x128 .f32 :=
  layerI (layerI (layerI (Spec.feat0 (F := Ideal) a0 a1) (Spec.wt0 (F := Ideal) w) cj ci e) (Spec.wt1 (F := Ideal) w) cj ci e) (Spec.wt2 (F := Ideal) w) cj ci e

variable (m : (ℓ : Loc nD τ sig) → Buf (Elt Ideal) ℓ) (ρ : Dev nD → PrngReg)

/-! ## Arguments and carried buffers at the boundaries that read them -/
theorem W1_arg7 (c : Dev nD) : W1 m ρ c (Proc.devRef .tc main_arg7) = m ((c : Thread nD τ).loc main_arg7) :=
  (W1_of m ρ c main_arg7 (by decide)).trans rfl
theorem W2_arg6 (c : Dev nD) : W2 m ρ c (Proc.devRef .tc main_arg6) = m ((c : Thread nD τ).loc main_arg6) :=
  (W2_of_ne m ρ c main_arg6 (by decide)).trans <| (W1_of m ρ c main_arg6 (by decide)).trans rfl
theorem W3_arg7 (c : Dev nD) : W3 m ρ c (Proc.devRef .tc main_arg7) = m ((c : Thread nD τ).loc main_arg7) :=
  (W3_of m ρ c main_arg7 (by decide)).trans <| (W2_in m ρ c 2 rfl).trans <| (W1_of m ρ c main_arg7 (by decide)).trans rfl
theorem W4_arg6 (c : Dev nD) : W4 m ρ c (Proc.devRef .tc main_arg6) = m ((c : Thread nD τ).loc main_arg6) :=
  (W4_of_ne m ρ c main_arg6 (by decide)).trans <| (W3_of m ρ c main_arg6 (by decide)).trans <| (W2_of_ne m ρ c main_arg6 (by decide)).trans <| (W1_of m ρ c main_arg6 (by decide)).trans rfl
theorem W5_arg7 (c : Dev nD) : W5 m ρ c (Proc.devRef .tc main_arg7) = m ((c : Thread nD τ).loc main_arg7) :=
  (W5_of m ρ c main_arg7 (by decide)).trans <| (W4_in m ρ c 2 rfl).trans <| (W3_of m ρ c main_arg7 (by decide)).trans <| (W2_in m ρ c 2 rfl).trans <| (W1_of m ρ c main_arg7 (by decide)).trans rfl
theorem W6_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
theorem W6_arg11 (c : Dev nD) : W6 m ρ c (Proc.devRef .tc main_arg11) = m ((c : Thread nD τ).loc main_arg11) :=
  (W6_of_ne m ρ c main_arg11 (by decide)).trans <| (W5_of m ρ c main_arg11 (by decide)).trans <| (W4_of_ne m ρ c main_arg11 (by decide)).trans <| (W3_of m ρ c main_arg11 (by decide)).trans <| (W2_of_ne m ρ c main_arg11 (by decide)).trans <| (W1_of m ρ c main_arg11 (by decide)).trans rfl
theorem W6_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W7_arg9 (c : Dev nD) : W7 m ρ c (Proc.devRef .tc main_arg9) = m ((c : Thread nD τ).loc main_arg9) :=
  (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W8_arg8 (c : Dev nD) : W8 m ρ c (Proc.devRef .tc main_arg8) = m ((c : Thread nD τ).loc main_arg8) :=
  (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W9_arg9 (c : Dev nD) : W9 m ρ c (Proc.devRef .tc main_arg9) = m ((c : Thread nD τ).loc main_arg9) :=
  (W9_of m ρ c main_arg9 (by decide)).trans <| (W8_in m ρ c 2 rfl).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W10_arg8 (c : Dev nD) : W10 m ρ c (Proc.devRef .tc main_arg8) = m ((c : Thread nD τ).loc main_arg8) :=
  (W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W11_arg9 (c : Dev nD) : W11 m ρ c (Proc.devRef .tc main_arg9) = m ((c : Thread nD τ).loc main_arg9) :=
  (W11_of m ρ c main_arg9 (by decide)).trans <| (W10_in m ρ c 2 rfl).trans <| (W9_of m ρ c main_arg9 (by decide)).trans <| (W8_in m ρ c 2 rfl).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W12_arg8 (c : Dev nD) : W12 m ρ c (Proc.devRef .tc main_arg8) = m ((c : Thread nD τ).loc main_arg8) :=
  (W12_of_ne m ρ c main_arg8 (by decide)).trans <| (W11_of m ρ c main_arg8 (by decide)).trans <| (W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W12_arg3 (c : Dev nD) : W12 m ρ c (Proc.devRef .tc main_arg3) = m ((c : Thread nD τ).loc main_arg3) :=
  (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
theorem W2_arg4 (c : Dev nD) : W2 m ρ c (Proc.devRef .tc main_arg4) = m ((c : Thread nD τ).loc main_arg4) :=
  (W2_of_ne m ρ c main_arg4 (by decide)).trans <| (W1_of m ρ c main_arg4 (by decide)).trans rfl
theorem W4_arg4 (c : Dev nD) : W4 m ρ c (Proc.devRef .tc main_arg4) = m ((c : Thread nD τ).loc main_arg4) :=
  (W4_of_ne m ρ c main_arg4 (by decide)).trans <| (W3_of m ρ c main_arg4 (by decide)).trans <| (W2_of_ne m ρ c main_arg4 (by decide)).trans <| (W1_of m ρ c main_arg4 (by decide)).trans rfl
theorem W8_arg5 (c : Dev nD) : W8 m ρ c (Proc.devRef .tc main_arg5) = m ((c : Thread nD τ).loc main_arg5) :=
  (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W10_arg5 (c : Dev nD) : W10 m ρ c (Proc.devRef .tc main_arg5) = m ((c : Thread nD τ).loc main_arg5) :=
  (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl

/-! ## The first graph -/

theorem W1_v0 (c : Dev nD) : W1 m ρ c (Proc.devRef .tc main_v0) = Spec.feat0 (F := Ideal) (m ((c : Thread nD τ).loc main_arg0)) (m ((c : Thread nD τ).loc main_arg1)) := h0_v0 (W0 m ρ c)
theorem W1_v2 (c : Dev nD) : W1 m ρ c (Proc.devRef .tc main_v2) = Spec.edgeSrc (m ((c : Thread nD τ).loc main_arg10)) := h0_v2 (W0 m ρ c)
theorem W1_v4 (c : Dev nD) : W1 m ρ c (Proc.devRef .tc main_v4) = Spec.edgeDst (m ((c : Thread nD τ).loc main_arg10)) := h0_v4 (W0 m ρ c)
theorem W1_v6 (c : Dev nD) : W1 m ρ c (Proc.devRef .tc main_v6) = Spec.wt0 (F := Ideal) (m ((c : Thread nD τ).loc main_arg4)) := h0_v6 (W0 m ρ c)

theorem W2_v7 (c : Dev nD) : W2 m ρ c (Proc.devRef .tc main_v7) = projFn (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) :=
  (W2_arr m ρ c 3).trans ((ProjValue.final0 (U1 m ρ) c).trans (by
    show projFn (W1 m ρ c (Proc.devRef .tc main_v0)) (W1 m ρ c (Proc.devRef .tc main_v6)) (W1 m ρ c (Proc.devRef .tc main_arg7)) = _
    rw [W1_v0, W1_v6, W1_arg7]))

theorem W2_v2 (c : Dev nD) : W2 m ρ c (Proc.devRef .tc main_v2) = Spec.edgeSrc (m ((c : Thread nD τ).loc main_arg10)) :=
  ((W2_of_ne m ρ c main_v2 (by decide))).trans (W1_v2 m ρ c)

theorem W2_v4 (c : Dev nD) : W2 m ρ c (Proc.devRef .tc main_v4) = Spec.edgeDst (m ((c : Thread nD τ).loc main_arg10)) :=
  ((W2_of_ne m ρ c main_v4 (by decide))).trans (W1_v4 m ρ c)

theorem W3_v19 (c : Dev nD) : W3 m ρ c (Proc.devRef .tc main_v19) = layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10)) :=
  (h1_v19 (W2 m ρ c)).trans (by
    rw [W2_v7, W2_v2, W2_v4, W2_arg6]
    rfl)

theorem W3_v21 (c : Dev nD) : W3 m ρ c (Proc.devRef .tc main_v21) = Spec.wt1 (F := Ideal) (m ((c : Thread nD τ).loc main_arg4)) :=
  (h1_v21 (W2 m ρ c)).trans (by rw [W2_arg4])

theorem W4_v22 (c : Dev nD) : W4 m ρ c (Proc.devRef .tc main_v22) = projFn (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) :=
  (W4_arr m ρ c 3).trans ((ProjValue.final1 (U3 m ρ) c).trans (by
    show projFn (W3 m ρ c (Proc.devRef .tc main_v19)) (W3 m ρ c (Proc.devRef .tc main_v21)) (W3 m ρ c (Proc.devRef .tc main_arg7)) = _
    rw [W3_v19, W3_v21, W3_arg7]))

theorem W4_v2 (c : Dev nD) : W4 m ρ c (Proc.devRef .tc main_v2) = Spec.edgeSrc (m ((c : Thread nD τ).loc main_arg10)) :=
  ((W4_of_ne m ρ c main_v2 (by decide)).trans <| (W3_of m ρ c main_v2 (by decide))).trans (W2_v2 m ρ c)

theorem W4_v4 (c : Dev nD) : W4 m ρ c (Proc.devRef .tc main_v4) = Spec.edgeDst (m ((c : Thread nD τ).loc main_arg10)) :=
  ((W4_of_ne m ρ c main_v4 (by decide)).trans <| (W3_of m ρ c main_v4 (by decide))).trans (W2_v4 m ρ c)

theorem W5_v34 (c : Dev nD) : W5 m ρ c (Proc.devRef .tc main_v34) = layerI (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) (m ((c : Thread nD τ).loc main_arg6)) (m ((c : Thread nD τ).loc main_arg10)) :=
  (h2_v34 (W4 m ρ c)).trans (by
    rw [W4_v22, W4_v2, W4_v4, W4_arg6]
    rfl)

theorem W5_v36 (c : Dev nD) : W5 m ρ c (Proc.devRef .tc main_v36) = Spec.wt2 (F := Ideal) (m ((c : Thread nD τ).loc main_arg4)) :=
  (h2_v36 (W4 m ρ c)).trans (by rw [W4_arg4])

theorem W6_v37 (c : Dev nD) : W6 m ρ c (Proc.devRef .tc main_v37) = projFn (layerI (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) (m ((c : Thread nD τ).loc main_arg6)) (m ((c : Thread nD τ).loc main_arg10))) (Spec.wt2 (F := Ideal) (m ((c : Thread nD τ).loc main_arg4))) (m ((c : Thread nD τ).loc main_arg7)) :=
  (W6_arr m ρ c 3).trans ((ProjValue.final2 (U5 m ρ) c).trans (by
    show projFn (W5 m ρ c (Proc.devRef .tc main_v34)) (W5 m ρ c (Proc.devRef .tc main_v36)) (W5 m ρ c (Proc.devRef .tc main_arg7)) = _
    rw [W5_v34, W5_v36, W5_arg7]))

theorem W6_v2 (c : Dev nD) : W6 m ρ c (Proc.devRef .tc main_v2) = Spec.edgeSrc (m ((c : Thread nD τ).loc main_arg10)) :=
  ((W6_of_ne m ρ c main_v2 (by decide)).trans <| (W5_of m ρ c main_v2 (by decide))).trans (W4_v2 m ρ c)

theorem W6_v4 (c : Dev nD) : W6 m ρ c (Proc.devRef .tc main_v4) = Spec.edgeDst (m ((c : Thread nD τ).loc main_arg10)) :=
  ((W6_of_ne m ρ c main_v4 (by decide)).trans <| (W5_of m ρ c main_v4 (by decide))).trans (W4_v4 m ρ c)

theorem W7_v49 (c : Dev nD) : W7 m ρ c (Proc.devRef .tc main_v49) = layerI (layerI (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) (m ((c : Thread nD τ).loc main_arg6)) (m ((c : Thread nD τ).loc main_arg10))) (Spec.wt2 (F := Ideal) (m ((c : Thread nD τ).loc main_arg4))) (m ((c : Thread nD τ).loc main_arg7)) (m ((c : Thread nD τ).loc main_arg6)) (m ((c : Thread nD τ).loc main_arg10)) :=
  (h3_v49 (W6 m ρ c)).trans (by
    rw [W6_v37, W6_v2, W6_v4, W6_arg6]
    rfl)

/-! ## The second graph -/

theorem W7_v51 (c : Dev nD) : W7 m ρ c (Proc.devRef .tc main_v51) = Spec.edgeSrc (m ((c : Thread nD τ).loc main_arg11)) := (h3_v51 (W6 m ρ c)).trans (by rw [W6_arg11])
theorem W7_v53 (c : Dev nD) : W7 m ρ c (Proc.devRef .tc main_v53) = Spec.edgeDst (m ((c : Thread nD τ).loc main_arg11)) := (h3_v53 (W6 m ρ c)).trans (by rw [W6_arg11])
theorem W7_v55 (c : Dev nD) : W7 m ρ c (Proc.devRef .tc main_v55) = Spec.wt0 (F := Ideal) (m ((c : Thread nD τ).loc main_arg5)) := (h3_v55 (W6 m ρ c)).trans (by rw [W6_arg5])

theorem W7_v0 (c : Dev nD) : W7 m ρ c (Proc.devRef .tc main_v0) = (Spec.feat0 (F := Ideal) (m ((c : Thread nD τ).loc main_arg0)) (m ((c : Thread nD τ).loc main_arg1))) :=
  ((W7_of m ρ c main_v0 (by decide)).trans <| (W6_of_ne m ρ c main_v0 (by decide)).trans <| (W5_of m ρ c main_v0 (by decide)).trans <| (W4_of_ne m ρ c main_v0 (by decide)).trans <| (W3_of m ρ c main_v0 (by decide)).trans <| (W2_in m ρ c 0 rfl)).trans (W1_v0 m ρ c)

theorem W8_v56 (c : Dev nD) : W8 m ρ c (Proc.devRef .tc main_v56) = projFn (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) :=
  (W8_arr m ρ c 3).trans ((ProjValue.final3 (U7 m ρ) c).trans (by
    show projFn (W7 m ρ c (Proc.devRef .tc main_v0)) (W7 m ρ c (Proc.devRef .tc main_v55)) (W7 m ρ c (Proc.devRef .tc main_arg9)) = _
    rw [W7_v0, W7_v55, W7_arg9]))

theorem W8_v51 (c : Dev nD) : W8 m ρ c (Proc.devRef .tc main_v51) = Spec.edgeSrc (m ((c : Thread nD τ).loc main_arg11)) :=
  ((W8_of_ne m ρ c main_v51 (by decide))).trans (W7_v51 m ρ c)

theorem W8_v53 (c : Dev nD) : W8 m ρ c (Proc.devRef .tc main_v53) = Spec.edgeDst (m ((c : Thread nD τ).loc main_arg11)) :=
  ((W8_of_ne m ρ c main_v53 (by decide))).trans (W7_v53 m ρ c)

theorem W9_v68 (c : Dev nD) : W9 m ρ c (Proc.devRef .tc main_v68) = layerI (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) (m ((c : Thread nD τ).loc main_arg8)) (m ((c : Thread nD τ).loc main_arg11)) :=
  (h4_v68 (W8 m ρ c)).trans (by
    rw [W8_v56, W8_v51, W8_v53, W8_arg8]
    rfl)

theorem W9_v70 (c : Dev nD) : W9 m ρ c (Proc.devRef .tc main_v70) = Spec.wt1 (F := Ideal) (m ((c : Thread nD τ).loc main_arg5)) :=
  (h4_v70 (W8 m ρ c)).trans (by rw [W8_arg5])

theorem W10_v71 (c : Dev nD) : W10 m ρ c (Proc.devRef .tc main_v71) = projFn (layerI (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) (m ((c : Thread nD τ).loc main_arg8)) (m ((c : Thread nD τ).loc main_arg11))) (Spec.wt1 (F := Ideal) (m ((c : Thread nD τ).loc main_arg5))) (m ((c : Thread nD τ).loc main_arg9)) :=
  (W10_arr m ρ c 3).trans ((ProjValue.final4 (U9 m ρ) c).trans (by
    show projFn (W9 m ρ c (Proc.devRef .tc main_v68)) (W9 m ρ c (Proc.devRef .tc main_v70)) (W9 m ρ c (Proc.devRef .tc main_arg9)) = _
    rw [W9_v68, W9_v70, W9_arg9]))

theorem W10_v51 (c : Dev nD) : W10 m ρ c (Proc.devRef .tc main_v51) = Spec.edgeSrc (m ((c : Thread nD τ).loc main_arg11)) :=
  ((W10_of_ne m ρ c main_v51 (by decide)).trans <| (W9_of m ρ c main_v51 (by decide))).trans (W8_v51 m ρ c)

theorem W10_v53 (c : Dev nD) : W10 m ρ c (Proc.devRef .tc main_v53) = Spec.edgeDst (m ((c : Thread nD τ).loc main_arg11)) :=
  ((W10_of_ne m ρ c main_v53 (by decide)).trans <| (W9_of m ρ c main_v53 (by decide))).trans (W8_v53 m ρ c)

theorem W11_v83 (c : Dev nD) : W11 m ρ c (Proc.devRef .tc main_v83) = layerI (layerI (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) (m ((c : Thread nD τ).loc main_arg8)) (m ((c : Thread nD τ).loc main_arg11))) (Spec.wt1 (F := Ideal) (m ((c : Thread nD τ).loc main_arg5))) (m ((c : Thread nD τ).loc main_arg9)) (m ((c : Thread nD τ).loc main_arg8)) (m ((c : Thread nD τ).loc main_arg11)) :=
  (h5_v83 (W10 m ρ c)).trans (by
    rw [W10_v71, W10_v51, W10_v53, W10_arg8]
    rfl)

theorem W11_v85 (c : Dev nD) : W11 m ρ c (Proc.devRef .tc main_v85) = Spec.wt2 (F := Ideal) (m ((c : Thread nD τ).loc main_arg5)) :=
  (h5_v85 (W10 m ρ c)).trans (by rw [W10_arg5])

theorem W12_v86 (c : Dev nD) : W12 m ρ c (Proc.devRef .tc main_v86) = projFn (layerI (layerI (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) (m ((c : Thread nD τ).loc main_arg8)) (m ((c : Thread nD τ).loc main_arg11))) (Spec.wt1 (F := Ideal) (m ((c : Thread nD τ).loc main_arg5))) (m ((c : Thread nD τ).loc main_arg9)) (m ((c : Thread nD τ).loc main_arg8)) (m ((c : Thread nD τ).loc main_arg11))) (Spec.wt2 (F := Ideal) (m ((c : Thread nD τ).loc main_arg5))) (m ((c : Thread nD τ).loc main_arg9)) :=
  (W12_arr m ρ c 3).trans ((ProjValue.final5 (U11 m ρ) c).trans (by
    show projFn (W11 m ρ c (Proc.devRef .tc main_v83)) (W11 m ρ c (Proc.devRef .tc main_v85)) (W11 m ρ c (Proc.devRef .tc main_arg9)) = _
    rw [W11_v83, W11_v85, W11_arg9]))

theorem W12_v51 (c : Dev nD) : W12 m ρ c (Proc.devRef .tc main_v51) = Spec.edgeSrc (m ((c : Thread nD τ).loc main_arg11)) :=
  ((W12_of_ne m ρ c main_v51 (by decide)).trans <| (W11_of m ρ c main_v51 (by decide))).trans (W10_v51 m ρ c)

theorem W12_v53 (c : Dev nD) : W12 m ρ c (Proc.devRef .tc main_v53) = Spec.edgeDst (m ((c : Thread nD τ).loc main_arg11)) :=
  ((W12_of_ne m ρ c main_v53 (by decide)).trans <| (W11_of m ρ c main_v53 (by decide))).trans (W10_v53 m ρ c)

theorem W12_v49 (c : Dev nD) : W12 m ρ c (Proc.devRef .tc main_v49) = (layerI (layerI (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) (m ((c : Thread nD τ).loc main_arg6)) (m ((c : Thread nD τ).loc main_arg10))) (Spec.wt2 (F := Ideal) (m ((c : Thread nD τ).loc main_arg4))) (m ((c : Thread nD τ).loc main_arg7)) (m ((c : Thread nD τ).loc main_arg6)) (m ((c : Thread nD τ).loc main_arg10))) :=
  ((W12_of_ne m ρ c main_v49 (by decide)).trans <| (W11_of m ρ c main_v49 (by decide)).trans <| (W10_of_ne m ρ c main_v49 (by decide)).trans <| (W9_of m ρ c main_v49 (by decide)).trans <| (W8_of_ne m ρ c main_v49 (by decide))).trans (W7_v49 m ρ c)

/-! ## Before the gathering call -/

theorem W13_v105 (c : Dev nD) : W13 m ρ c (Proc.devRef .tc main_v105) = shapeCast S50000x1x128 (Spec.stuSum (F := Ideal) (layerI (layerI (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) (m ((c : Thread nD τ).loc main_arg6)) (m ((c : Thread nD τ).loc main_arg10))) (Spec.wt2 (F := Ideal) (m ((c : Thread nD τ).loc main_arg4))) (m ((c : Thread nD τ).loc main_arg7)) (m ((c : Thread nD τ).loc main_arg6)) (m ((c : Thread nD τ).loc main_arg10))) (layerI (layerI (layerI (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) (m ((c : Thread nD τ).loc main_arg8)) (m ((c : Thread nD τ).loc main_arg11))) (Spec.wt1 (F := Ideal) (m ((c : Thread nD τ).loc main_arg5))) (m ((c : Thread nD τ).loc main_arg9)) (m ((c : Thread nD τ).loc main_arg8)) (m ((c : Thread nD τ).loc main_arg11))) (Spec.wt2 (F := Ideal) (m ((c : Thread nD τ).loc main_arg5))) (m ((c : Thread nD τ).loc main_arg9)) (m ((c : Thread nD τ).loc main_arg8)) (m ((c : Thread nD τ).loc main_arg11)))) shapeCasts_S50000x128_S50000x1x128 :=
  (h6_v105 (W12 m ρ c)).trans (by
    rw [W12_v49, W12_v86, W12_v51, W12_v53, W12_arg8]
    rfl)
theorem W13_v106 (c : Dev nD) : W13 m ρ c (Proc.devRef .tc main_v106) = shapeCast S20000x1x128 (Spec.exerSum (F := Ideal) (layerI (layerI (layerI (Spec.feat0 (F := Ideal) (m ((c : Thread nD τ).loc main_arg0)) (m ((c : Thread nD τ).loc main_arg1))) (Spec.wt0 (F := Ideal) (m ((c : Thread nD τ).loc main_arg4))) (m ((c : Thread nD τ).loc main_arg7)) (m ((c : Thread nD τ).loc main_arg6)) (m ((c : Thread nD τ).loc main_arg10))) (Spec.wt1 (F := Ideal) (m ((c : Thread nD τ).loc main_arg4))) (m ((c : Thread nD τ).loc main_arg7)) (m ((c : Thread nD τ).loc main_arg6)) (m ((c : Thread nD τ).loc main_arg10))) (Spec.wt2 (F := Ideal) (m ((c : Thread nD τ).loc main_arg4))) (m ((c : Thread nD τ).loc main_arg7)) (m ((c : Thread nD τ).loc main_arg6)) (m ((c : Thread nD τ).loc main_arg10))) (layerI (layerI (layerI (Spec.feat0 (F := Ideal) (m ((c : Thread nD τ).loc main_arg0)) (m ((c : Thread nD τ).loc main_arg1))) (Spec.wt0 (F := Ideal) (m ((c : Thread nD τ).loc main_arg5))) (m ((c : Thread nD τ).loc main_arg9)) (m ((c : Thread nD τ).loc main_arg8)) (m ((c : Thread nD τ).loc main_arg11))) (Spec.wt1 (F := Ideal) (m ((c : Thread nD τ).loc main_arg5))) (m ((c : Thread nD τ).loc main_arg9)) (m ((c : Thread nD τ).loc main_arg8)) (m ((c : Thread nD τ).loc main_arg11))) (Spec.wt2 (F := Ideal) (m ((c : Thread nD τ).loc main_arg5))) (m ((c : Thread nD τ).loc main_arg9)) (m ((c : Thread nD τ).loc main_arg8)) (m ((c : Thread nD τ).loc main_arg11)))) shapeCasts_S20000x128_S20000x1x128 :=
  (h6_v106 (W12 m ρ c)).trans (by
    rw [W12_v49, W12_v86, W12_v51, W12_v53, W12_arg8]
    rfl)
theorem W13_v107 (c : Dev nD) : W13 m ρ c (Proc.devRef .tc main_v107) = shapeCast S20000x1x1 (m ((c : Thread nD τ).loc main_arg3)) shapeCasts_S20000x1_S20000x1x1 :=
  (h6_v107 (W12 m ρ c)).trans (by rw [W12_arg3])

end Cert.KernelIdeal.Gen

end
-- ==== Proof.KI.Result.lean ====
/-
  The kernel program's three results, in closed form of the launch memory: result row `r` is the row the id table names
  at `r` — of the student sum, of the exercise sum, of the one-column argument. The chain: the last host stretch drops the
  unit middle axis of each gathered array; the gathering call's array is the table-named row of its input array; the
  input arrays are the two sums (and the argument) given a unit middle axis by the stretch before the call.
-/
import proofs.«180269_j89635967468180_1_alg».proof.Proof.KI.Fold
import proofs.«180269_j89635967468180_1_alg».proof.Proof.KI.HR7
import proofs.«180269_j89635967468180_1_alg».proof.Proof.KI.GathValue
import proofs.«180269_j89635967468180_1_alg».proof.Proof.KI.Chain

set_option maxRecDepth 16384

noncomputable section

namespace Cert.KernelIdeal.Gen

open Idealize.ShloMosaic Idealize.ShloMosaic.TcCoe Idealize.SL.Sem Idealize.ShloMosaic.ValueIdx

section AnyFloat
variable {F : FTy → Type} [FloatOps F]
variable (m : (ℓ : Loc nD τ sig) → Buf (Elt F) ℓ) (ρ : Dev nD → PrngReg)

/-- The student row of batch entry `r` is the student-id argument's word at `r`, unsigned (one device: its memory is
    the memory the tables were read from). -/
theorem row6_0_tbl (hO : Ok m) (c : Dev nD) (r : Fin 8192) :
    row6_0 (adm6 m hO) r = ((m ((c : Thread nD τ).loc main_arg12) : S8192.Idx → BitVec 32) (ix1 r)).toNat := by
  obtain rfl : c = 0 := Subsingleton.elim _ _
  exact row6_0_eq (adm6 m hO) r

/-- The exercise row of batch entry `r` is the exercise-id argument's word at `r`, unsigned. -/
theorem row6_1_tbl (hO : Ok m) (c : Dev nD) (r : Fin 8192) :
    row6_1 (adm6 m hO) r = ((m ((c : Thread nD τ).loc main_arg13) : S8192.Idx → BitVec 32) (ix1 r)).toNat := by
  obtain rfl : c = 0 := Subsingleton.elim _ _
  exact row6_1_eq (adm6 m hO) r

/-- Admissible tables: every student id, unsigned, is below 50000. -/
theorem sid_lt (hO : Ok m) (c : Dev nD) (r : Fin 8192) :
    ((m ((c : Thread nD τ).loc main_arg12) : S8192.Idx → BitVec 32) (ix1 r)).toNat < 50000 :=
  row6_0_tbl m hO c r ▸ row6_0_lt (adm6 m hO) r

/-- Admissible tables: every exercise id, unsigned, is below 20000. -/
theorem eid_lt (hO : Ok m) (c : Dev nD) (r : Fin 8192) :
    ((m ((c : Thread nD τ).loc main_arg13) : S8192.Idx → BitVec 32) (ix1 r)).toNat < 20000 :=
  row6_1_tbl m hO c r ▸ row6_1_lt (adm6 m hO) r

/-- Result 0 from what the student rows hold when the gathering call is entered. -/
theorem res0_of (hO : Ok m) (c : Dev nD) (Xs : S50000x128.Idx → Elt F .f32)
    (h105 : W13 m ρ c (Proc.devRef .tc main_v105) = shapeCast S50000x1x128 Xs shapeCasts_S50000x128_S50000x1x128)
    (r : Fin 8192) (q : Fin 128) :
    (W15 m ρ hO c (Proc.devRef .tc main_v109) : S8192x128.Idx → Elt F .f32) (ix2 r q)
      = Xs (ix2 ⟨((m ((c : Thread nD τ).loc main_arg12) : S8192.Idx → BitVec 32) (ix1 r)).toNat, sid_lt m hO c r⟩ q) := by
  refine (congrFun (h7_v109 (W14 m ρ hO c)) (ix2 r q)).trans ?_
  refine (relay_out128 _ r q).trans ?_
  refine (congrFun (W14_arr m ρ hO c 3) (ix3 r (0 : Fin 1) q)).trans ?_
  refine (congrFun (final6_3 (U13 m ρ) (adm6 m hO) c) (ix3 r (0 : Fin 1) q)).trans ?_
  refine (congrFun h105 (ix3 ⟨row6_0 (adm6 m hO) r, row6_0_lt (adm6 m hO) r⟩ (0 : Fin 1) q)).trans ?_
  refine (relay_in_stu Xs _ q).trans ?_
  exact congrArg (fun p => Xs (ix2 p q)) (Fin.ext (row6_0_tbl m hO c r))

/-- Result 1 from what the exercise rows hold when the gathering call is entered. -/
theorem res1_of (hO : Ok m) (c : Dev nD) (Xe : S20000x128.Idx → Elt F .f32)
    (h106 : W13 m ρ c (Proc.devRef .tc main_v106) = shapeCast S20000x1x128 Xe shapeCasts_S20000x128_S20000x1x128)
    (r : Fin 8192) (q : Fin 128) :
    (W15 m ρ hO c (Proc.devRef .tc main_v110) : S8192x128.Idx → Elt F .f32) (ix2 r q)
      = Xe (ix2 ⟨((m ((c : Thread nD τ).loc main_arg13) : S8192.Idx → BitVec 32) (ix1 r)).toNat, eid_lt m hO c r⟩ q) := by
  refine (congrFun (h7_v110 (W14 m ρ hO c)) (ix2 r q)).trans ?_
  refine (relay_out128 _ r q).trans ?_
  refine (congrFun (W14_arr m ρ hO c 4) (ix3 r (0 : Fin 1) q)).trans ?_
  refine (congrFun (final6_4 (U13 m ρ) (adm6 m hO) c) (ix3 r (0 : Fin 1) q)).trans ?_
  refine (congrFun h106 (ix3 ⟨row6_1 (adm6 m hO) r, row6_1_lt (adm6 m hO) r⟩ (0 : Fin 1) q)).trans ?_
  refine (relay_in_exer Xe _ q).trans ?_
  exact congrArg (fun p => Xe (ix2 p q)) (Fin.ext (row6_1_tbl m hO c r))

/-- Result 2 from what the one-column rows hold when the gathering call is entered. -/
theorem res2_of (hO : Ok m) (c : Dev nD) (Xd : S20000x1.Idx → Elt F .f32)
    (h107 : W13 m ρ c (Proc.devRef .tc main_v107) = shapeCast S20000x1x1 Xd shapeCasts_S20000x1_S20000x1x1)
    (r : Fin 8192) (z : Fin 1) :
    (W15 m ρ hO c (Proc.devRef .tc main_v111) : S8192x1.Idx → Elt F .f32) (ix2 r z)
      = Xd (ix2 ⟨((m ((c : Thread nD τ).loc main_arg13) : S8192.Idx → BitVec 32) (ix1 r)).toNat, eid_lt m hO c r⟩ z) := by
  refine (congrFun (h7_v111 (W14 m ρ hO c)) (ix2 r z)).trans ?_
  refine (relay_out1 _ r z).trans ?_
  refine (congrFun (W14_arr m ρ hO c 5) (ix3 r (0 : Fin 1) z)).trans ?_
  refine (congrFun (final6_5 (U13 m ρ) (adm6 m hO) c) (ix3 r (0 : Fin 1) z)).trans ?_
  refine (congrFun h107 (ix3 ⟨row6_1 (adm6 m hO) r, row6_1_lt (adm6 m hO) r⟩ (0 : Fin 1) z)).trans ?_
  refine (relay_in_disc Xd _ z).trans ?_
  exact congrArg (fun p => Xd (ix2 p z)) (Fin.ext (row6_1_tbl m hO c r))

end AnyFloat

section AtIdeal
variable (m : (ℓ : Loc nD τ sig) → Buf (Elt Ideal) ℓ) (ρ : Dev nD → PrngReg)

/-- RESULT 0: row `r` is row `sid r` of the student rows of the two graphs' sum. -/
theorem res0 (hO : Ok m) (c : Dev nD) (r : Fin 8192) (q : Fin 128) :
    (W15 m ρ hO c (Proc.devRef .tc main_v109) : S8192x128.Idx → Elt Ideal .f32) (ix2 r q)
      = Spec.stuSum (F := Ideal) (graphI (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)))
          (graphI (m ((c : Thread nD τ).loc main_arg0)) (m ((c : Thread nD τ).loc main_arg1)) (m ((c : Thread nD τ).loc main_arg5)) (m ((c : Thread nD τ).loc main_arg8)) (m ((c : Thread nD τ).loc main_arg9)) (m ((c : Thread nD τ).loc main_arg11)))
          (ix2 ⟨((m ((c : Thread nD τ).loc main_arg12) : S8192.Idx → BitVec 32) (ix1 r)).toNat, sid_lt m hO c r⟩ q) :=
  res0_of m ρ hO c _ (W13_v105 m ρ c) r q

/-- RESULT 1: row `r` is row `eid r` of the exercise rows of the two graphs' sum. -/
theorem res1 (hO : Ok m) (c : Dev nD) (r : Fin 8192) (q : Fin 128) :
    (W15 m ρ hO c (Proc.devRef .tc main_v110) : S8192x128.Idx → Elt Ideal .f32) (ix2 r q)
      = Spec.exerSum (F := Ideal) (graphI (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)))
          (graphI (m ((c : Thread nD τ).loc main_arg0)) (m ((c : Thread nD τ).loc main_arg1)) (m ((c : Thread nD τ).loc main_arg5)) (m ((c : Thread nD τ).loc main_arg8)) (m ((c : Thread nD τ).loc main_arg9)) (m ((c : Thread nD τ).loc main_arg11)))
          (ix2 ⟨((m ((c : Thread nD τ).loc main_arg13) : S8192.Idx → BitVec 32) (ix1 r)).toNat, eid_lt m hO c r⟩ q) :=
  res1_of m ρ hO c _ (W13_v106 m ρ c) r q

/-- RESULT 2: row `r` is row `eid r` of the one-column argument. -/
theorem res2 (hO : Ok m) (c : Dev nD) (r : Fin 8192) (z : Fin 1) :
    (W15 m ρ hO c (Proc.devRef .tc main_v111) : S8192x1.Idx → Elt Ideal .f32) (ix2 r z)
      = (m ((c : Thread nD τ).loc main_arg3) : S20000x1.Idx → Elt Ideal .f32)
          (ix2 ⟨((m ((c : Thread nD τ).loc main_arg13) : S8192.Idx → BitVec 32) (ix1 r)).toNat, eid_lt m hO c r⟩ z) :=
  res2_of m ρ hO c _ (W13_v107 m ρ c) r z

end AtIdeal

end Cert.KernelIdeal.Gen

end
-- ==== Proof.KI.RefSpec.lean ====
/-
  The reference's three results as pure functions of its argument arrays, composed from named pieces: the concatenated
  features, an edge list's rows, a layer's weight matrix, the projection (a matrix product scaled row by row), the
  aggregation along the edges, three layers per graph, the two graphs summed on the student and exercise rows, and the
  final row lookups by (sign-normalized) student and exercise ids. The reference run's composed terms ARE these.
-/
import proofs.«180269_j89635967468180_1_alg».proof.Proof.Gen.ReferenceIdeal.Run

noncomputable section

namespace Cert.ReferenceIdeal.Spec

open Idealize.ShloMosaic Idealize.ShloMosaic.TcCoe Idealize.SL.Sem Cert.ReferenceIdeal
open Cert.ReferenceIdeal.Gen

variable {F : FTy → Type} [FloatOps F]

def feat0 (a0 : FVec F S50000x128 .f32) (a1 : FVec F S20000x128 .f32) : FVec F S70000x128 .f32 :=
  concatenate S70000x128 0 [⟨S50000x128, a0⟩, ⟨S20000x128, a1⟩] concatenates_S50000x128_S20000x128_S70000x128_d0
def edgeSrc (e : IVec S2x1000000 32) : IVec S1000000 32 :=
  shapeCast S1000000 (extractStridedSlice S1x1000000 ![0, 0] e slices_S2x1000000_S1x1000000_0_0) shapeCasts_S1x1000000_S1000000
def edgeDst (e : IVec S2x1000000 32) : IVec S1000000 32 :=
  shapeCast S1000000 (extractStridedSlice S1x1000000 ![1, 0] e slices_S2x1000000_S1x1000000_1_0) shapeCasts_S1x1000000_S1000000
def wt0 (w : FVec F S3x128x128 .f32) : FVec F S128x128 .f32 :=
  shapeCast S128x128 (extractStridedSlice S1x128x128 ![0, 0, 0] w slices_S3x128x128_S1x128x128_0_0_0) shapeCasts_S1x128x128_S128x128
def wt1 (w : FVec F S3x128x128 .f32) : FVec F S128x128 .f32 :=
  shapeCast S128x128 (extractStridedSlice S1x128x128 ![1, 0, 0] w slices_S3x128x128_S1x128x128_1_0_0) shapeCasts_S1x128x128_S128x128
def wt2 (w : FVec F S3x128x128 .f32) : FVec F S128x128 .f32 :=
  shapeCast S128x128 (extractStridedSlice S1x128x128 ![2, 0, 0] w slices_S3x128x128_S1x128x128_2_0_0) shapeCasts_S1x128x128_S128x128

/-- The projection: features times weights, each row scaled by its source-side normalizer. -/
def proj (feat : FVec F S70000x128 .f32) (w : FVec F S128x128 .f32) (cj : FVec F S70000x1 .f32) : FVec F S70000x128 .f32 :=
  mulf (Host.dotGeneral dot_S70000x128_S128x128_S70000x128_1_0_0_1_n_n none feat w) (broadcastInDim S70000x128 ![0, 1] bcast_S70000x1_S70000x128_0_1 cj)

def agg (h : FVec F S70000x128 .f32) (src dst : IVec S1000000 32) (ci : FVec F S70000x1 .f32) : FVec F S70000x128 .f32 :=
  mulf (Host.scatterAdd scatter_S70000x128_S1000000x1_S1000000x128_1_0_0_1
      (broadcastInDim S70000x128 ![] bcast_S_S70000x128 (constant S_ .f32 0x00000000#32))
      (broadcastInDim S1000000x1 ![0] bcast_S1000000_S1000000x1_0 dst)
      (Host.gather gather_S70000x128_S1000000x1_S1000000x128_1_0_n_n_0_1_1128 h
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 70000#32))) src))))
    (broadcastInDim S70000x128 ![0, 1] bcast_S70000x1_S70000x128_0_1 ci)

def layer (feat : FVec F S70000x128 .f32) (w : FVec F S128x128 .f32) (cj ci : FVec F S70000x1 .f32) (e : IVec S2x1000000 32) : FVec F S70000x128 .f32 :=
  agg (proj feat w cj) (edgeSrc e) (edgeDst e) ci

/-- Three layers over one graph. -/
def graph (a0 : FVec F S50000x128 .f32) (a1 : FVec F S20000x128 .f32) (w : FVec F S3x128x128 .f32) (ci cj : FVec F S70000x1 .f32) (e : IVec S2x1000000 32) : FVec F S70000x128 .f32 :=
  layer (layer (layer (feat0 a0 a1) (wt0 w) cj ci e) (wt1 w) cj ci e) (wt2 w) cj ci e

def stuSum (w1 w2 : FVec F S70000x128 .f32) : FVec F S50000x128 .f32 :=
  addf (extractStridedSlice S50000x128 ![0, 0] w1 slices_S70000x128_S50000x128_0_0) (extractStridedSlice S50000x128 ![0, 0] w2 slices_S70000x128_S50000x128_0_0)
def exerSum (w1 w2 : FVec F S70000x128 .f32) : FVec F S20000x128 .f32 :=
  addf (extractStridedSlice S20000x128 ![50000, 0] w1 slices_S70000x128_S20000x128_50000_0) (extractStridedSlice S20000x128 ![50000, 0] w2 slices_S70000x128_S20000x128_50000_0)

/-- A row lookup's index column: a negative id wraps once by the row count `n`. -/
def idxCol (n : BitVec 32) (ids : IVec S8192 32) : IVec S8192x1 32 :=
  broadcastInDim S8192x1 ![0] bcast_S8192_S8192x1_0 (select (cmpi .slt ids (broadcastInDim S8192 ![] bcast_S_S8192 (constantI S_ 32 0#32))) (addi ids (broadcastInDim S8192 ![] bcast_S_S8192 (constantI S_ 32 n))) ids)

variable (m : (ℓ : Loc nD τ sig) → Buf (Elt F) ℓ) (c : Dev nD)

/-- The two graphs' results at the reference's launch memory. -/
def w1 : FVec F S70000x128 .f32 :=
  graph (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg10))
def w2 : FVec F S70000x128 .f32 :=
  graph (m ((c.tc : Thread nD τ).loc main_arg0)) (m ((c.tc : Thread nD τ).loc main_arg1)) (m ((c.tc : Thread nD τ).loc main_arg5)) (m ((c.tc : Thread nD τ).loc main_arg8)) (m ((c.tc : Thread nD τ).loc main_arg9)) (m ((c.tc : Thread nD τ).loc main_arg11))

set_option maxRecDepth 8192 in
set_option maxHeartbeats 4000000 in
theorem res123_eq : Value.res_main_v123 m c = Host.gather gather_S50000x128_S8192x1_S8192x128_1_0_n_n_0_1_1128 (stuSum (w1 m c) (w2 m c)) (idxCol 50000#32 (m ((c.tc : Thread nD τ).loc main_arg12))) := by
  unfold Value.res_main_v123 w1 w2 graph layer; rfl

set_option maxRecDepth 8192 in
set_option maxHeartbeats 4000000 in
theorem res130_eq : Value.res_main_v130 m c = Host.gather gather_S20000x128_S8192x1_S8192x128_1_0_n_n_0_1_1128 (exerSum (w1 m c) (w2 m c)) (idxCol 20000#32 (m ((c.tc : Thread nD τ).loc main_arg13))) := by
  unfold Value.res_main_v130 w1 w2 graph layer; rfl

end Cert.ReferenceIdeal.Spec

end
-- ==== Proof.KI.RefProj.lean ====
/-
  The reference's projection of one layer, read at an index, over the extended reals.

  The reference computes a layer's projection by three operations: the contraction of the features `feat` [70000, 128]
  with the weight `W` [128, 128] over the feature axis, the broadcast of the scale column `cj` [70000, 1] over the 128
  columns, and their elementwise product. At row `r`, column `q` this is  (∑ k, feat (r, k) * W (k, q)) * cj (r, 0).
-/
import proofs.«180269_j89635967468180_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.ProjValue

open Cert.ReferenceIdeal Cert.ReferenceIdeal.Gen Idealize.ShloMosaic Idealize.ShloMosaic.ValueIdx Idealize.SL.Sem Idealize.ShloMosaic.StableHlo

/-- The contraction of the features with the weight at `(r, q)`: the sum over the contraction index of the products. -/
theorem dotAt (feat : (⟨S70000x128, .f32⟩ : BufTy).Contents (Elt Ideal)) (W : (⟨S128x128, .f32⟩ : BufTy).Contents (Elt Ideal))
    (r : Fin 70000) (q : Fin 128) :
    (Host.dotGeneral (F := Ideal) (φ₁ := .f32) (φ₂ := .f32) dot_S70000x128_S128x128_S70000x128_1_0_0_1_n_n none feat W) (ix2 r q)
      = ∑ k : Fin 128, feat (ix2 r k) * W (ix2 k q) := by
  simp only [Host.dotGeneral]
  rw [Ideal.dotGeneral_apply, ← Equiv.sum_comp (contrEquiv1 dot_S70000x128_S128x128_S70000x128_1_0_0_1_n_n 128 rfl rfl).symm]
  refine Finset.sum_congr rfl fun k _ => ?_
  have hk := contrEquiv1_symm_val dot_S70000x128_S128x128_S70000x128_1_0_0_1_n_n 128 rfl rfl k
  have el : dot_S70000x128_S128x128_S70000x128_1_0_0_1_n_n.lhsIdx (ix2 r q) ((contrEquiv1 dot_S70000x128_S128x128_S70000x128_1_0_0_1_n_n 128 rfl rfl).symm k) = ix2 r k := funext fun ax => Fin.ext (by
    match ax with
    | ⟨0, _⟩ => exact Read.lhs_main_v7_0 _ _
    | ⟨1, _⟩ => exact (Read.lhs_main_v7_1 _ _).trans hk)
  have er : dot_S70000x128_S128x128_S70000x128_1_0_0_1_n_n.rhsIdx (ix2 r q) ((contrEquiv1 dot_S70000x128_S128x128_S70000x128_1_0_0_1_n_n 128 rfl rfl).symm k) = ix2 k q := funext fun ax => Fin.ext (by
    match ax with
    | ⟨0, _⟩ => exact (Read.rhs_main_v7_0 _ _).trans hk
    | ⟨1, _⟩ => exact Read.rhs_main_v7_1 _ _)
  rw [el, er]

/-- The scale column broadcast over the 128 columns, at `(r, q)`: the column's entry of row `r`. -/
theorem bcastAt (cj : (⟨S70000x1, .f32⟩ : BufTy).Contents (Elt Ideal)) (r : Fin 70000) (q : Fin 128) :
    (broadcastInDim S70000x128 ![0, 1] bcast_S70000x1_S70000x128_0_1 cj) (ix2 r q) = cj (ix2 r 0) := by
  refine broadcastInDim_apply _ bcast_S70000x1_S70000x128_0_1 cj (ix2 r q) (ix2 r 0) (fun a => match a with
    | ⟨0, _⟩ => by show r.val = if (70000 : Nat) = 1 then 0 else r.val; rw [if_neg (by decide)]
    | ⟨1, _⟩ => by show 0 = if (1 : Nat) = 1 then 0 else q.val; rw [if_pos rfl])

/-- One layer's projection on the reference's side, at row `r`, column `q`. -/
theorem refProj_apply (feat : (⟨S70000x128, .f32⟩ : BufTy).Contents (Elt Ideal)) (W : (⟨S128x128, .f32⟩ : BufTy).Contents (Elt Ideal))
    (cj : (⟨S70000x1, .f32⟩ : BufTy).Contents (Elt Ideal)) (r : Fin 70000) (q : Fin 128) :
    (mulf (Host.dotGeneral (F := Ideal) (φ₁ := .f32) (φ₂ := .f32) dot_S70000x128_S128x128_S70000x128_1_0_0_1_n_n none feat W)
        (broadcastInDim S70000x128 ![0, 1] bcast_S70000x1_S70000x128_0_1 cj)) (ix2 r q)
      = (∑ k : Fin 128, feat (ix2 r k) * W (ix2 k q)) * cj (ix2 r 0) := by
  rw [mulf_apply, dotAt, bcastAt]

/-- The same as one function of the index. -/
theorem refProj_eq (feat : (⟨S70000x128, .f32⟩ : BufTy).Contents (Elt Ideal)) (W : (⟨S128x128, .f32⟩ : BufTy).Contents (Elt Ideal))
    (cj : (⟨S70000x1, .f32⟩ : BufTy).Contents (Elt Ideal)) :
    mulf (Host.dotGeneral (F := Ideal) (φ₁ := .f32) (φ₂ := .f32) dot_S70000x128_S128x128_S70000x128_1_0_0_1_n_n none feat W)
        (broadcastInDim S70000x128 ![0, 1] bcast_S70000x1_S70000x128_0_1 cj)
      = fun i : S70000x128.Idx => (∑ k : Fin 128, feat (ix2 (i 0) k) * W (ix2 k (i 1))) * cj (ix2 (i 0) 0) := by
  funext i
  obtain ⟨r, q, rfl⟩ : ∃ (r : Fin 70000) (q : Fin 128), i = ix2 r q := ⟨i 0, i 1, eq_ix2 i⟩
  exact refProj_apply feat W cj r q

end Cert.ReferenceIdeal.ProjValue
-- ==== Proof.KI.Cross.lean ====
/-
  The reference's pieces are the kernel program's pieces: the same host operations over the same shapes, and the
  reference's projection (a matrix product, each row then scaled) is the plain sum the kernel's blocks compute.
-/
import proofs.«180269_j89635967468180_1_alg».proof.Proof.KI.RefSpec
import proofs.«180269_j89635967468180_1_alg».proof.Proof.KI.RefProj
import proofs.«180269_j89635967468180_1_alg».proof.Proof.KI.Chain

set_option maxRecDepth 16384

noncomputable section

namespace Cert.Cross

open Idealize.ShloMosaic
open Cert.KernelIdeal.ProjValue (projFn)

theorem feat0_eq (a0 : FVec Ideal Cert.KernelIdeal.S50000x128 .f32) (a1 : FVec Ideal Cert.KernelIdeal.S20000x128 .f32) :
    Cert.ReferenceIdeal.Spec.feat0 (F := Ideal) a0 a1 = Cert.KernelIdeal.Spec.feat0 (F := Ideal) a0 a1 := rfl
theorem edgeSrc_eq (e : IVec Cert.KernelIdeal.S2x1000000 32) :
    Cert.ReferenceIdeal.Spec.edgeSrc e = Cert.KernelIdeal.Spec.edgeSrc e := rfl
theorem edgeDst_eq (e : IVec Cert.KernelIdeal.S2x1000000 32) :
    Cert.ReferenceIdeal.Spec.edgeDst e = Cert.KernelIdeal.Spec.edgeDst e := rfl
theorem wt0_eq (w : FVec Ideal Cert.KernelIdeal.S3x128x128 .f32) :
    Cert.ReferenceIdeal.Spec.wt0 (F := Ideal) w = Cert.KernelIdeal.Spec.wt0 (F := Ideal) w := rfl
theorem wt1_eq (w : FVec Ideal Cert.KernelIdeal.S3x128x128 .f32) :
    Cert.ReferenceIdeal.Spec.wt1 (F := Ideal) w = Cert.KernelIdeal.Spec.wt1 (F := Ideal) w := rfl
theorem wt2_eq (w : FVec Ideal Cert.KernelIdeal.S3x128x128 .f32) :
    Cert.ReferenceIdeal.Spec.wt2 (F := Ideal) w = Cert.KernelIdeal.Spec.wt2 (F := Ideal) w := rfl
theorem agg_eq (h : FVec Ideal Cert.KernelIdeal.S70000x128 .f32) (src dst : IVec Cert.KernelIdeal.S1000000 32) (ci : FVec Ideal Cert.KernelIdeal.S70000x1 .f32) :
    Cert.ReferenceIdeal.Spec.agg (F := Ideal) h src dst ci = Cert.KernelIdeal.Spec.agg (F := Ideal) h src dst ci := rfl
theorem stuSum_eq (w1 w2 : FVec Ideal Cert.KernelIdeal.S70000x128 .f32) :
    Cert.ReferenceIdeal.Spec.stuSum (F := Ideal) w1 w2 = Cert.KernelIdeal.Spec.stuSum (F := Ideal) w1 w2 := rfl
theorem exerSum_eq (w1 w2 : FVec Ideal Cert.KernelIdeal.S70000x128 .f32) :
    Cert.ReferenceIdeal.Spec.exerSum (F := Ideal) w1 w2 = Cert.KernelIdeal.Spec.exerSum (F := Ideal) w1 w2 := rfl

/-- The reference's projection is the plain sum (its matrix product read at an index, its row scale broadcast). -/
theorem proj_eq (feat : FVec Ideal Cert.KernelIdeal.S70000x128 .f32) (w : FVec Ideal Cert.KernelIdeal.S128x128 .f32) (cj : FVec Ideal Cert.KernelIdeal.S70000x1 .f32) :
    Cert.ReferenceIdeal.Spec.proj (F := Ideal) feat w cj = projFn feat w cj :=
  (Cert.ReferenceIdeal.ProjValue.refProj_eq feat w cj).trans rfl

theorem layer_eq (feat : FVec Ideal Cert.KernelIdeal.S70000x128 .f32) (w : FVec Ideal Cert.KernelIdeal.S128x128 .f32) (cj ci : FVec Ideal Cert.KernelIdeal.S70000x1 .f32) (e : IVec Cert.KernelIdeal.S2x1000000 32) :
    Cert.ReferenceIdeal.Spec.layer (F := Ideal) feat w cj ci e = Cert.KernelIdeal.Gen.layerI feat w cj ci e := by
  unfold Cert.ReferenceIdeal.Spec.layer Cert.KernelIdeal.Gen.layerI
  rw [proj_eq, agg_eq, edgeSrc_eq, edgeDst_eq]

theorem graph_eq (a0 : FVec Ideal Cert.KernelIdeal.S50000x128 .f32) (a1 : FVec Ideal Cert.KernelIdeal.S20000x128 .f32) (w : FVec Ideal Cert.KernelIdeal.S3x128x128 .f32) (ci cj : FVec Ideal Cert.KernelIdeal.S70000x1 .f32) (e : IVec Cert.KernelIdeal.S2x1000000 32) :
    Cert.ReferenceIdeal.Spec.graph (F := Ideal) a0 a1 w ci cj e = Cert.KernelIdeal.Gen.graphI a0 a1 w ci cj e := by
  unfold Cert.ReferenceIdeal.Spec.graph Cert.KernelIdeal.Gen.graphI
  rw [feat0_eq, wt0_eq, wt1_eq, wt2_eq, layer_eq, layer_eq, layer_eq]

end Cert.Cross

end
-- ==== Proof.KI.RefGather.lean ====
/-
  The reference's three closing row gathers, read at an index: on ids inside the table the "negative id counts from
  the end" select is the identity and the gather's clamp does nothing, so result row `r` is the operand's row `sid r`.
-/
import proofs.«180269_j89635967468180_1_alg».proof.Proof.Gen.ReferenceIdeal
import Idealize.ShloMosaic.Lib.Pipeline.Value
import Idealize.ShloMosaic.Lib.ValueIdx

noncomputable section

namespace Cert.ReferenceIdeal.Gath

open Cert.ReferenceIdeal Cert.ReferenceIdeal.Gen Idealize.ShloMosaic Idealize.ShloMosaic.ValueIdx

/-- A 32-bit word whose signed value is not negative has that value as its unsigned one. -/
theorem toNat_of_nonneg (v : BitVec 32) (h0 : 0 ≤ v.toInt) : ((v.toNat : Nat) : Int) = v.toInt := by
  have hlt : v.toNat < 2 ^ 32 := v.isLt
  rw [BitVec.toInt_eq_toNat_cond] at h0 ⊢
  split at h0 <;> rename_i hc
  · rw [if_pos hc]
  · exfalso; omega

/-- "id < 0" is false on an id that is not negative. -/
theorem cmpi_slt_zero (v : BitVec 32) (h0 : 0 ≤ v.toInt) : IntOp.cmpi .slt v 0#32 = 0#1 := by
  have e : v.slt 0#32 = false := by
    show decide (v.toInt < (0#32).toInt) = false
    exact decide_eq_false (by rw [BitVec.toInt_zero]; omega)
  show BitVec.ofBool (v.slt 0#32) = 0#1
  rw [e]; rfl

/-- The start indices of a row gather by the ids `sid` into a table of `n` rows: a negative id counted from the
    table's end, and a trailing unit axis added. -/
abbrev startIdx (n : BitVec 32) (sid : IVec S8192 32) : IVec S8192x1 32 :=
  broadcastInDim S8192x1 ![0] bcast_S8192_S8192x1_0
    (select (cmpi .slt sid (broadcastInDim S8192 ![] bcast_S_S8192 (constantI S_ 32 0#32)))
      (addi sid (broadcastInDim S8192 ![] bcast_S_S8192 (constantI S_ 32 n))) sid)

/-- On ids that are not negative the start index of batch entry `r` is the id itself. -/
theorem startIdx_apply (n : BitVec 32) (sid : IVec S8192 32) (r : Fin 8192) (z : Fin 1) (h0 : 0 ≤ (sid (ix1 r)).toInt) :
    startIdx n sid (ix2 r z) = sid (ix1 r) := by
  unfold startIdx
  rw [broadcastInDim_apply (![0] : Fin 1 → Fin S8192x1.rank) bcast_S8192_S8192x1_0 _ (ix2 r z) (ix1 r)
    (fun a => by obtain rfl : a = 0 := Subsingleton.elim _ _; rfl)]
  rw [select_apply]
  show Scalar.select (IntOp.cmpi .slt (sid (ix1 r)) 0#32) _ _ = _
  rw [cmpi_slt_zero _ h0, select_zero]

section Gathers
variable {α : Type}

/-- Result row `r` of the student gather is row `sid r` of the operand. -/
theorem refGather_stu (x : S50000x128.Idx → α) (sid : IVec S8192 32)
    (h : ∀ j, 0 ≤ (sid j).toInt ∧ (sid j).toInt < 50000) (r : Fin 8192) (q : Fin 128) :
    Host.gather gather_S50000x128_S8192x1_S8192x128_1_0_n_n_0_1_1128 x (startIdx 50000#32 sid) (ix2 r q)
      = x (ix2 ⟨(sid (ix1 r)).toNat, by have := toNat_of_nonneg _ (h (ix1 r)).1; have := (h (ix1 r)).2; omega⟩ q) := by
  have hn := toNat_of_nonneg _ (h (ix1 r)).1
  have hu := (h (ix1 r)).2
  unfold Host.gather
  refine congrArg x (funext fun a => Fin.ext ?_)
  match a with
  | ⟨0, _⟩ =>
    show gather_S50000x128_S8192x1_S8192x128_1_0_n_n_0_1_1128.start (ix2 r q) (startIdx 50000#32 sid) 0
      + gather_S50000x128_S8192x1_S8192x128_1_0_n_n_0_1_1128.batchCoord (ix2 r q) 0
      + gather_S50000x128_S8192x1_S8192x128_1_0_n_n_0_1_1128.offCoord (ix2 r q) 0 = (sid (ix1 r)).toNat
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S50000x128_S8192x1_S8192x128_1_0_n_n_0_1_1128.startIndexMap from List.mem_singleton.mpr rfl)]
    have hsi : gather_S50000x128_S8192x1_S8192x128_1_0_n_n_0_1_1128.siIdx (ix2 r q)
        ⟨List.idxOf (0 : Fin 2) gather_S50000x128_S8192x1_S8192x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, startIdx_apply _ _ _ _ (h (ix1 r)).1]
    show min (sid (ix1 r)).toInt.toNat (50000 - 1) = _
    omega
  | ⟨1, _⟩ =>
    show gather_S50000x128_S8192x1_S8192x128_1_0_n_n_0_1_1128.start (ix2 r q) (startIdx 50000#32 sid) 1
      + gather_S50000x128_S8192x1_S8192x128_1_0_n_n_0_1_1128.batchCoord (ix2 r q) 1
      + gather_S50000x128_S8192x1_S8192x128_1_0_n_n_0_1_1128.offCoord (ix2 r q) 1 = q.val
    rw [GatherDims.batchCoord_eq_zero _ _ _ List.not_mem_nil]
    unfold GatherDims.start
    rw [dif_neg (show (1 : Fin 2) ∉ gather_S50000x128_S8192x1_S8192x128_1_0_n_n_0_1_1128.startIndexMap from by decide)]
    show 0 + 0 + gather_S50000x128_S8192x1_S8192x128_1_0_n_n_0_1_1128.offCoord (ix2 r q) 1 = q.val
    simp only [Nat.zero_add]
    rfl

/-- Result row `r` of the exercise gather is row `sid r` of the operand. -/
theorem refGather_exer (x : S20000x128.Idx → α) (sid : IVec S8192 32)
    (h : ∀ j, 0 ≤ (sid j).toInt ∧ (sid j).toInt < 20000) (r : Fin 8192) (q : Fin 128) :
    Host.gather gather_S20000x128_S8192x1_S8192x128_1_0_n_n_0_1_1128 x (startIdx 20000#32 sid) (ix2 r q)
      = x (ix2 ⟨(sid (ix1 r)).toNat, by have := toNat_of_nonneg _ (h (ix1 r)).1; have := (h (ix1 r)).2; omega⟩ q) := by
  have hn := toNat_of_nonneg _ (h (ix1 r)).1
  have hu := (h (ix1 r)).2
  unfold Host.gather
  refine congrArg x (funext fun a => Fin.ext ?_)
  match a with
  | ⟨0, _⟩ =>
    show gather_S20000x128_S8192x1_S8192x128_1_0_n_n_0_1_1128.start (ix2 r q) (startIdx 20000#32 sid) 0
      + gather_S20000x128_S8192x1_S8192x128_1_0_n_n_0_1_1128.batchCoord (ix2 r q) 0
      + gather_S20000x128_S8192x1_S8192x128_1_0_n_n_0_1_1128.offCoord (ix2 r q) 0 = (sid (ix1 r)).toNat
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S20000x128_S8192x1_S8192x128_1_0_n_n_0_1_1128.startIndexMap from List.mem_singleton.mpr rfl)]
    have hsi : gather_S20000x128_S8192x1_S8192x128_1_0_n_n_0_1_1128.siIdx (ix2 r q)
        ⟨List.idxOf (0 : Fin 2) gather_S20000x128_S8192x1_S8192x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, startIdx_apply _ _ _ _ (h (ix1 r)).1]
    show min (sid (ix1 r)).toInt.toNat (20000 - 1) = _
    omega
  | ⟨1, _⟩ =>
    show gather_S20000x128_S8192x1_S8192x128_1_0_n_n_0_1_1128.start (ix2 r q) (startIdx 20000#32 sid) 1
      + gather_S20000x128_S8192x1_S8192x128_1_0_n_n_0_1_1128.batchCoord (ix2 r q) 1
      + gather_S20000x128_S8192x1_S8192x128_1_0_n_n_0_1_1128.offCoord (ix2 r q) 1 = q.val
    rw [GatherDims.batchCoord_eq_zero _ _ _ List.not_mem_nil]
    unfold GatherDims.start
    rw [dif_neg (show (1 : Fin 2) ∉ gather_S20000x128_S8192x1_S8192x128_1_0_n_n_0_1_1128.startIndexMap from by decide)]
    show 0 + 0 + gather_S20000x128_S8192x1_S8192x128_1_0_n_n_0_1_1128.offCoord (ix2 r q) 1 = q.val
    simp only [Nat.zero_add]
    rfl

/-- Result row `r` of the one-column gather is row `sid r` of the operand. -/
theorem refGather_disc (x : S20000x1.Idx → α) (sid : IVec S8192 32)
    (h : ∀ j, 0 ≤ (sid j).toInt ∧ (sid j).toInt < 20000) (r : Fin 8192) (q : Fin 1) :
    Host.gather gather_S20000x1_S8192x1_S8192x1_1_0_n_n_0_1_11 x (startIdx 20000#32 sid) (ix2 r q)
      = x (ix2 ⟨(sid (ix1 r)).toNat, by have := toNat_of_nonneg _ (h (ix1 r)).1; have := (h (ix1 r)).2; omega⟩ q) := by
  have hn := toNat_of_nonneg _ (h (ix1 r)).1
  have hu := (h (ix1 r)).2
  unfold Host.gather
  refine congrArg x (funext fun a => Fin.ext ?_)
  match a with
  | ⟨0, _⟩ =>
    show gather_S20000x1_S8192x1_S8192x1_1_0_n_n_0_1_11.start (ix2 r q) (startIdx 20000#32 sid) 0
      + gather_S20000x1_S8192x1_S8192x1_1_0_n_n_0_1_11.batchCoord (ix2 r q) 0
      + gather_S20000x1_S8192x1_S8192x1_1_0_n_n_0_1_11.offCoord (ix2 r q) 0 = (sid (ix1 r)).toNat
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S20000x1_S8192x1_S8192x1_1_0_n_n_0_1_11.startIndexMap from List.mem_singleton.mpr rfl)]
    have hsi : gather_S20000x1_S8192x1_S8192x1_1_0_n_n_0_1_11.siIdx (ix2 r q)
        ⟨List.idxOf (0 : Fin 2) gather_S20000x1_S8192x1_S8192x1_1_0_n_n_0_1_11.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, startIdx_apply _ _ _ _ (h (ix1 r)).1]
    show min (sid (ix1 r)).toInt.toNat (20000 - 1) = _
    omega
  | ⟨1, _⟩ =>
    show gather_S20000x1_S8192x1_S8192x1_1_0_n_n_0_1_11.start (ix2 r q) (startIdx 20000#32 sid) 1
      + gather_S20000x1_S8192x1_S8192x1_1_0_n_n_0_1_11.batchCoord (ix2 r q) 1
      + gather_S20000x1_S8192x1_S8192x1_1_0_n_n_0_1_11.offCoord (ix2 r q) 1 = q.val
    rw [GatherDims.batchCoord_eq_zero _ _ _ List.not_mem_nil]
    unfold GatherDims.start
    rw [dif_neg (show (1 : Fin 2) ∉ gather_S20000x1_S8192x1_S8192x1_1_0_n_n_0_1_11.startIndexMap from by decide)]
    show 0 + 0 + gather_S20000x1_S8192x1_S8192x1_1_0_n_n_0_1_11.offCoord (ix2 r q) 1 = q.val
    simp only [Nat.zero_add]
    rfl

end Gathers

end Cert.ReferenceIdeal.Gath

end
-- ==== Proof.KI.Final.lean ====
/-
  The five claims. The three frames: the kernel programs' from their runs (the ids in range under the precondition), the
  reference's from its generated run. The idealized kernel program against the reference, from memories agreeing on the
  arguments: both end with the same three looked-up arrays — the reference's row lookups read, under ids in range, the
  rows the kernel's gathering call copies, out of the same per-graph sums — and with the knowledge array unchanged.
-/
import proofs.«180269_j89635967468180_1_alg».proof.Defs
import proofs.«180269_j89635967468180_1_alg».proof.Proof.KI.FrameKI
import proofs.«180269_j89635967468180_1_alg».proof.Proof.K.FrameK
import proofs.«180269_j89635967468180_1_alg».proof.Proof.KI.Result
import proofs.«180269_j89635967468180_1_alg».proof.Proof.KI.Cross
import proofs.«180269_j89635967468180_1_alg».proof.Proof.KI.RefGather
import proofs.«180269_j89635967468180_1_alg».proof.Proof.Gen.Kernel
import proofs.«180269_j89635967468180_1_alg».proof.Proof.Gen.KernelIdeal
import proofs.«180269_j89635967468180_1_alg».proof.Proof.Gen.ReferenceIdeal
import proofs.«180269_j89635967468180_1_alg».proof.Proof.Gen.Pre_finite_inputs

set_option maxRecDepth 16384

noncomputable section

namespace Cert.Proof.Final

open Idealize.ShloMosaic Idealize.ShloMosaic.TcCoe Idealize.SL.Sem Idealize.ShloMosaic.ValueIdx

theorem frame_ri : Cert.frame_ReferenceIdeal := fun m ρ _ =>
  (θ_run Cert.ReferenceIdeal.defs _ _).mono (fun _ h c => (h c).2.2.2.2) (Cert.ReferenceIdeal.Value.run (F := Ideal) m ρ)

section Alg

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m)
  (hagree : ∀ c : Dev Cert.KernelIdeal.nD,
      (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
include ρ hpre hagree

/-- The reference's two graph results are the kernel program's, at agreeing arguments. -/
theorem w1_eq (c : Dev Cert.KernelIdeal.nD) : Cert.ReferenceIdeal.Spec.w1 m' c = Cert.KernelIdeal.Gen.graphI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) := by
  unfold Cert.ReferenceIdeal.Spec.w1
  rw [(hagree c).1, (hagree c).2.1, (hagree c).2.2.2.2.1, (hagree c).2.2.2.2.2.2.1, (hagree c).2.2.2.2.2.2.2.1, (hagree c).2.2.2.2.2.2.2.2.2.2.1]
  exact Cert.Cross.graph_eq _ _ _ _ _ _
theorem w2_eq (c : Dev Cert.KernelIdeal.nD) : Cert.ReferenceIdeal.Spec.w2 m' c = Cert.KernelIdeal.Gen.graphI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) := by
  unfold Cert.ReferenceIdeal.Spec.w2
  rw [(hagree c).1, (hagree c).2.1, (hagree c).2.2.2.2.2.1, (hagree c).2.2.2.2.2.2.2.2.1, (hagree c).2.2.2.2.2.2.2.2.2.1, (hagree c).2.2.2.2.2.2.2.2.2.2.2.1]
  exact Cert.Cross.graph_eq _ _ _ _ _ _

/-- The first result: the reference's student-row lookup reads, the ids being in range, the rows the kernel's gathering
    call copies out of the same sum of the two graphs' student rows. -/
theorem key0 (hO : Cert.KernelIdeal.Gen.Ok m) (c : Dev Cert.KernelIdeal.nD) :
    Cert.ReferenceIdeal.Value.res_main_v123 m' c = Cert.KernelIdeal.Gen.W15 m ρ hO c (Proc.devRef .tc Cert.KernelIdeal.main_v109) := by
  funext (j : Cert.KernelIdeal.S8192x128.Idx)
  obtain ⟨r, q, rfl⟩ : ∃ (r : Fin 8192) (q : Fin 128), j = ix2 r q := ⟨j 0, j 1, eq_ix2 j⟩
  rw [Cert.ReferenceIdeal.Spec.res123_eq, w1_eq m ρ m' hpre hagree c, w2_eq m ρ m' hpre hagree c, (hagree c).2.2.2.2.2.2.2.2.2.2.2.2.1, Cert.Cross.stuSum_eq]
  refine (Cert.ReferenceIdeal.Gath.refGather_stu _ _ (Cert.PreIdx.sid_range _ _ _ _ _ _ _ _ _ _ _ _ _ _ (hpre c)) r q).trans ?_
  exact (Cert.KernelIdeal.Gen.res0 m ρ hO c r q).symm

theorem key1 (hO : Cert.KernelIdeal.Gen.Ok m) (c : Dev Cert.KernelIdeal.nD) :
    Cert.ReferenceIdeal.Value.res_main_v130 m' c = Cert.KernelIdeal.Gen.W15 m ρ hO c (Proc.devRef .tc Cert.KernelIdeal.main_v110) := by
  funext (j : Cert.KernelIdeal.S8192x128.Idx)
  obtain ⟨r, q, rfl⟩ : ∃ (r : Fin 8192) (q : Fin 128), j = ix2 r q := ⟨j 0, j 1, eq_ix2 j⟩
  rw [Cert.ReferenceIdeal.Spec.res130_eq, w1_eq m ρ m' hpre hagree c, w2_eq m ρ m' hpre hagree c, (hagree c).2.2.2.2.2.2.2.2.2.2.2.2.2, Cert.Cross.exerSum_eq]
  refine (Cert.ReferenceIdeal.Gath.refGather_exer _ _ (Cert.PreIdx.eid_range _ _ _ _ _ _ _ _ _ _ _ _ _ _ (hpre c)) r q).trans ?_
  exact (Cert.KernelIdeal.Gen.res1 m ρ hO c r q).symm

open Cert.ReferenceIdeal Cert.ReferenceIdeal.Gen in
theorem key2 (hO : Cert.KernelIdeal.Gen.Ok m) (c : Dev Cert.KernelIdeal.nD) :
    Host.gather gather_S20000x1_S8192x1_S8192x1_1_0_n_n_0_1_11 (m' ((c.tc : Thread Cert.ReferenceIdeal.nD Cert.ReferenceIdeal.τ).loc Cert.ReferenceIdeal.main_arg3)) (broadcastInDim S8192x1 ![0] bcast_S8192_S8192x1_0 (select (cmpi .slt (m' ((c.tc : Thread Cert.ReferenceIdeal.nD Cert.ReferenceIdeal.τ).loc Cert.ReferenceIdeal.main_arg13)) (broadcastInDim S8192 ![] bcast_S_S8192 (constantI S_ 32 0#32))) (addi (m' ((c.tc : Thread Cert.ReferenceIdeal.nD Cert.ReferenceIdeal.τ).loc Cert.ReferenceIdeal.main_arg13)) (broadcastInDim S8192 ![] bcast_S_S8192 (constantI S_ 32 20000#32))) (m' ((c.tc : Thread Cert.ReferenceIdeal.nD Cert.ReferenceIdeal.τ).loc Cert.ReferenceIdeal.main_arg13))))
      = Cert.KernelIdeal.Gen.W15 m ρ hO c (Proc.devRef .tc Cert.KernelIdeal.main_v111) := by
  funext (j : Cert.KernelIdeal.S8192x1.Idx)
  obtain ⟨r, z, rfl⟩ : ∃ (r : Fin 8192) (z : Fin 1), j = ix2 r z := ⟨j 0, j 1, eq_ix2 j⟩
  rw [(hagree c).2.2.2.1, (hagree c).2.2.2.2.2.2.2.2.2.2.2.2.2]
  refine (Cert.ReferenceIdeal.Gath.refGather_disc _ _ (Cert.PreIdx.eid_range _ _ _ _ _ _ _ _ _ _ _ _ _ _ (hpre c)) r z).trans ?_
  exact (Cert.KernelIdeal.Gen.res2 m ρ hO c r z).symm

end Alg

/-- The idealized kernel program and the reference end with equal results. -/
theorem algebraic : Cert.algebraic_KernelIdeal_ReferenceIdeal := by
  intro m ρ m' ρ' hpre hagree
  have hO := Cert.KernelIdeal.Gen.ok_of_pre m hpre
  refine ⟨fun c => Cert.KernelIdeal.Gen.W15 m ρ hO c (Proc.devRef .tc Cert.KernelIdeal.main_v109),
    fun c => Cert.KernelIdeal.Gen.W15 m ρ hO c (Proc.devRef .tc Cert.KernelIdeal.main_v110),
    fun c => Cert.KernelIdeal.Gen.W15 m ρ hO c (Proc.devRef .tc Cert.KernelIdeal.main_v111),
    fun c => m ((c.tc : Thread Cert.KernelIdeal.nD Cert.KernelIdeal.τ).loc Cert.KernelIdeal.main_arg2), ?_, ?_⟩
  · exact (θ_run Cert.KernelIdeal.defs _ _).mono (fun r h c => ⟨h c _ (Cert.KernelIdeal.Gen.mem_uc Cert.KernelIdeal.main_v109 (by decide)),
      h c _ (Cert.KernelIdeal.Gen.mem_uc Cert.KernelIdeal.main_v110 (by decide)),
      h c _ (Cert.KernelIdeal.Gen.mem_uc Cert.KernelIdeal.main_v111 (by decide)),
      (h c _ (Cert.KernelIdeal.Gen.mem_uc Cert.KernelIdeal.main_arg2 (by decide))).trans (Cert.KernelIdeal.Gen.W15_main_arg2 m ρ hO c),
      (h c _ (Cert.KernelIdeal.Gen.mem_uc Cert.KernelIdeal.main_arg0 (by decide))).trans (Cert.KernelIdeal.Gen.W15_main_arg0 m ρ hO c),
      (h c _ (Cert.KernelIdeal.Gen.mem_uc Cert.KernelIdeal.main_arg1 (by decide))).trans (Cert.KernelIdeal.Gen.W15_main_arg1 m ρ hO c),
      (h c _ (Cert.KernelIdeal.Gen.mem_uc Cert.KernelIdeal.main_arg2 (by decide))).trans (Cert.KernelIdeal.Gen.W15_main_arg2 m ρ hO c),
      (h c _ (Cert.KernelIdeal.Gen.mem_uc Cert.KernelIdeal.main_arg3 (by decide))).trans (Cert.KernelIdeal.Gen.W15_main_arg3 m ρ hO c),
      (h c _ (Cert.KernelIdeal.Gen.mem_uc Cert.KernelIdeal.main_arg4 (by decide))).trans (Cert.KernelIdeal.Gen.W15_main_arg4 m ρ hO c),
      (h c _ (Cert.KernelIdeal.Gen.mem_uc Cert.KernelIdeal.main_arg5 (by decide))).trans (Cert.KernelIdeal.Gen.W15_main_arg5 m ρ hO c),
      (h c _ (Cert.KernelIdeal.Gen.mem_uc Cert.KernelIdeal.main_arg6 (by decide))).trans (Cert.KernelIdeal.Gen.W15_main_arg6 m ρ hO c),
      (h c _ (Cert.KernelIdeal.Gen.mem_uc Cert.KernelIdeal.main_arg7 (by decide))).trans (Cert.KernelIdeal.Gen.W15_main_arg7 m ρ hO c),
      (h c _ (Cert.KernelIdeal.Gen.mem_uc Cert.KernelIdeal.main_arg8 (by decide))).trans (Cert.KernelIdeal.Gen.W15_main_arg8 m ρ hO c),
      (h c _ (Cert.KernelIdeal.Gen.mem_uc Cert.KernelIdeal.main_arg9 (by decide))).trans (Cert.KernelIdeal.Gen.W15_main_arg9 m ρ hO c),
      (h c _ (Cert.KernelIdeal.Gen.mem_uc Cert.KernelIdeal.main_arg10 (by decide))).trans (Cert.KernelIdeal.Gen.W15_main_arg10 m ρ hO c),
      (h c _ (Cert.KernelIdeal.Gen.mem_uc Cert.KernelIdeal.main_arg11 (by decide))).trans (Cert.KernelIdeal.Gen.W15_main_arg11 m ρ hO c),
      (h c _ (Cert.KernelIdeal.Gen.mem_uc Cert.KernelIdeal.main_arg12 (by decide))).trans (Cert.KernelIdeal.Gen.W15_main_arg12 m ρ hO c),
      (h c _ (Cert.KernelIdeal.Gen.mem_uc Cert.KernelIdeal.main_arg13 (by decide))).trans (Cert.KernelIdeal.Gen.W15_main_arg13 m ρ hO c)⟩) (Cert.KernelIdeal.Gen.run m ρ hO)
  · exact (θ_run Cert.ReferenceIdeal.defs _ _).mono (fun r h c => ⟨(h c).1.trans (key0 m ρ m' hpre hagree hO c), (h c).2.1.trans (key1 m ρ m' hpre hagree hO c),
      (h c).2.2.1.trans (key2 m ρ m' hpre hagree hO c), (h c).2.2.2.1.trans (hagree c).2.2.1, (h c).2.2.2.2⟩)
      (Cert.ReferenceIdeal.Value.run (F := Ideal) m' ρ')

end Cert.Proof.Final

end
-- ==== Proof.lean ====
/-
  The kernel: a three-layer graph convolution over two bipartite student–exercise graphs. Node features are the student
  rows above the exercise rows; each layer projects the features by the layer's weight matrix and scales every row by its
  source-side normalizer (computed block by block, 5000 rows at a time), gathers the projected rows along the edges'
  sources, scatter-adds them at the edges' destinations, and scales every row by its destination-side normalizer. The two
  graphs' results are summed on the student rows and on the exercise rows, and a last call looks up one student row, one
  exercise row and one discrimination entry per batch element by prefetched id tables. The reference computes the same
  with one whole matrix product per layer and plain row lookups.

  Over the extended reals the blockwise projection is the whole one: both are, entry by entry, the same sum of products
  times the same scale, with no regrouping across rows (no finiteness is needed). Everything after the projection is
  the same host operation on both sides. The row lookups agree wherever the ids are in range — student ids in
  [0, 50000), exercise ids in [0, 20000) — which the precondition states; outside it the kernel's table-indexed block
  would fall outside its array. The frames: every pallas_call's windows are staged and flushed by the launch, the bodies
  run on whole staging buffers, and no argument array is ever an output window.
-/
import proofs.«180269_j89635967468180_1_alg».proof.Defs
import proofs.«180269_j89635967468180_1_alg».proof.Proof.Gen.Kernel
import proofs.«180269_j89635967468180_1_alg».proof.Proof.Gen.KernelIdeal
import proofs.«180269_j89635967468180_1_alg».proof.Proof.Gen.ReferenceIdeal
import proofs.«180269_j89635967468180_1_alg».proof.Proof.Gen.Pre_finite_inputs
import proofs.«180269_j89635967468180_1_alg».proof.Proof.Gen.ReferenceIdeal.Run
import proofs.«180269_j89635967468180_1_alg».proof.Proof.Gen.ReferenceIdeal.Read
import proofs.«180269_j89635967468180_1_alg».proof.Proof.KI.Final
import Idealize.ShloMosaic.Adequacy
import Idealize.ShloMosaic.Init

noncomputable section

namespace Cert.Proof

open Idealize.ShloMosaic Idealize.SL.Sem Cert.Kernel

/-- The ideal pass rewrote nothing, so there is nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  Cert.Kernel.Gen.frame_of_pre, Cert.KernelIdeal.Gen.frame_of_pre, Cert.Proof.Final.frame_ri, preserves, Cert.Proof.Final.algebraic⟩

end Cert.Proof

end
